-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x60 : Shape := ⟨2, ![1433, 60]⟩
abbrev S60 : Shape := ⟨1, ![60]⟩
abbrev S60x30 : Shape := ⟨2, ![60, 30]⟩
abbrev S30 : Shape := ⟨1, ![30]⟩
abbrev S30x7 : Shape := ⟨2, ![30, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x60 : S_.BroadcastsInDim S1433x60 (![] : Fin 0 → Fin S1433x60.rank)
  reducesTo_S1433x60_S_d0_1 : S1433x60.ReducesTo [0, 1] S_
  bcast_S_S60 : S_.BroadcastsInDim S60 (![] : Fin 0 → Fin S60.rank)
  reducesTo_S60_S_d0 : S60.ReducesTo [0] S_
  bcast_S_S60x30 : S_.BroadcastsInDim S60x30 (![] : Fin 0 → Fin S60x30.rank)
  reducesTo_S60x30_S_d0_1 : S60x30.ReducesTo [0, 1] S_
  bcast_S_S30 : S_.BroadcastsInDim S30 (![] : Fin 0 → Fin S30.rank)
  reducesTo_S30_S_d0 : S30.ReducesTo [0] S_
  bcast_S_S30x7 : S_.BroadcastsInDim S30x7 (![] : Fin 0 → Fin S30x7.rank)
  reducesTo_S30x7_S_d0_1 : S30x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg7 : FVec F S7 .f32) (main_v33 : IVec S_ 1) : IVec S_ 1 :=
  let main_v34 : FVec F S7 .f32 := Host.absf main_arg7
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg4 : FVec F S60x30 .f32) (main_arg5 : FVec F S30 .f32) (main_arg6 : FVec F S30x7 .f32) (main_arg7 : FVec F S7 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S60x30 .f32 := Host.absf main_arg4
  let main_cst_6 : FVec F S_ .f32 := constant S_ .f32 0x7F800000#32
  let main_v20 : FVec F S60x30 .f32 := broadcastInDim S60x30 ![] bcast_S_S60x30 main_cst_6
  let main_v21 : IVec S60x30 1 := cmpf .olt main_v19 main_v20
  let main_c_7 : IVec S_ 1 := constantI S_ 1 1#1
  let main_v22 : IVec S_ 1 := (fun x v => Host.reduce IntOp.andi x v reducesTo_S60x30_S_d0_1 h_S_) main_v21 main_c_7
  let main_v23 : IVec S_ 1 := andi main_v18 main_v22
  let main_v24 : FVec F S30 .f32 := Host.absf main_arg5
  let main_cst_8 : FVec F S_ .f32 := constant S_ .f32 0x7F800000#32
  let main_v25 : FVec F S30 .f32 := broadcastInDim S30 ![] bcast_S_S30 main_cst_8
  let main_v26 : IVec S30 1 := cmpf .olt main_v24 main_v25
  let main_c_9 : IVec S_ 1 := constantI S_ 1 1#1
  let main_v27 : IVec S_ 1 := (fun x v => Host.reduce IntOp.andi x v reducesTo_S30_S_d0 h_S_) main_v26 main_c_9
  let main_v28 : IVec S_ 1 := andi main_v23 main_v27
  let main_v29 : FVec F S30x7 .f32 := Host.absf main_arg6
  let main_cst_10 : FVec F S_ .f32 := constant S_ .f32 0x7F800000#32
  let main_v30 : FVec F S30x7 .f32 := broadcastInDim S30x7 ![] bcast_S_S30x7 main_cst_10
  let main_v31 : IVec S30x7 1 := cmpf .olt main_v29 main_v30
  let main_c_11 : IVec S_ 1 := constantI S_ 1 1#1
  let main_v32 : IVec S_ 1 := (fun x v => Host.reduce IntOp.andi x v reducesTo_S30x7_S_d0_1 h_S_) main_v31 main_c_11
  let main_v33 : IVec S_ 1 := andi main_v28 main_v32
  fn_part2 (F := F) main_arg7 main_v33

def fn {F : FTy → Type} [FloatOps F] (main_arg0 : FVec F S10000x1433 .f32) (main_arg1 : FVec F S10000x10000 .f32) (main_arg2 : FVec F S1433x60 .f32) (main_arg3 : FVec F S60 .f32) (main_arg4 : FVec F S60x30 .f32) (main_arg5 : FVec F S30 .f32) (main_arg6 : FVec F S30x7 .f32) (main_arg7 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x60 .f32 := Host.absf main_arg2
  let main_cst_2 : FVec F S_ .f32 := constant S_ .f32 0x7F800000#32
  let main_v10 : FVec F S1433x60 .f32 := broadcastInDim S1433x60 ![] bcast_S_S1433x60 main_cst_2
  let main_v11 : IVec S1433x60 1 := cmpf .olt main_v9 main_v10
  let main_c_3 : IVec S_ 1 := constantI S_ 1 1#1
  let main_v12 : IVec S_ 1 := (fun x v => Host.reduce IntOp.andi x v reducesTo_S1433x60_S_d0_1 h_S_) main_v11 main_c_3
  let main_v13 : IVec S_ 1 := andi main_v8 main_v12
  let main_v14 : FVec F S60 .f32 := Host.absf main_arg3
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg4 main_arg5 main_arg6 main_arg7 main_v13 main_v16
-- ==== Kernel.lean ====
abbrev S10000x1433 : Shape := ⟨2, ![10000, 1433]⟩
abbrev S10000x10000 : Shape := ⟨2, ![10000, 10000]⟩
abbrev S1433x60 : Shape := ⟨2, ![1433, 60]⟩
abbrev S60 : Shape := ⟨1, ![60]⟩
abbrev S60x30 : Shape := ⟨2, ![60, 30]⟩
abbrev S30 : Shape := ⟨1, ![30]⟩
abbrev S30x7 : Shape := ⟨2, ![30, 7]⟩
abbrev S7 : Shape := ⟨1, ![7]⟩
abbrev S1x60 : Shape := ⟨2, ![1, 60]⟩
abbrev S1x30 : Shape := ⟨2, ![1, 30]⟩
abbrev S1x7 : Shape := ⟨2, ![1, 7]⟩
abbrev S1433x10000 : Shape := ⟨2, ![1433, 10000]⟩
abbrev S_ : Shape := ⟨0, ![]⟩
abbrev S1536x10000 : Shape := ⟨2, ![1536, 10000]⟩
abbrev S1536x60 : Shape := ⟨2, ![1536, 60]⟩
abbrev S10000x60 : Shape := ⟨2, ![10000, 60]⟩
abbrev S128x10000 : Shape := ⟨2, ![128, 10000]⟩
abbrev S128x60 : Shape := ⟨2, ![128, 60]⟩
abbrev S10000x7 : Shape := ⟨2, ![10000, 7]⟩
abbrev S400x10000 : Shape := ⟨2, ![400, 10000]⟩
abbrev S400x7 : Shape := ⟨2, ![400, 7]⟩
abbrev S400x60 : Shape := ⟨2, ![400, 60]⟩
abbrev S400x30 : Shape := ⟨2, ![400, 30]⟩
abbrev S1000x10000 : Shape := ⟨2, ![1000, 10000]⟩
abbrev S1000x7 : Shape := ⟨2, ![1000, 7]⟩
abbrev S1000 : Shape := ⟨1, ![1000]⟩
abbrev S1000x1 : Shape := ⟨2, ![1000, 1]⟩

abbrev nBuf : Space → Nat
  | .hbm => 22
  | .vmem => 25
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x60, .f32⟩
  | .hbm, ⟨3, _⟩ => ⟨S60, .f32⟩
  | .hbm, ⟨4, _⟩ => ⟨S60x30, .f32⟩
  | .hbm, ⟨5, _⟩ => ⟨S30, .f32⟩
  | .hbm, ⟨6, _⟩ => ⟨S30x7, .f32⟩
  | .hbm, ⟨7, _⟩ => ⟨S7, .f32⟩
  | .hbm, ⟨8, _⟩ => ⟨S1x60, .f32⟩
  | .hbm, ⟨9, _⟩ => ⟨S1x30, .f32⟩
  | .hbm, ⟨10, _⟩ => ⟨S1x7, .f32⟩
  | .hbm, ⟨11, _⟩ => ⟨S1433x10000, .f32⟩
  | .hbm, ⟨12, _⟩ => ⟨S_, .i32⟩
  | .hbm, ⟨13, _⟩ => ⟨S_, .f32⟩
  | .hbm, ⟨14, _⟩ => ⟨S1536x10000, .f32⟩
  | .hbm, ⟨15, _⟩ => ⟨S_, .i32⟩
  | .hbm, ⟨16, _⟩ => ⟨S_, .f32⟩
  | .hbm, ⟨17, _⟩ => ⟨S1536x60, .f32⟩
  | .hbm, ⟨18, _⟩ => ⟨S10000x60, .bf16⟩
  | .hbm, ⟨19, _⟩ => ⟨S10000x7, .bf16⟩
  | .hbm, ⟨20, _⟩ => ⟨S10000x10000, .bf16⟩
  | .hbm, ⟨21, _⟩ => ⟨S10000x7, .f32⟩
  | .local _ .vmem, ⟨0, _⟩ => ⟨S128x10000, .f32⟩
  | .local _ .vmem, ⟨1, _⟩ => ⟨S128x10000, .f32⟩
  | .local _ .vmem, ⟨2, _⟩ => ⟨S128x60, .f32⟩
  | .local _ .vmem, ⟨3, _⟩ => ⟨S128x60, .f32⟩
  | .local _ .vmem, ⟨4, _⟩ => ⟨S10000x60, .bf16⟩
  | .local _ .vmem, ⟨5, _⟩ => ⟨S10000x60, .f32⟩
  | .local _ .vmem, ⟨6, _⟩ => ⟨S400x10000, .f32⟩
  | .local _ .vmem, ⟨7, _⟩ => ⟨S400x10000, .f32⟩
  | .local _ .vmem, ⟨8, _⟩ => ⟨S10000x60, .bf16⟩
  | .local _ .vmem, ⟨9, _⟩ => ⟨S1x60, .f32⟩
  | .local _ .vmem, ⟨10, _⟩ => ⟨S60x30, .f32⟩
  | .local _ .vmem, ⟨11, _⟩ => ⟨S30x7, .f32⟩
  | .local _ .vmem, ⟨12, _⟩ => ⟨S400x7, .bf16⟩
  | .local _ .vmem, ⟨13, _⟩ => ⟨S400x7, .bf16⟩
  | .local _ .vmem, ⟨14, _⟩ => ⟨S400x10000, .bf16⟩
  | .local _ .vmem, ⟨15, _⟩ => ⟨S400x10000, .bf16⟩
  | .local _ .vmem, ⟨16, _⟩ => ⟨S1000x10000, .bf16⟩
  | .local _ .vmem, ⟨17, _⟩ => ⟨S1000x10000, .bf16⟩
  | .local _ .vmem, ⟨18, _⟩ => ⟨S10000x7, .bf16⟩
  | .local _ .vmem, ⟨19, _⟩ => ⟨S1x30, .f32⟩
  | .local _ .vmem, ⟨20, _⟩ => ⟨S30x7, .f32⟩
  | .local _ .vmem, ⟨21, _⟩ => ⟨S1x7, .f32⟩
  | .local _ .vmem, ⟨22, _⟩ => ⟨S1000x7, .f32⟩
  | .local _ .vmem, ⟨23, _⟩ => ⟨S1000x7, .f32⟩
  | .local _ .vmem, ⟨24, _⟩ => ⟨S10000x7, .bf16⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c11_i32 : BitVec 32 := 11#32
  let v13 : BitVec 1 := Scalar.cmpi .eq arg0 c11_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x60 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x60 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x60 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S60x30 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S30x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x7 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x10000 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def k2_cond1 (i : grid2.Coords) : BitVec 1 :=
  let arg0 : BitVec 32 := BitVec.ofNat 32 (i 0).val
  let c10_i32_0 : BitVec 32 := 10#32
  let v1 : BitVec 1 := Scalar.cmpi .slt arg0 c10_i32_0
  let v2 : BitVec 32 := Scalar.extui v1
  let c0_i32 : BitVec 32 := 0#32
  let v3 : BitVec 1 := Scalar.cmpi .ne v2 c0_i32
  v3

def k2_off1 (i : grid2.Coords) : Fin 2 → Nat :=
  let arg0 : BitVec 32 := BitVec.ofNat 32 (i 0).val
  let c10_i32 : BitVec 32 := 10#32
  let v0 : BitVec 32 := Scalar.remsi arg0 c10_i32
  let c1000_i32 : BitVec 32 := 1000#32
  let v19 : BitVec 32 := Scalar.muli v0 c1000_i32
  let v20 : Index := Scalar.indexCast v19
  let c0_11 : Index := 0#32
  ![v20.toNat, 0]
def k2_cond2 (i : grid2.Coords) : BitVec 1 :=
  let arg0 : BitVec 32 := BitVec.ofNat 32 (i 0).val
  let c10_i32_1 : BitVec 32 := 10#32
  let v4 : BitVec 1 := Scalar.cmpi .sge arg0 c10_i32_1
  let v5 : BitVec 32 := Scalar.extui v4
  let c0_i32_2 : BitVec 32 := 0#32
  let v6 : BitVec 1 := Scalar.cmpi .ne v5 c0_i32_2
  v6

def cc2_transform_0 (i : grid2.Coords) : Fin 2 → Nat :=
  let arg0 : BitVec 32 := BitVec.ofNat 32 (i 0).val
  let c10_i32 : BitVec 32 := 10#32
  let v0 : BitVec 32 := Scalar.remsi arg0 c10_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x30 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S30x7 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x7 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x7 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S60_S1x60 : S60.ShapeCasts S1x60
  shapeCasts_S30_S1x30 : S30.ShapeCasts S1x30
  shapeCasts_S7_S1x7 : S7.ShapeCasts S1x7
  transposes_S10000x1433_S1433x10000_1_0 : S10000x1433.Transposes [1, 0] S1433x10000
  pads_S1433x10000_S1536x10000_01030_000 : S1433x10000.Pads (![0, 0] : Fin 2 → Nat) ![103, 0] ![0, 0] S1536x10000
  h_S_ : 0 < S_.numel
  pads_S1433x60_S1536x60_01030_000 : S1433x60.Pads (![0, 0] : Fin 2 → Nat) ![103, 0] ![0, 0] S1536x60
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  bitsLt_bf16_f32 : FTy.bits .bf16 < FTy.bits .f32
  inb_S128x60_S128x60_0_0 : ∀ a, (![0, 0] : Fin 2 → Nat) a + S128x60.size a ≤ S128x60.size a
  h_S128x60 : 0 < S128x60.numel
  shapeCasts_S128x60_S128x60 : S128x60.ShapeCasts S128x60
  inb_S10000x60_S10000x60_0_0 : ∀ a, (![0, 0] : Fin 2 → Nat) a + S10000x60.size a ≤ S10000x60.size a
  h_S10000x60 : 0 < S10000x60.numel
  shapeCasts_S10000x60_S10000x60 : S10000x60.ShapeCasts S10000x60
  packedbf16_S10000x60_S10000x60_0_0 : (Rect.unit (s := S10000x60) ![0, 0] S10000x60.size inb_S10000x60_S10000x60_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S400x60 : S1x60.Broadcasts S400x60
  inb_S60x30_S60x30_0_0 : ∀ a, (![0, 0] : Fin 2 → Nat) a + S60x30.size a ≤ S60x30.size a
  h_S60x30 : 0 < S60x30.numel
  inb_S30x7_S30x7_0_0 : ∀ a, (![0, 0] : Fin 2 → Nat) a + S30x7.size a ≤ S30x7.size a
  h_S30x7 : 0 < S30x7.numel
  inb_S400x7_S400x7_0_0 : ∀ a, (![0, 0] : Fin 2 → Nat) a + S400x7.size a ≤ S400x7.size a
  h_S400x7 : 0 < S400x7.numel
  packedbf16_S400x7_S400x7_0_0 : (Rect.unit (s := S400x7) ![0, 0] S400x7.size inb_S400x7_S400x7_0_0).PackedRows (EltTy.packing .bf16)
  inb_S1x30_S1x30_0_0 : ∀ a, (![0, 0] : Fin 2 → Nat) a + S1x30.size a ≤ S1x30.size a
  h_S1x30 : 0 < S1x30.numel
  shapeCasts_S1x30_S1x30 : S1x30.ShapeCasts S1x30
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  broadcasts_S1x7_S1000x7 : S1x7.Broadcasts S1000x7
  h_S1000x7 : 0 < S1000x7.numel
  shapeCasts_S1000x7_S1000x7 : S1000x7.ShapeCasts S1000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  reduces_S1000x7_S1000 : S1000x7.Reduces [1] S1000
  shapeCasts_S1000_S1000x1 : S1000.ShapeCasts S1000x1
  broadcasts_S1000x1_S1000x7 : S1000x1.Broadcasts S1000x7
  inb_S1000x7_S1000x7_0_0 : ∀ a, (![0, 0] : Fin 2 → Nat) a + S1000x7.size a ≤ S1000x7.size a
  dot_S128x10000_S128x60_S10000x60_0_0_1_1_n_n_wf : DotDims.WF S128x10000 S128x60 S10000x60 [0] [0] [1] [1] [] []
  dot_S400x10000_S10000x60_S400x60_1_0_0_1_n_n_wf : DotDims.WF S400x10000 S10000x60 S400x60 [1] [0] [0] [1] [] []
  dot_S400x60_S60x30_S400x30_1_0_0_1_n_n_wf : DotDims.WF S400x60 S60x30 S400x30 [1] [0] [0] [1] [] []
  dot_S400x30_S30x7_S400x7_1_0_0_1_n_n_wf : DotDims.WF S400x30 S30x7 S400x7 [1] [0] [0] [1] [] []
  dot_S1x30_S30x7_S1x7_1_0_0_1_n_n_wf : DotDims.WF S1x30 S30x7 S1x7 [1] [0] [0] [1] [] []
  dot_S1000x10000_S10000x7_S1000x7_1_0_0_1_n_n_wf : DotDims.WF S1000x10000 S10000x7 S1000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S1536x10000.size a
  hwx0_0 : ∀ i : grid0.Coords, EltTy.bits .f32 = 32 ∨ (Rect.block (s := S1536x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x60.size a ≤ S1536x60.size a
  hwx0_1 : ∀ i : grid0.Coords, EltTy.bits .f32 = 32 ∨ (Rect.block (s := S1536x60) S128x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x60.size a ≤ S10000x60.size a
  hwx0_2 : ∀ i : grid0.Coords, EltTy.bits .bf16 = 32 ∨ (Rect.block (s := S10000x60) S10000x60.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x60.size a ≤ S10000x60.size a
  hwx1_1 : ∀ i : grid1.Coords, EltTy.bits .bf16 = 32 ∨ (Rect.block (s := S10000x60) S10000x60.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x60.size a ≤ S1x60.size a
  hwx1_2 : ∀ i : grid1.Coords, EltTy.bits .f32 = 32 ∨ (Rect.block (s := S1x60) S1x60.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S60x30.size a ≤ S60x30.size a
  hwx1_3 : ∀ i : grid1.Coords, EltTy.bits .f32 = 32 ∨ (Rect.block (s := S60x30) S60x30.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S30x7.size a ≤ S30x7.size a
  hwx1_4 : ∀ i : grid1.Coords, EltTy.bits .f32 = 32 ∨ (Rect.block (s := S30x7) S30x7.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x7.size a ≤ S10000x7.size a
  hwx1_5 : ∀ i : grid1.Coords, EltTy.bits .bf16 = 32 ∨ (Rect.block (s := S10000x7) S400x7.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x10000.size a ≤ S10000x10000.size a
  hwx1_6 : ∀ i : grid1.Coords, EltTy.bits .bf16 = 32 ∨ (Rect.block (s := S10000x10000) S400x10000.size (cc1_transform_6 i) (hinb1_6 i)).WholeWords (EltTy.packing .bf16)
  hrank2 : 0 < grid2.rank
  k2_off1_inb : ∀ i : grid2.Coords, ∀ (k2_h1 : k2_cond1 i = 1#1), ∀ a, (k2_off1 i) a + S1000x7.size a ≤ S10000x7.size a
  k2_off1_packedbf16 : ∀ i : grid2.Coords, ∀ (k2_h1 : k2_cond1 i = 1#1), (Rect.unit (s := S10000x7) (k2_off1 i) S1000x7.size (k2_off1_inb i k2_h1)).PackedRows (EltTy.packing .bf16)
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .bf16 = 32 ∨ (Rect.block (s := S10000x7) S10000x7.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x30.size a ≤ S1x30.size a
  hwx2_2 : ∀ i : grid2.Coords, EltTy.bits .f32 = 32 ∨ (Rect.block (s := S1x30) S1x30.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S30x7.size a ≤ S30x7.size a
  hwx2_3 : ∀ i : grid2.Coords, EltTy.bits .f32 = 32 ∨ (Rect.block (s := S30x7) S30x7.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x7.size a ≤ S1x7.size a
  hwx2_4 : ∀ i : grid2.Coords, EltTy.bits .f32 = 32 ∨ (Rect.block (s := S1x7) S1x7.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x7.size a ≤ S10000x7.size a
  hwx2_5 : ∀ i : grid2.Coords, EltTy.bits .f32 = 32 ∨ (Rect.block (s := S10000x7) S1000x7.size (cc2_transform_5 i) (hinb2_5 i)).WholeWords (EltTy.packing .f32)

variable [Facts₀]

def dot_S128x10000_S128x60_S10000x60_0_0_1_1_n_n : DotDims S128x10000 S128x60 S10000x60 where
  lhsContracting := [0]
  rhsContracting := [0]
  lhsNonContracting := [1]
  rhsNonContracting := [1]
  lhsBatch := []
  rhsBatch := []
  wf := dot_S128x10000_S128x60_S10000x60_0_0_1_1_n_n_wf
def dot_S400x10000_S10000x60_S400x60_1_0_0_1_n_n : DotDims S400x10000 S10000x60 S400x60 where
  lhsContracting := [1]
  rhsContracting := [0]
  lhsNonContracting := [0]
  rhsNonContracting := [1]
  lhsBatch := []
  rhsBatch := []
  wf := dot_S400x10000_S10000x60_S400x60_1_0_0_1_n_n_wf
def dot_S400x60_S60x30_S400x30_1_0_0_1_n_n : DotDims S400x60 S60x30 S400x30 where
  lhsContracting := [1]
  rhsContracting := [0]
  lhsNonContracting := [0]
  rhsNonContracting := [1]
  lhsBatch := []
  rhsBatch := []
  wf := dot_S400x60_S60x30_S400x30_1_0_0_1_n_n_wf
def dot_S400x30_S30x7_S400x7_1_0_0_1_n_n : DotDims S400x30 S30x7 S400x7 where
  lhsContracting := [1]
  rhsContracting := [0]
  lhsNonContracting := [0]
  rhsNonContracting := [1]
  lhsBatch := []
  rhsBatch := []
  wf := dot_S400x30_S30x7_S400x7_1_0_0_1_n_n_wf
def dot_S1x30_S30x7_S1x7_1_0_0_1_n_n : DotDims S1x30 S30x7 S1x7 where
  lhsContracting := [1]
  rhsContracting := [0]
  lhsNonContracting := [0]
  rhsNonContracting := [1]
  lhsBatch := []
  rhsBatch := []
  wf := dot_S1x30_S30x7_S1x7_1_0_0_1_n_n_wf
def dot_S1000x10000_S10000x7_S1000x7_1_0_0_1_n_n : DotDims S1000x10000 S10000x7 S1000x7 where
  lhsContracting := [1]
  rhsContracting := [0]
  lhsNonContracting := [0]
  rhsNonContracting := [1]
  lhsBatch := []
  rhsBatch := []
  wf := dot_S1000x10000_S10000x7_S1000x7_1_0_0_1_n_n_wf

abbrev win0_0 : Pipeline.Window sig grid0 :=
  Pipeline.Window.ofSpec (Memref.whole main_v4) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x60.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x60.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S10000x60.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x60.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S60x30.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S30x7.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S400x7.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S400x10000.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v7_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x30.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S30x7.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x7.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8) S1000x7.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x60 : Shape := ⟨2, ![1433, 60]⟩
abbrev S60 : Shape := ⟨1, ![60]⟩
abbrev S60x30 : Shape := ⟨2, ![60, 30]⟩
abbrev S30 : Shape := ⟨1, ![30]⟩
abbrev S30x7 : Shape := ⟨2, ![30, 7]⟩
abbrev S7 : Shape := ⟨1, ![7]⟩
abbrev S10000x60 : Shape := ⟨2, ![10000, 60]⟩
abbrev S1x60 : Shape := ⟨2, ![1, 60]⟩
abbrev S_ : Shape := ⟨0, ![]⟩
abbrev S10000x30 : Shape := ⟨2, ![10000, 30]⟩
abbrev S1x30 : Shape := ⟨2, ![1, 30]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x60, .f32⟩
  | .hbm, ⟨3, _⟩ => ⟨S60, .f32⟩
  | .hbm, ⟨4, _⟩ => ⟨S60x30, .f32⟩
  | .hbm, ⟨5, _⟩ => ⟨S30, .f32⟩
  | .hbm, ⟨6, _⟩ => ⟨S30x7, .f32⟩
  | .hbm, ⟨7, _⟩ => ⟨S7, .f32⟩
  | .hbm, ⟨8, _⟩ => ⟨S10000x60, .f32⟩
  | .hbm, ⟨9, _⟩ => ⟨S10000x60, .f32⟩
  | .hbm, ⟨10, _⟩ => ⟨S1x60, .f32⟩
  | .hbm, ⟨11, _⟩ => ⟨S10000x60, .f32⟩
  | .hbm, ⟨12, _⟩ => ⟨S10000x60, .f32⟩
  | .hbm, ⟨13, _⟩ => ⟨S_, .f32⟩
  | .hbm, ⟨14, _⟩ => ⟨S10000x60, .f32⟩
  | .hbm, ⟨15, _⟩ => ⟨S10000x60, .f32⟩
  | .hbm, ⟨16, _⟩ => ⟨S10000x30, .f32⟩
  | .hbm, ⟨17, _⟩ => ⟨S10000x30, .f32⟩
  | .hbm, ⟨18, _⟩ => ⟨S1x30, .f32⟩
  | .hbm, ⟨19, _⟩ => ⟨S10000x30, .f32⟩
  | .hbm, ⟨20, _⟩ => ⟨S10000x30, .f32⟩
  | .hbm, ⟨21, _⟩ => ⟨S10000x7, .f32⟩
  | .hbm, ⟨22, _⟩ => ⟨S10000x7, .f32⟩
  | .hbm, ⟨23, _⟩ => ⟨S1x7, .f32⟩
  | .hbm, ⟨24, _⟩ => ⟨S10000x7, .f32⟩
  | .hbm, ⟨25, _⟩ => ⟨S10000x7, .f32⟩
  | .hbm, ⟨26, _⟩ => ⟨S_, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S10000x1, .f32⟩
  | .hbm, ⟨32, _⟩ => ⟨S10000x7, .f32⟩
  | .hbm, ⟨33, _⟩ => ⟨S10000x7, .f32⟩
  | .hbm, ⟨34, _⟩ => ⟨S10000x7, .f32⟩
  | .hbm, ⟨35, _⟩ => ⟨S_, .f32⟩
  | .hbm, ⟨36, _⟩ => ⟨S10000, .f32⟩
  | .hbm, ⟨37, _⟩ => ⟨S10000x1, .f32⟩
  | .hbm, ⟨38, _⟩ => ⟨S10000x1, .f32⟩
  | .hbm, ⟨39, _⟩ => ⟨S10000x7, .f32⟩
  | .hbm, ⟨40, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v16 : Ref sig .tc := ⟨.hbm, 40, rfl⟩

abbrev nD : Nat := 1
abbrev τ : Topo := Topo.v7x

variable {F : FTy → Type} [FloatOps F]

class Facts₀ : Prop where
  bcast_S60_S1x60_1 : S60.BroadcastsInDim S1x60 (![1] : Fin 1 → Fin S1x60.rank)
  bcast_S1x60_S10000x60_0_1 : S1x60.BroadcastsInDim S10000x60 (![0, 1] : Fin 2 → Fin S10000x60.rank)
  bcast_S_S10000x60 : S_.BroadcastsInDim S10000x60 (![] : Fin 0 → Fin S10000x60.rank)
  bcast_S30_S1x30_1 : S30.BroadcastsInDim S1x30 (![1] : Fin 1 → Fin S1x30.rank)
  bcast_S1x30_S10000x30_0_1 : S1x30.BroadcastsInDim S10000x30 (![0, 1] : Fin 2 → Fin S10000x30.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x1433_S1433x60_S10000x60_1_0_0_1_n_n_wf : DotDims.WF S10000x1433 S1433x60 S10000x60 [1] [0] [0] [1] [] []
  dot_S10000x10000_S10000x60_S10000x60_1_0_0_1_n_n_wf : DotDims.WF S10000x10000 S10000x60 S10000x60 [1] [0] [0] [1] [] []
  dot_S10000x60_S60x30_S10000x30_1_0_0_1_n_n_wf : DotDims.WF S10000x60 S60x30 S10000x30 [1] [0] [0] [1] [] []
  dot_S10000x10000_S10000x30_S10000x30_1_0_0_1_n_n_wf : DotDims.WF S10000x10000 S10000x30 S10000x30 [1] [0] [0] [1] [] []
  dot_S10000x30_S30x7_S10000x7_1_0_0_1_n_n_wf : DotDims.WF S10000x30 S30x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x60_S10000x60_1_0_0_1_n_n : DotDims S10000x1433 S1433x60 S10000x60 where
  lhsContracting := [1]
  rhsContracting := [0]
  lhsNonContracting := [0]
  rhsNonContracting := [1]
  lhsBatch := []
  rhsBatch := []
  wf := dot_S10000x1433_S1433x60_S10000x60_1_0_0_1_n_n_wf
def dot_S10000x10000_S10000x60_S10000x60_1_0_0_1_n_n : DotDims S10000x10000 S10000x60 S10000x60 where
  lhsContracting := [1]
  rhsContracting := [0]
  lhsNonContracting := [0]
  rhsNonContracting := [1]
  lhsBatch := []
  rhsBatch := []
  wf := dot_S10000x10000_S10000x60_S10000x60_1_0_0_1_n_n_wf
def dot_S10000x60_S60x30_S10000x30_1_0_0_1_n_n : DotDims S10000x60 S60x30 S10000x30 where
  lhsContracting := [1]
  rhsContracting := [0]
  lhsNonContracting := [0]
  rhsNonContracting := [1]
  lhsBatch := []
  rhsBatch := []
  wf := dot_S10000x60_S60x30_S10000x30_1_0_0_1_n_n_wf
def dot_S10000x10000_S10000x30_S10000x30_1_0_0_1_n_n : DotDims S10000x10000 S10000x30 S10000x30 where
  lhsContracting := [1]
  rhsContracting := [0]
  lhsNonContracting := [0]
  rhsNonContracting := [1]
  lhsBatch := []
  rhsBatch := []
  wf := dot_S10000x10000_S10000x30_S10000x30_1_0_0_1_n_n_wf
def dot_S10000x30_S30x7_S10000x7_1_0_0_1_n_n : DotDims S10000x30 S30x7 S10000x7 where
  lhsContracting := [1]
  rhsContracting := [0]
  lhsNonContracting := [0]
  rhsNonContracting := [1]
  lhsBatch := []
  rhsBatch := []
  wf := dot_S10000x30_S30x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.K.R0.Runs.lean ====
/-
  Region 0 (the first contraction, x · W1 accumulated over 12 row blocks): what the three whole-body runs share.
  The branch conditions of the body decided over the 12 grid points, where the output window is idle, the staging
  and scratch memrefs, and the region invariant with the accumulator as an owned memref beside an unopened rest.
-/
import proofs.«145497_g38912403702117_cont_8to1_b_1654_14_alg».proof.Proof.Gen.Kernel.Launch
import proofs.«145497_g38912403702117_cont_8to1_b_1654_14_alg».proof.Proof.Gen.Kernel.Skeleton
import proofs.«145497_g38912403702117_cont_8to1_b_1654_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional: the grid coordinate is positive. -/
abbrev cond0_1 (i : grid0.Coords) : Prop := (Scalar.cmpi .ne (Scalar.extui (Scalar.cmpi .sgt (BitVec.ofNat 32 (i 0).val) 0#32)) 0#32) = 1#1
/-- It holds from point 1 on. -/
theorem hcond0_1 : ∀ t : Fin cfg0.N, cond0_1 (grid0.coords t) ↔ 1 ≤ t.val :=
  (by decide +kernel : ∀ t : Fin grid0.N, cond0_1 (grid0.coords t) ↔ 1 ≤ t.val)

/-- The third conditional: the grid coordinate is 11. -/
abbrev cond0_2 (i : grid0.Coords) : Prop := k0_cond3 i = 1#1
/-- It holds at the last point only. -/
theorem hcond0_2 : ∀ t : Fin cfg0.N, cond0_2 (grid0.coords t) ↔ t.val = 11 :=
  (by decide +kernel : ∀ t : Fin grid0.N, cond0_2 (grid0.coords t) ↔ t.val = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle and not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At the last point it is live. -/
theorem liveAt0_2 : ∀ t : Fin cfg0.N, cond0_2 (grid0.coords t) → cfg0.idle 2 (grid0.coords t) = false := by decide +kernel

/-! ## The memrefs the body is called with -/

/-- The output window's one staging buffer, through which its contents are stated. -/
abbrev VO0_2 : View sig .tc .vmem S10000x60 .bf16 := (Memref.whole cc0_stg2_0 : Memref sig .tc .vmem S10000x60 .bf16).view
abbrev ms0_0 (t : Fin cfg0.N) : Memref sig .tc .vmem S128x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x60 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x60 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S10000x60 .f32 := Memref.whole cc0_scratch0
abbrev VS0_0 : View sig .tc .vmem S10000x60 .f32 := scM0_0.view

/-- Every scoped buffer of the core that is neither a staging buffer of this region nor its accumulator, at some
    contents each: carried through the region unopened. -/
def rest0 (c : Dev nD) : sProp 𝕄 :=
  Pipeline.scopedRestBut (Ix := Unit) (Name := ℕ) (U := UR sig nD τ) (Lvl := ℕ) (Val := Elt F) spec0 c [cc0_scratch0]

/-- The region invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [bigSepL_singleton, scM0_0, owns_whole]; try rfl

end Cert.Kernel.Hand

end
-- ==== Proof.K.R0.RunA.lean ====
/-
  Region 0, the body at the first grid point: the block product is stored into the accumulator, the output window
  is left untouched.
-/
import proofs.«145497_g38912403702117_cont_8to1_b_1654_14_alg».proof.Proof.K.R0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (first conditional taken, the others not: point 0). On whole memrefs, the inputs' at their contents, the
    output's at contents handed back untouched, the accumulator at anything, the body runs to the continuation holding
    the inputs and the output as they were and the accumulator with its pieces written. -/
noncomputable def kernelRun0_A (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : cond0_0 i) (hc1 : ¬cond0_1 i) (hc2 : ¬cond0_2 i)
    (x0 : Vec F S128x10000 .f32) (x1 : Vec F S128x60 .f32) :
    { LS0 : List (View.Piece (Elt F) S10000x60 .f32) //
      ∀ (xi2 : Vec F S10000x60 .bf16) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__xw_body i arg1 harg1 arg2 harg2 arg3 harg3 arg4 harg4) K } := by
  refine ⟨?_, fun xi2 E K => ?run⟩
  case run =>
    simp only [cc0__xw_body_eq_skeleton]; unfold cc0__xw_body_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0.RunB.lean ====
/-
  Region 0, the body at the middle grid points: the block product is added into the accumulator, the output window
  is left untouched.
-/
import proofs.«145497_g38912403702117_cont_8to1_b_1654_14_alg».proof.Proof.K.R0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (second conditional taken, the others not: points 1 to 10). On whole memrefs, the inputs' at their
    contents, the output's at contents handed back untouched, the accumulator at what the point before left, the body
    runs to the continuation holding the inputs and the output as they were and the accumulator with its pieces
    written. -/
noncomputable def kernelRun0_B (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : ¬cond0_2 i)
    (x0 : Vec F S128x10000 .f32) (x1 : Vec F S128x60 .f32) (xs0 : Vec F S10000x60 .f32) :
    { LS0 : List (View.Piece (Elt F) S10000x60 .f32) //
      ∀ (xi2 : Vec F S10000x60 .bf16) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__xw_body i arg1 harg1 arg2 harg2 arg3 harg3 arg4 harg4) K } := by
  refine ⟨?_, fun xi2 E K => ?run⟩
  case run =>
    simp only [cc0__xw_body_eq_skeleton]; unfold cc0__xw_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.R0.RunC.lean ====
/-
  Region 0, the body at the last grid point: the block product is added into the accumulator, and the accumulator,
  rounded to the output's element type, is stored into the output window.
-/
import proofs.«145497_g38912403702117_cont_8to1_b_1654_14_alg».proof.Proof.K.R0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (second and third conditionals taken, the first not: point 11). On whole memrefs, the inputs' at their
    contents, the output's at anything, the accumulator at what the point before left, the body runs to the
    continuation holding the inputs as they were and the output and the accumulator with their pieces written. -/
noncomputable def kernelRun0_C (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : cond0_2 i)
    (x0 : Vec F S128x10000 .f32) (x1 : Vec F S128x60 .f32) (xs0 : Vec F S10000x60 .f32) :
    Σ' (L2 : List (View.Piece (Elt F) S10000x60 .bf16)), { LS0 : List (View.Piece (Elt F) S10000x60 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__xw_body i arg1 harg1 arg2 harg2 arg3 harg3 arg4 harg4) K } := by
  refine ⟨?_, ?_, fun E K => ?run⟩
  case run =>
    simp only [cc0__xw_body_eq_skeleton]; unfold cc0__xw_body_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.Region0.lean ====
/-
  Region 0 (the first contraction, x · W1, accumulated over 12 blocks of 128 rows of the padded operands): the
  frame half. What the accumulator holds after each grid point, as a recursion on the point (the block product at
  point 0, the running value plus the block product afterwards), what the output window's buffer holds after the
  last point, the proof data of the pipeline, and the body obligation: at every grid point the body, run on the
  blocks the pipeline staged, leaves the accumulator and the output at these contents.
-/
import proofs.«145497_g38912403702117_cont_8to1_b_1654_14_alg».proof.Proof.K.R0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The pieces each case writes cover the buffer they are written into -/

theorem scover0_A_0 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : cond0_0 i) (hc1 : ¬cond0_1 i) (hc2 : ¬cond0_2 i)
    (x0 : Vec F S128x10000 .f32) (x1 : Vec F S128x60 .f32) (y : S10000x60.Idx) :
    ∃ pc ∈ (kernelRun0_A c i arg1 harg1 arg2 harg2 arg3 harg3 arg4 harg4 hc0 hc1 hc2 x0 x1).1, y ∈ pc.1.set :=
  View.cover_of_tiledL (kernelRun0_A c i arg1 harg1 arg2 harg2 arg3 harg3 arg4 harg4 hc0 hc1 hc2 x0 x1).1 S10000x60.size (by sl_kernel_rfl) y

theorem scover0_B_0 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : ¬cond0_2 i)
    (x0 : Vec F S128x10000 .f32) (x1 : Vec F S128x60 .f32) (xs0 : Vec F S10000x60 .f32) (y : S10000x60.Idx) :
    ∃ pc ∈ (kernelRun0_B c i arg1 harg1 arg2 harg2 arg3 harg3 arg4 harg4 hc0 hc1 hc2 x0 x1 xs0).1, y ∈ pc.1.set :=
  View.cover_of_tiledL (kernelRun0_B c i arg1 harg1 arg2 harg2 arg3 harg3 arg4 harg4 hc0 hc1 hc2 x0 x1 xs0).1 S10000x60.size (by sl_kernel_rfl) y

theorem cover0_C_2 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : cond0_2 i)
    (x0 : Vec F S128x10000 .f32) (x1 : Vec F S128x60 .f32) (xs0 : Vec F S10000x60 .f32) (y : S10000x60.Idx) :
    ∃ pc ∈ (kernelRun0_C c i arg1 harg1 arg2 harg2 arg3 harg3 arg4 harg4 hc0 hc1 hc2 x0 x1 xs0).1, y ∈ pc.1.set :=
  View.cover_of_tiledL (kernelRun0_C c i arg1 harg1 arg2 harg2 arg3 harg3 arg4 harg4 hc0 hc1 hc2 x0 x1 xs0).1 S10000x60.size (by sl_kernel_rfl) y

theorem scover0_C_0 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : cond0_2 i)
    (x0 : Vec F S128x10000 .f32) (x1 : Vec F S128x60 .f32) (xs0 : Vec F S10000x60 .f32) (y : S10000x60.Idx) :
    ∃ pc ∈ (kernelRun0_C c i arg1 harg1 arg2 harg2 arg3 harg3 arg4 harg4 hc0 hc1 hc2 x0 x1 xs0).2.1, y ∈ pc.1.set :=
  View.cover_of_tiledL (kernelRun0_C c i arg1 harg1 arg2 harg2 arg3 harg3 arg4 harg4 hc0 hc1 hc2 x0 x1 xs0).2.1 S10000x60.size (by sl_kernel_rfl) y

/-! ## Which case a grid point is in -/

theorem case0_A (t : Fin cfg0.N) (h : t.val = 0) :
    cond0_0 (grid0.coords t) ∧ ¬cond0_1 (grid0.coords t) ∧ ¬cond0_2 (grid0.coords t) :=
  ⟨(hcond0_0 t).mpr h, fun hh => by have := (hcond0_1 t).mp hh; omega, fun hh => by have := (hcond0_2 t).mp hh; omega⟩

theorem case0_B (t : Fin cfg0.N) (h1 : 1 ≤ t.val) (h2 : ¬t.val = 11) :
    ¬cond0_0 (grid0.coords t) ∧ cond0_1 (grid0.coords t) ∧ ¬cond0_2 (grid0.coords t) :=
  ⟨fun hh => by have := (hcond0_0 t).mp hh; omega, (hcond0_1 t).mpr h1, fun hh => h2 ((hcond0_2 t).mp hh)⟩

theorem case0_C (t : Fin cfg0.N) (h : t.val = 11) :
    ¬cond0_0 (grid0.coords t) ∧ cond0_1 (grid0.coords t) ∧ cond0_2 (grid0.coords t) :=
  ⟨fun hh => by have := (hcond0_0 t).mp hh; omega, (hcond0_1 t).mpr (by omega), (hcond0_2 t).mpr h⟩

/-! ## The runs at a grid point, on the memrefs and blocks the pipeline calls the body with -/

abbrev run0_A (c : Dev nD) (t : Fin cfg0.N) (h : t.val = 0) :=
  kernelRun0_A c (grid0.coords t) (ms0_0 t) (hs0_0 t) (ms0_1 t) (hs0_1 t) (ms0_2 t) (hs0_2 t) scM0_0 (Memref.isWhole_whole _) (case0_A t h).1 (case0_A t h).2.1 (case0_A t h).2.2 (iblk0 V c 0 t) (iblk0 V c 1 t)

abbrev run0_B (c : Dev nD) (t : Fin cfg0.N) (h1 : 1 ≤ t.val) (h2 : ¬t.val = 11) (xs0 : Vec F S10000x60 .f32) :=
  kernelRun0_B c (grid0.coords t) (ms0_0 t) (hs0_0 t) (ms0_1 t) (hs0_1 t) (ms0_2 t) (hs0_2 t) scM0_0 (Memref.isWhole_whole _) (case0_B t h1 h2).1 (case0_B t h1 h2).2.1 (case0_B t h1 h2).2.2 (iblk0 V c 0 t) (iblk0 V c 1 t) xs0

abbrev run0_C (c : Dev nD) (t : Fin cfg0.N) (h : t.val = 11) (xs0 : Vec F S10000x60 .f32) :=
  kernelRun0_C c (grid0.coords t) (ms0_0 t) (hs0_0 t) (ms0_1 t) (hs0_1 t) (ms0_2 t) (hs0_2 t) scM0_0 (Memref.isWhole_whole _) (case0_C t h).1 (case0_C t h).2.1 (case0_C t h).2.2 (iblk0 V c 0 t) (iblk0 V c 1 t) xs0

/-- What the first point leaves in the accumulator: its pieces read back. -/
def sout0_A (c : Dev nD) (t : Fin cfg0.N) (h : t.val = 0) : Vec F S10000x60 .f32 :=
  VS0_0.read (Elt F) (VS0_0.writes (Elt F) VS0_0.junk (run0_A V c t h).1)

/-- What a middle point leaves in the accumulator, from what the point before left. -/
def sout0_B (c : Dev nD) (t : Fin cfg0.N) (h1 : 1 ≤ t.val) (h2 : ¬t.val = 11) (xs0 : Vec F S10000x60 .f32) : Vec F S10000x60 .f32 :=
  VS0_0.read (Elt F) (VS0_0.writes (Elt F) VS0_0.junk (run0_B V c t h1 h2 xs0).1)

/-- What the last point leaves in the accumulator, from what the point before left. -/
def sout0_C (c : Dev nD) (t : Fin cfg0.N) (h : t.val = 11) (xs0 : Vec F S10000x60 .f32) : Vec F S10000x60 .f32 :=
  VS0_0.read (Elt F) (VS0_0.writes (Elt F) VS0_0.junk (run0_C V c t h xs0).2.1)

/-- What the last point leaves in the output window's buffer, from what the point before left in the accumulator. -/
def out0_C (c : Dev nD) (t : Fin cfg0.N) (h : t.val = 11) (xs0 : Vec F S10000x60 .f32) : Vec F S10000x60 .bf16 :=
  VO0_2.read (Elt F) (VO0_2.writes (Elt F) VO0_2.junk (run0_C V c t h xs0).1)

/-! ## What the accumulator and the output hold after each point -/

/-- THE ACCUMULATION: the accumulator after the body at position `n`. -/
def scrAt0 (c : Dev nD) : (n : ℕ) → n < cfg0.N → Vec F S10000x60 .f32
  | 0, hn => sout0_A V c ⟨0, hn⟩ rfl
  | n + 1, hn =>
    if h : n + 1 = 11 then sout0_C V c ⟨n + 1, hn⟩ h (scrAt0 c n (Nat.lt_of_succ_lt hn))
    else sout0_B V c ⟨n + 1, hn⟩ (Nat.succ_le_succ (Nat.zero_le n)) h (scrAt0 c n (Nat.lt_of_succ_lt hn))

theorem scrAt0_A (c : Dev nD) (t : Fin cfg0.N) (h : t.val = 0) : scrAt0 V c t.val t.isLt = sout0_A V c t h := by
  obtain ⟨n, hn⟩ := t
  cases n with
  | zero => rfl
  | succ n => exact absurd h (Nat.succ_ne_zero n)

theorem scrAt0_B (c : Dev nD) (t : Fin cfg0.N) (h1 : 1 ≤ t.val) (h2 : ¬t.val = 11) :
    scrAt0 V c t.val t.isLt = sout0_B V c t h1 h2 (scrAt0 V c (t.val - 1) (Nat.lt_of_le_of_lt (Nat.sub_le _ _) t.isLt)) := by
  obtain ⟨n, hn⟩ := t
  cases n with
  | zero => exact absurd h1 (Nat.not_succ_le_zero 0)
  | succ n => exact (dif_neg h2).trans rfl

theorem scrAt0_C (c : Dev nD) (t : Fin cfg0.N) (h : t.val = 11) :
    scrAt0 V c t.val t.isLt = sout0_C V c t h (scrAt0 V c (t.val - 1) (Nat.lt_of_le_of_lt (Nat.sub_le _ _) t.isLt)) := by
  obtain ⟨n, hn⟩ := t
  cases n with
  | zero => exact absurd h (show ¬((0 : ℕ) = 11) from by decide)
  | succ n => exact (dif_pos h).trans rfl

/-- The output window's buffer after the body at point `t`: at the last point what the body stores (the accumulator
    rounded to the output's element type); elsewhere a placeholder nothing consults (the window is idle there). -/
def outAt0 (c : Dev nD) (t : Fin cfg0.N) : Vec F S10000x60 .bf16 :=
  if h : t.val = 11 then out0_C V c t h (scrAt0 V c (t.val - 1) (Nat.lt_of_le_of_lt (Nat.sub_le _ _) t.isLt))
  else VO0_2.read (Elt F) VO0_2.junk

/-- The region invariant before position `n`: before the first point the class's; afterwards the accumulator at what
    the point before left, the unopened rest, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (scrAt0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (scrAt0 V c (n - 1) (by omega)) ∗ rest0 c) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the first point) and takes
    it back at this point's contents; the rest, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 12 := lt_of_lt_of_eq t.isLt (show cfg0.N = 12 from N_0)
  by_cases hz : t.val = 0
  · rw [Dat.leavesExact_idle (dat0 V c) 2 t (idleAt0_2 t (case0_A t hz).2.2) (noFlush0_2 t (case0_A t hz).2.2)]
    rw [scrAt0_A V c t hz]
    unfold sout0_A
    rw [PhiS0_castSucc V c t, PhiS0_zero V c _ _ hz, PhiA0_eq]
    iintro ⟨⟨⟨HS0, Hr⟩, Hg⟩, Ho, ⟨%d0, H0⟩, ⟨%d1, H1⟩, ⟨%d2, H2⟩⟩
    iapply ((run0_A V c t hz).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _ _)
        iexact Hr
      iexact Hg
    isplitl [Ho]; · iexact Ho
    isplitl [H0]; · iexact H0
    isplitl [H1]; · iexact H1
    iexists _; iexact H2
  · by_cases hl : t.val = 11
    · rw [show (dat0 V c).leavesExact 2 t = owns (c : Thread nD τ) (ms0_2 t) fullShare ((dat0 V c).after 2 t) from by
        unfold Dat.leavesExact; rw [liveAt0_2 t (case0_C t hl).2.2], after0_2]
      rw [scrAt0_C V c t hl, show outAt0 V c t = out0_C V c t hl (scrAt0 V c (t.val - 1) (Nat.lt_of_le_of_lt (Nat.sub_le _ _) t.isLt)) from dif_pos hl]
      unfold sout0_C out0_C
      rw [PhiS0_castSucc V c t, PhiS0_pos V c _ _ hz]
      iintro ⟨⟨⟨HS0, Hr⟩, Hg⟩, Ho, ⟨%d0, H0⟩, ⟨%d1, H1⟩, ⟨%d2, H2⟩⟩
      iapply ((run0_C V c t hl _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _)
    · have h1 : 1 ≤ t.val := Nat.one_le_iff_ne_zero.mpr hz
      rw [Dat.leavesExact_idle (dat0 V c) 2 t (idleAt0_2 t (case0_B t h1 hl).2.2) (noFlush0_2 t (case0_B t h1 hl).2.2)]
      rw [scrAt0_B V c t h1 hl]
      unfold sout0_B
      rw [PhiS0_castSucc V c t, PhiS0_pos V c _ _ hz]
      iintro ⟨⟨⟨HS0, Hr⟩, Hg⟩, Ho, ⟨%d0, H0⟩, ⟨%d1, H1⟩, ⟨%d2, H2⟩⟩
      iapply ((run0_B V c t h1 hl _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 12 := N_0; omega)

end Cert.Kernel.Hand

end
-- ==== Proof.K.R1.Blocks.lean ====
/-
  Region 1 (the second kernel call: one pass over the adjacency in blocks of 400 rows), stated at the buffer contents
  `V` the region is entered with: each window's block at a grid point, what an input window's staging buffer holds
  when the body is called, the rectangles the body reads and writes, and what the body leaves in each output
  window's staging buffer as a function of the input blocks.
-/
import proofs.«145497_g38912403702117_cont_8to1_b_1654_14_alg».proof.Proof.Gen.Kernel.Launch
import proofs.«145497_g38912403702117_cont_8to1_b_1654_14_alg».proof.Proof.Gen.Kernel.Skeleton
import proofs.«145497_g38912403702117_cont_8to1_b_1654_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is a whole staging buffer -/

abbrev r1_0 : Rect S400x10000 := Rect.unit (s := S400x10000) ![0, 0] S400x10000.size inb_S400x10000_S400x10000_0_0
abbrev r1_1 : Rect S10000x60 := Rect.unit (s := S10000x60) ![0, 0] S10000x60.size inb_S10000x60_S10000x60_0_0
abbrev r1_2 : Rect S1x60 := Rect.unit (s := S1x60) ![0, 0] S1x60.size inb_S1x60_S1x60_0_0
abbrev r1_3 : Rect S60x30 := Rect.unit (s := S60x30) ![0, 0] S60x30.size inb_S60x30_S60x30_0_0
abbrev r1_4 : Rect S30x7 := Rect.unit (s := S30x7) ![0, 0] S30x7.size inb_S30x7_S30x7_0_0
abbrev r1_5 : Rect S400x7 := Rect.unit (s := S400x7) ![0, 0] S400x7.size inb_S400x7_S400x7_0_0

/-! ## What the body leaves in each output window's buffer -/

/-- Window 6's staging buffer after the body: its one store, the adjacency block narrowed to the 16-bit format. -/
def out1_6 (x0 : Vec F S400x10000 .f32) : Vec F S400x10000 .bf16 :=
  View.canon [⟨r1_0, k1_pay1 (View.ld x0 r1_0)⟩]

/-- Window 5's staging buffer after the body: its one store, the 7-wide support of the block's 400 rows, from the
    five input blocks. -/
def out1_5 (x0 : Vec F S400x10000 .f32) (x1 : Vec F S10000x60 .bf16) (x2 : Vec F S1x60 .f32) (x3 : Vec F S60x30 .f32)
    (x4 : Vec F S30x7 .f32) : Vec F S400x7 .bf16 :=
  View.canon [⟨r1_5, k1_pay2 (View.ld x0 r1_0) (View.ld x1 r1_1) (View.ld x2 r1_2) (View.ld x3 r1_3) (View.ld x4 r1_4)⟩]

/-- The one store of window 6 is the whole buffer, so it covers it. -/
theorem cover1_6 (p0 : Vec F S400x10000 .bf16) (y : S400x10000.Idx) :
    ∃ pc ∈ ([⟨r1_0, p0⟩] : List (View.Piece (Elt F) S400x10000 .bf16)), y ∈ pc.1.set :=
  View.cover_of_tiledL [⟨r1_0, p0⟩] S400x10000.size (by sl_kernel_rfl) y

/-- The one store of window 5 is the whole buffer, so it covers it. -/
theorem cover1_5 (p0 : Vec F S400x7 .bf16) (y : S400x7.Idx) :
    ∃ pc ∈ ([⟨r1_5, p0⟩] : List (View.Piece (Elt F) S400x7 .bf16)), y ∈ pc.1.set :=
  View.cover_of_tiledL [⟨r1_5, p0⟩] S400x7.size (by sl_kernel_rfl) y

end Cert.Kernel.Hand

end
-- ==== Proof.K.R1.Kernel.lean ====
/-
  Region 1: the body on whole staging memrefs. With the five input buffers at read contents and the two output
  buffers at anything, the body runs to the continuation holding the inputs as they were and each output buffer at
  what its one store leaves. The body also reads each output buffer before storing to it; nothing depends on
  what it reads there.
-/
import proofs.«145497_g38912403702117_cont_8to1_b_1654_14_alg».proof.Proof.K.R1.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple, by running its skeleton of memory operations. -/
theorem sound_kernel1 (c : Dev nD) (E : Set ℕ) (i : grid1.Coords)
    (arg1 : Memref sig .tc .vmem S400x10000 .f32) (harg1 : arg1.IsWhole) (arg2 : Memref sig .tc .vmem S10000x60 .bf16) (harg2 : arg2.IsWhole)
    (arg3 : Memref sig .tc .vmem S1x60 .f32) (harg3 : arg3.IsWhole) (arg4 : Memref sig .tc .vmem S60x30 .f32) (harg4 : arg4.IsWhole)
    (arg5 : Memref sig .tc .vmem S30x7 .f32) (harg5 : arg5.IsWhole) (arg6 : Memref sig .tc .vmem S400x7 .bf16) (harg6 : arg6.IsWhole)
    (arg7 : Memref sig .tc .vmem S400x10000 .bf16) (harg7 : arg7.IsWhole)
    (x0 : Vec F S400x10000 .f32) (x1 : Vec F S10000x60 .bf16) (x2 : Vec F S1x60 .f32) (x3 : Vec F S60x30 .f32) (x4 : Vec F S30x7 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0)) -∗ K ⟨⟩))
      ⊢ wp frame (wpE (defs₀ (F := F)) Variants.none c none) E (cc1__l1_body i arg1 harg1 arg2 harg2 arg3 harg3 arg4 harg4 arg5 harg5 arg6 harg6 arg7 harg7) K := by
  simp only [cc1__l1_body_eq_skeleton]; unfold cc1__l1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

end Cert.Kernel.Hand

end
-- ==== Proof.K.Region1.lean ====
/-
  Region 1: the proof data of its pipeline at the buffer contents `V` the region is entered with, and the body
  obligation at a generic grid point. After the body at point `t` each input window's staging buffer holds its block
  and each output window's holds what the body's one store to it leaves, a function of the input blocks. The
  invariant is the untouched rest of the core's state, the same at every point; nothing is owed; all shares are full.
-/
import proofs.«145497_g38912403702117_cont_8to1_b_1654_14_alg».proof.Proof.K.R1.Kernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at the region's entry is the untouched rest of the core's state. -/
theorem hin1 (c : Dev nD) : Pipeline.ΦA spec1 c ⊢ (dat1 V c).Φ 0 := by
  unfold dat1; exact .rfl

/-- And so it is after the last point. -/
theorem hout1 (c : Dev nD) : (dat1 V c).Φ (Fin.last cfg1.N) ⊢ Pipeline.ΦA spec1 c := by
  unfold dat1; exact .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.Base.lean ====
import proofs.«145497_g38912403702117_cont_8to1_b_1654_14_alg».proof.Proof.Gen.Kernel.Launch
import proofs.«145497_g38912403702117_cont_8to1_b_1654_14_alg».proof.Proof.Gen.Kernel.Skeleton
import proofs.«145497_g38912403702117_cont_8to1_b_1654_14_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what its two cases share -/

/-- The first conditional of the body holds at a point. -/
abbrev cond2_0 (i : grid2.Coords) : Prop := k2_cond1 i = 1#1
/-- The second conditional of the body holds at a point. -/
abbrev cond2_1 (i : grid2.Coords) : Prop := k2_cond2 i = 1#1

/-- The first conditional holds at the first ten points. -/
theorem hcond2_0 : ∀ t : Fin cfg2.N, cond2_0 (grid2.coords t) ↔ t.val < 10 :=
  (by decide +kernel : ∀ t : Fin grid2.N, cond2_0 (grid2.coords t) ↔ t.val < 10)
/-- The second conditional holds at the last ten points. -/
theorem hcond2_1 : ∀ t : Fin cfg2.N, cond2_1 (grid2.coords t) ↔ 10 ≤ t.val :=
  (by decide +kernel : ∀ t : Fin grid2.N, cond2_1 (grid2.coords t) ↔ 10 ≤ t.val)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- The output is idle, and not written back, at the first ten points; live at the last ten. -/
theorem idleAt2_5_A : ∀ t : Fin cfg2.N, t.val < 10 → cfg2.idle 5 (grid2.coords t) = true := by decide +kernel
theorem noFlush2_5_A : ∀ t : Fin cfg2.N, t.val < 10 → (cfg2.win 5).flush t = false := by decide +kernel
theorem liveAt2_5_B : ∀ t : Fin cfg2.N, 10 ≤ t.val → cfg2.idle 5 (grid2.coords t) = false := by decide +kernel

/-- Each window's current staging memref at a point, and its wholeness. -/
abbrev ms2_0 (t : Fin cfg2.N) : Memref sig .tc .vmem S1000x10000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x7 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x30 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S30x7 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x7 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x7 .f32 := win2_5.stage (cfg2.slots t 5)
abbrev hs2_5 (t : Fin cfg2.N) : (ms2_5 t).IsWhole := hstage2_5 ((cfg2.slots t 5).cast nbuf2_5)
/-- The scratch operand: a whole scoped buffer of the kernel's own, carried between points. -/
abbrev scM2_0 : Memref sig .tc .vmem S10000x7 .bf16 := Memref.whole cc2_scratch0

/-- The scoped rest split at the scratch operand; the remainder stays unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The remainder of the scoped rest, carried unopened through the region. -/
abbrev rest2 (c : Dev nD) : sProp 𝕄 :=
  Pipeline.scopedRestBut (Ix := Unit) (Name := ℕ) (U := UR sig nD τ) (Lvl := ℕ) (Val := Elt F) spec2 c [cc2_scratch0]

/-- The region's entry invariant with the scratch operand as a memref owned at some contents. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

/-- The zero offsets of a rank-2 access, as the constant function. -/
theorem r2_hz2 : (![0, 0] : Fin 2 → ℕ) = fun _ => 0 := by funext a; fin_cases a <;> rfl

/-- A load of the whole shape from a whole memref at known read contents reads those contents. -/
theorem r2_readAt_whole_unread {S : Shape} {e : EltTy} (m : Memref sig .tc .vmem S e) (h : m.IsWhole)
    {off : Fin S.rank → ℕ} (hz : off = fun _ => 0) (inb : ∀ a, off a + S.size a ≤ S.size a) (x : S.Idx → Elt F e) :
    View.readAt (Elt F) m.view (Rect.unit (s := S) off S.size inb).toLoadRect (h.unread x) = x :=
  (View.readAt_eq_ld m.view (h.unread x) (Rect.unit (s := S) off S.size inb)).trans
    ((congrArg (fun X => View.ld X (Rect.unit (s := S) off S.size inb)) (h.read_unread x)).trans (View.ld_unit_zero hz inb x))

/-- A load of the whole shape through a view reads the view's contents. -/
theorem r2_readAt_whole {S : Shape} {e : EltTy} (v : View sig .tc .vmem S e)
    {off : Fin S.rank → ℕ} (hz : off = fun _ => 0) (inb : ∀ a, off a + S.size a ≤ S.size a) (f : v.ty.Contents (Elt F)) :
    View.readAt (Elt F) v (Rect.unit (s := S) off S.size inb).toLoadRect f = v.read (Elt F) f :=
  (View.readAt_eq_ld v f (Rect.unit (s := S) off S.size inb)).trans (View.ld_unit_zero hz inb _)

end Cert.Kernel.Hand

end
-- ==== Proof.K.R2.RunA.lean ====
import proofs.«145497_g38912403702117_cont_8to1_b_1654_14_alg».proof.Proof.K.R2.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the first stage (the first conditional taken, the second not): on whole staging memrefs, the
    inputs' at their contents, the idle output's at anything, the scratch at any contents, it runs to the continuation
    holding the inputs' and the output's as they were and the scratch with one slice written: the thousand rows at the
    point's offset, at the stage's payload of the inputs. -/
theorem kernelRun2_A (c : Dev nD) (i : grid2.Coords) (arg1 : Memref sig .tc .vmem S1000x10000 .bf16) (harg1 : arg1.IsWhole) (arg2 : Memref sig .tc .vmem S10000x7 .bf16) (harg2 : arg2.IsWhole) (arg3 : Memref sig .tc .vmem S1x30 .f32) (harg3 : arg3.IsWhole) (arg4 : Memref sig .tc .vmem S30x7 .f32) (harg4 : arg4.IsWhole) (arg5 : Memref sig .tc .vmem S1x7 .f32) (harg5 : arg5.IsWhole) (arg6 : Memref sig .tc .vmem S1000x7 .f32) (harg6 : arg6.IsWhole) (arg7 : Memref sig .tc .vmem S10000x7 .bf16) (harg7 : arg7.IsWhole) (hc0 : cond2_0 i) (hc1 : ¬cond2_1 i)
    (x0 : Vec F S1000x10000 .bf16) (x1 : Vec F S10000x7 .bf16) (x2 : Vec F S1x30 .f32) (x3 : Vec F S30x7 .f32) (x4 : Vec F S1x7 .f32) (xi5 : Vec F S1000x7 .f32) (fs : arg7.view.ty.Contents (Elt F)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
        ∗ (arg7.view.loc (c : Thread nD τ) ↦[arg7.view.set]{fullShare} fs)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (arg7.view.loc (c : Thread nD τ) ↦[arg7.view.set]{fullShare} arg7.view.writes (Elt F) fs [⟨Rect.unit (s := S10000x7) (k2_off1 i) S1000x7.size (k2_off1_inb i hc0), k2_pay1 x2 x3 x0 x1⟩])) -∗ K ⟨⟩))
      ⊢ wp frame (wpE (defs₀ (F := F)) Variants.none c none) E (cc2__cd_body i arg1 harg1 arg2 harg2 arg3 harg3 arg4 harg4 arg5 harg5 arg6 harg6 arg7 harg7) K := by
  simp only [cc2__cd_body_eq_skeleton]; unfold cc2__cd_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HS0, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  rw [r2_readAt_whole_unread arg3 harg3 r2_hz2 inb_S1x30_S1x30_0_0 x2, r2_readAt_whole_unread arg4 harg4 r2_hz2 inb_S30x7_S30x7_0_0 x3,
    r2_readAt_whole_unread arg1 harg1 r2_hz2 inb_S1000x10000_S1000x10000_0_0 x0, r2_readAt_whole_unread arg2 harg2 r2_hz2 inb_S10000x7_S10000x7_0_0 x1]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexact HS0

end Cert.Kernel.Hand

end
-- ==== Proof.K.R2.RunB.lean ====
import proofs.«145497_g38912403702117_cont_8to1_b_1654_14_alg».proof.Proof.K.R2.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the second stage (the first conditional not taken, the second taken): on whole staging
    memrefs, the inputs' at their contents, the output's at anything, the scratch at any contents `fs`, it runs to the
    continuation holding the inputs' and the scratch as they were and the output's with one store written over it: the
    whole block at the stage's payload of the adjacency block, what the scratch reads, and the bias. -/
theorem kernelRun2_B (c : Dev nD) (i : grid2.Coords) (arg1 : Memref sig .tc .vmem S1000x10000 .bf16) (harg1 : arg1.IsWhole) (arg2 : Memref sig .tc .vmem S10000x7 .bf16) (harg2 : arg2.IsWhole) (arg3 : Memref sig .tc .vmem S1x30 .f32) (harg3 : arg3.IsWhole) (arg4 : Memref sig .tc .vmem S30x7 .f32) (harg4 : arg4.IsWhole) (arg5 : Memref sig .tc .vmem S1x7 .f32) (harg5 : arg5.IsWhole) (arg6 : Memref sig .tc .vmem S1000x7 .f32) (harg6 : arg6.IsWhole) (arg7 : Memref sig .tc .vmem S10000x7 .bf16) (harg7 : arg7.IsWhole) (hc0 : ¬cond2_0 i) (hc1 : cond2_1 i)
    (x0 : Vec F S1000x10000 .bf16) (x1 : Vec F S10000x7 .bf16) (x2 : Vec F S1x30 .f32) (x3 : Vec F S30x7 .f32) (x4 : Vec F S1x7 .f32) (fs : arg7.view.ty.Contents (Elt F)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (arg7.view.loc (c : Thread nD τ) ↦[arg7.view.set]{fullShare} fs)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ f, arg6.view.loc (c : Thread nD τ) ↦[arg6.view.set]{fullShare} arg6.view.writes (Elt F) f [⟨Rect.unit (s := S1000x7) ![0, 0] S1000x7.size inb_S1000x7_S1000x7_0_0, k2_pay2 x0 (arg7.view.read (Elt F) fs) x4⟩])
            ∗ (arg7.view.loc (c : Thread nD τ) ↦[arg7.view.set]{fullShare} fs)) -∗ K ⟨⟩))
      ⊢ wp frame (wpE (defs₀ (F := F)) Variants.none c none) E (cc2__cd_body i arg1 harg1 arg2 harg2 arg3 harg3 arg4 harg4 arg5 harg5 arg6 harg6 arg7 harg7) K := by
  simp only [cc2__cd_body_eq_skeleton]; unfold cc2__cd_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HS0, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  rw [r2_readAt_whole_unread arg1 harg1 r2_hz2 inb_S1000x10000_S1000x10000_0_0 x0, r2_readAt_whole arg7.view r2_hz2 inb_S10000x7_S10000x7_0_0 fs,
    r2_readAt_whole_unread arg5 harg5 r2_hz2 inb_S1x7_S1x7_0_0 x4]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; iexact H5
  iexact HS0

end Cert.Kernel.Hand

end
-- ==== Proof.K.Region2.lean ====
import proofs.«145497_g38912403702117_cont_8to1_b_1654_14_alg».proof.Proof.K.R2.RunA
import proofs.«145497_g38912403702117_cont_8to1_b_1654_14_alg».proof.Proof.K.R2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 at the buffer contents `V` it is entered with: the frame half -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The scratch, slice by slice -/

/-- Point `n` of the first stage. -/
def pt2 (n : ℕ) (h : n < 10) : Fin cfg2.N := ⟨n, lt_of_lt_of_eq (Nat.lt_trans h (by decide : 10 < 20)) N_2.symm⟩

/-- What point `n` of the first stage stores into the scratch: the thousand rows at its offset, at the stage's payload
    of the point's input blocks. -/
def piece2 (c : Dev nD) (n : ℕ) (h : n < 10) : View.Piece (Elt F) S10000x7 .bf16 :=
  ⟨Rect.unit (s := S10000x7) (k2_off1 (grid2.coords (pt2 n h))) S1000x7.size (k2_off1_inb (grid2.coords (pt2 n h)) ((hcond2_0 (pt2 n h)).mpr h)),
    k2_pay1 (iblk2 V c 2 (pt2 n h)) (iblk2 V c 3 (pt2 n h)) (iblk2 V c 0 (pt2 n h)) (iblk2 V c 1 (pt2 n h))⟩

/-- The slices stored before point `n`, the last first: one per point of the first stage. -/
def pieces2 (c : Dev nD) : ℕ → List (View.Piece (Elt F) S10000x7 .bf16)
  | 0 => []
  | n + 1 => if h : n < 10 then piece2 V c n h :: pieces2 c n else pieces2 c n

theorem pieces2_succ_lt (c : Dev nD) {n : ℕ} (h : n < 10) : pieces2 V c (n + 1) = piece2 V c n h :: pieces2 V c n := by
  rw [pieces2]; exact dif_pos h

theorem pieces2_succ_ge (c : Dev nD) {n : ℕ} (h : 10 ≤ n) : pieces2 V c (n + 1) = pieces2 V c n := by
  rw [pieces2]; exact dif_neg (by omega)

/-- From the tenth point on the list no longer grows. -/
theorem pieces2_ge (c : Dev nD) (n : ℕ) (h : 10 ≤ n) : pieces2 V c n = pieces2 V c 10 := by
  induction n, h using Nat.le_induction with
  | base => rfl
  | succ n hn ih => rw [pieces2_succ_ge V c hn, ih]

/-- The ten slices tile the scratch (checked by evaluation), so they cover it. -/
theorem cover2 (c : Dev nD) (y : S10000x7.Idx) : ∃ pc ∈ pieces2 V c 10, y ∈ pc.1.set :=
  View.cover_of_tiledL (pieces2 V c 10) S1000x7.size (by sl_kernel_rfl) y

/-- What the scratch holds once the first stage is over: the ten slices, as one function of its index. -/
def scr2 (c : Dev nD) : Vec F S10000x7 .bf16 := View.canon (pieces2 V c 10)

/-- Whatever the scratch held before the first point, after the tenth it reads `scr2`. -/
theorem read_scr2 (c : Dev nD) (f : scM2_0.view.ty.Contents (Elt F)) :
    scM2_0.view.read (Elt F) (scM2_0.view.writes (Elt F) f (pieces2 V c 10)) = scr2 V c :=
  View.read_writes_eq_canon _ _ _ (cover2 V c)

/-- What a point of the second stage leaves in the output's staging buffer: the stage's payload of the point's
    adjacency block, the filled scratch and the bias. (At a point of the first stage the window is idle and this is
    consulted by nothing.) -/
def out2_5 (c : Dev nD) (t : Fin cfg2.N) : Vec F S1000x7 .f32 :=
  k2_pay2 (iblk2 V c 0 t) (scr2 V c) (iblk2 V c 4 t)

/-- The region invariant before point `n`: the scratch at the slices stored so far written over whatever it held, the
    rest of the scoped buffers unopened, the generator register at some state. -/
def PhiS2 (c : Dev nD) (n : ℕ) : sProp 𝕄 :=
  iprop(iprop(iprop((∃ f, scM2_0.view.loc (c : Thread nD τ) ↦[scM2_0.view.set]{fullShare} scM2_0.view.writes (Elt F) f (pieces2 V c n))) ∗ rest2 (F := F) c) ∗ (∃ r, prngReg c r))

/-! ## The pipeline's proof data -/

/-- The proof data of the region on core `c`: the arrays as the region finds them; after the body at a point each
    input's buffer at its block and the output's at `out2_5`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ t := PhiS2 V c t.val
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) : (dat2 V c).Φ t.castSucc = PhiS2 V c t.val := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 3200000 in
/-- The body at any point: the inputs' memrefs hold their blocks; the point is of the first stage or of the second; the
    invariant hands the body the scratch at the slices stored so far and takes it back with the point's slice written
    (first stage) or as it was (second stage, where it reads `scr2` whatever it held before the first point); the core
    owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) from rfl, PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold PhiS2
  by_cases h : t.val < 10
  · rw [Dat.leavesExact_idle (dat2 V c) 5 t (idleAt2_5_A t h) (noFlush2_5_A t h)]
    rw [pieces2_succ_lt V c h]
    iintro ⟨⟨⟨⟨%f, HS0⟩, Hr⟩, Hg⟩, Ho, ⟨%d0, H0⟩, ⟨%d1, H1⟩, ⟨%d2, H2⟩, ⟨%d3, H3⟩, ⟨%d4, H4⟩, ⟨%d5, H5⟩⟩
    iapply (kernelRun2_A c (grid2.coords t) _ _ _ _ _ _ _ _ _ _ _ _ _ _ ((hcond2_0 t).mpr h) (fun h' => absurd ((hcond2_1 t).mp h') (by omega))
      (iblk2 V c 0 t) (iblk2 V c 1 t) (iblk2 V c 2 t) (iblk2 V c 3 t) (iblk2 V c 4 t) ((dat2 V c).before 5 t d5) (scM2_0.view.writes (Elt F) f (pieces2 V c t.val)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hr Hg]
    · isplitl [HS0 Hr]
      · isplitl [HS0]
        · iexists f; iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have h10 : 10 ≤ t.val := Nat.le_of_not_lt h
    rw [show (dat2 V c).leavesExact 5 t = owns (c : Thread nD τ) (ms2_5 t) fullShare ((dat2 V c).after 5 t) from by
      unfold Dat.leavesExact; rw [liveAt2_5_B t h10], after2_5]
    rw [pieces2_succ_ge V c h10, pieces2_ge V c t.val h10]
    iintro ⟨⟨⟨⟨%f, HS0⟩, Hr⟩, Hg⟩, Ho, ⟨%d0, H0⟩, ⟨%d1, H1⟩, ⟨%d2, H2⟩, ⟨%d3, H3⟩, ⟨%d4, H4⟩, ⟨%d5, H5⟩⟩
    iapply (kernelRun2_B c (grid2.coords t) _ _ _ _ _ _ _ _ _ _ _ _ _ _ (fun h' => h ((hcond2_0 t).mp h')) ((hcond2_1 t).mpr h10)
      (iblk2 V c 0 t) (iblk2 V c 1 t) (iblk2 V c 2 t) (iblk2 V c 3 t) (iblk2 V c 4 t) (scM2_0.view.writes (Elt F) f (pieces2 V c 10)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    rw [read_scr2 V c f]
    isplitl [HS0 Hr Hg]
    · isplitl [HS0 Hr]
      · isplitl [HS0]
        · iexists f; iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_eq_canon _ _ _ (fun y => ⟨_, List.mem_singleton_self _, View.mem_set_unit_zero r2_hz2 inb_S1000x7_S1000x7_0_0 y⟩)).trans
      (View.canon_unit_zero r2_hz2 inb_S1000x7_S1000x7_0_0 _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, at whatever the scratch holds. -/
theorem hin2 (c : Dev nD) : Pipeline.ΦA spec2 c ⊢ (dat2 V c).Φ 0 := by
  rw [show (dat2 V c).Φ 0 = PhiS2 V c 0 from rfl, PhiA2_eq]
  unfold PhiS2 owns
  iintro ⟨⟨⟨%d, %f, -, HS0⟩, Hr⟩, Hg⟩
  isplitl [HS0 Hr]
  · isplitl [HS0]
    · iexists f; iexact HS0
    iexact Hr
  iexact Hg

/-- After the last point the invariant gives the entry invariant back: what the scratch holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl, PhiA2_eq]
  unfold PhiS2 owns
  generalize pieces2 V c (Fin.last cfg2.N).val = L
  iintro ⟨⟨⟨%f, HS0⟩, Hr⟩, Hg⟩
  isplitl [HS0 Hr]
  · isplitl [HS0]
    · iexists (scM2_0.view.read (Elt F) (scM2_0.view.writes (Elt F) f L))
      iexists (scM2_0.view.writes (Elt F) f L)
      isplitr; · ipureintro; rfl
      iexact HS0
    iexact Hr
  iexact Hg

end Cert.Kernel.Hand

end
-- ==== Proof.K.Run.lean ====
/-
  The kernel program as seven segments, and its run. The contents of every unscoped buffer at each boundary of @main:
  the launch contents with the four host stretches applied, then, after each of the three regions, the region's arrays
  at what its write-backs leave and every other buffer as entered. Each region, entered with the buffers at one
  boundary's contents, runs to the next boundary's; chained, every weakly fair execution of @main terminates without a
  fault with every unscoped buffer at the last boundary's contents.
-/
import proofs.«145497_g38912403702117_cont_8to1_b_1654_14_alg».proof.Proof.Gen.Kernel.Regions
import proofs.«145497_g38912403702117_cont_8to1_b_1654_14_alg».proof.Proof.K.Region0
import proofs.«145497_g38912403702117_cont_8to1_b_1654_14_alg».proof.Proof.K.Region1
import proofs.«145497_g38912403702117_cont_8to1_b_1654_14_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: the host prefix folded, then region by region -/

/-- Before region 0: the launch contents with the four host stretches applied. -/
abbrev W4 : Dev nD → Valuation τ sig (Elt F) := fun c => Gen.V4 m c
/-- The same read at the TensorCore's references (what region 0's proof data take). -/
abbrev Vr0 : (c : Dev nD) → (b : Ref sig .tc) → Buf (Elt F) ((c : Thread nD τ).loc b) := fun c b => W4 m c b

/-- After region 0: its arrays at what the pipeline leaves (an input as entered, an output its write-backs folded),
    every other buffer as entered. -/
def W5 (c : Dev nD) : Valuation τ sig (Elt F) :=
  Pipeline.withArrays spec0 c (W4 m c) fun w => (dat0 (Vr0 m) c).arrAt w cfg0.N
theorem W5_arr (c : Dev nD) (w : Fin cfg0.W) :
    W5 m c (Proc.devRef .tc (Pipeline.arrRef spec0 w)) = (dat0 (Vr0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
/-- The same read at the TensorCore's references. -/
abbrev Vr1 : (c : Dev nD) → (b : Ref sig .tc) → Buf (Elt F) ((c : Thread nD τ).loc b) := fun c b => W5 m c b
theorem hF0 (c : Dev nD) (w : Fin cfg0.W) : (dat0 (Vr0 m) c).arrAt w cfg0.N = Vr1 m c (Pipeline.arrRef spec0 w) :=
  (W5_arr m c w).symm
theorem hrest0 (c : Dev nD) : ∀ b, b ∉ Finset.univ.image (Pipeline.arrRef spec0) → Vr1 m c b = Vr0 m c b :=
  fun b hb => W5_of_ne m c b fun w e => hb (Finset.mem_image.mpr ⟨w, Finset.mem_univ _, e⟩)

/-- After region 1: its arrays at what the pipeline leaves (an input as entered, an output its write-backs folded),
    every other buffer as entered. -/
def W6 (c : Dev nD) : Valuation τ sig (Elt F) :=
  Pipeline.withArrays spec1 c (W5 m c) fun w => (dat1 (Vr1 m) c).arrAt w cfg1.N
theorem W6_arr (c : Dev nD) (w : Fin cfg1.W) :
    W6 m c (Proc.devRef .tc (Pipeline.arrRef spec1 w)) = (dat1 (Vr1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev Vr2 : (c : Dev nD) → (b : Ref sig .tc) → Buf (Elt F) ((c : Thread nD τ).loc b) := fun c b => W6 m c b
theorem hF1 (c : Dev nD) (w : Fin cfg1.W) : (dat1 (Vr1 m) c).arrAt w cfg1.N = Vr2 m c (Pipeline.arrRef spec1 w) :=
  (W6_arr m c w).symm
theorem hrest1 (c : Dev nD) : ∀ b, b ∉ Finset.univ.image (Pipeline.arrRef spec1) → Vr2 m c b = Vr1 m c b :=
  fun b hb => W6_of_ne m c b fun w e => hb (Finset.mem_image.mpr ⟨w, Finset.mem_univ _, e⟩)

/-- After region 2: its arrays at what the pipeline leaves (an input as entered, an output its write-backs folded),
    every other buffer as entered. -/
def W7 (c : Dev nD) : Valuation τ sig (Elt F) :=
  Pipeline.withArrays spec2 c (W6 m c) fun w => (dat2 (Vr2 m) c).arrAt w cfg2.N
theorem W7_arr (c : Dev nD) (w : Fin cfg2.W) :
    W7 m c (Proc.devRef .tc (Pipeline.arrRef spec2 w)) = (dat2 (Vr2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev Vr3 : (c : Dev nD) → (b : Ref sig .tc) → Buf (Elt F) ((c : Thread nD τ).loc b) := fun c b => W7 m c b
theorem hF2 (c : Dev nD) (w : Fin cfg2.W) : (dat2 (Vr2 m) c).arrAt w cfg2.N = Vr3 m c (Pipeline.arrRef spec2 w) :=
  (W7_arr m c w).symm
theorem hrest2 (c : Dev nD) : ∀ b, b ∉ Finset.univ.image (Pipeline.arrRef spec2) → Vr3 m c b = Vr2 m c b :=
  fun b hb => W7_of_ne m c b fun w e => hb (Finset.mem_image.mpr ⟨w, Finset.mem_univ _, e⟩)

/-! ## The proof data family and the thread state -/

/-- None of the three kernel calls has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
  | ⟨2, _⟩ => fun c => dat2 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the contents before it, left with the
    region's arrays at what its write-backs leave and every other buffer as entered. The generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. The generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other buffer as entered. The generator register goes into
    the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr2 m) c)
    unfold Pipeline.ΦA
    iintro ⟨Hp, -, Hr⟩
    isplitl [Hr]; · iexact Hr
    iexact Hp
  hout c := by
    rw [Pipeline.ownSems0_none]
    refine BIBase.Entails.trans (hout2 (Vr2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vr3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's seven segments: the four host stretches, each from its boundary's contents, then the three regions. -/
abbrev segs : List (Pipeline.Seg (pcfgs (F := F)) adm (pdats m) () defs₀ 𝒱₀ L lv) :=
  [ .host (Gen.seg0 m 𝒱₀ L lv fun _ => R), .host (Gen.seg1 m 𝒱₀ L lv fun _ => R), .host (Gen.seg2 m 𝒱₀ L lv fun _ => R),
    .host (Gen.seg3 m 𝒱₀ L lv fun _ => R), .region (reg0 m), .region (reg1 m), .region (reg2 m) ]

set_option backward.isDefEq.respectTransparency.types false in
/-- THE RUN: from any memory with zero counters every weakly fair execution of @main terminates, nothing faulting, and
    every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W7 m c) ∗ ∃ r, prngReg c r))
    (hch := fun c => ⟨.rfl, .rfl, .rfl, .rfl, .rfl, .rfl, .rfl, by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.Kernel.Hand

end
-- ==== Proof.K.Frame.lean ====
/-
  The kernel's frame, read off its run. A buffer that no host stretch writes and that the regions only stage as an
  input holds its launch contents at every boundary, so after the run each of the eight argument arrays is as launched;
  the result buffer holds region 2's output array.
-/
import proofs.«145497_g38912403702117_cont_8to1_b_1654_14_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading a buffer back through the boundaries -/

/-- A buffer no host stretch writes holds, before region 0, its launch contents. -/
theorem W4_keep (c : Dev nD) (r : Ref sig .tc) (h0 : r ∉ hostOps0_W) (h1 : r ∉ hostOps0_1_W) (h2 : r ∉ hostOps0_2_W) (h3 : r ∉ hostOps0_3_W) :
    W4 m c r = m ((c : Thread nD τ).loc r) :=
  (V4_of m c r h3).trans <| (V3_of m c r h2).trans <| (V2_of m c r h1).trans <| (V1_of m c r h0).trans rfl

/-- An input window's array leaves region 1 as it entered. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (Vr1 m) c).arrAt_in w hw _).trans (A_eq1 (Vr1 m) c w))
/-- An input window's array leaves region 2 as it entered. -/
theorem W7_in (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((dat2 (Vr2 m) c).arrAt_in w hw _).trans (A_eq2 (Vr2 m) c w))

theorem W7_main_arg0 (c : Dev nD) : W7 m c main_arg0 = m ((c : Thread nD τ).loc main_arg0) :=
  (W7_of_ne m c main_arg0 (by decide)).trans <| (W6_of_ne m c main_arg0 (by decide)).trans <| (W5_of_ne m c main_arg0 (by decide)).trans <|
    W4_keep m c main_arg0 (by decide) (by decide) (by decide) (by decide)
theorem W5_main_arg1 (c : Dev nD) : W5 m c main_arg1 = m ((c : Thread nD τ).loc main_arg1) :=
  (W5_of_ne m c main_arg1 (by decide)).trans <| W4_keep m c main_arg1 (by decide) (by decide) (by decide) (by decide)
theorem W6_main_arg1 (c : Dev nD) : W6 m c main_arg1 = m ((c : Thread nD τ).loc main_arg1) :=
  (W6_in m c 0 rfl).trans (W5_main_arg1 m c)
theorem W7_main_arg1 (c : Dev nD) : W7 m c main_arg1 = m ((c : Thread nD τ).loc main_arg1) :=
  (W7_of_ne m c main_arg1 (by decide)).trans (W6_main_arg1 m c)
theorem W7_main_arg2 (c : Dev nD) : W7 m c main_arg2 = m ((c : Thread nD τ).loc main_arg2) :=
  (W7_of_ne m c main_arg2 (by decide)).trans <| (W6_of_ne m c main_arg2 (by decide)).trans <| (W5_of_ne m c main_arg2 (by decide)).trans <|
    W4_keep m c main_arg2 (by decide) (by decide) (by decide) (by decide)
theorem W7_main_arg3 (c : Dev nD) : W7 m c main_arg3 = m ((c : Thread nD τ).loc main_arg3) :=
  (W7_of_ne m c main_arg3 (by decide)).trans <| (W6_of_ne m c main_arg3 (by decide)).trans <| (W5_of_ne m c main_arg3 (by decide)).trans <|
    W4_keep m c main_arg3 (by decide) (by decide) (by decide) (by decide)
theorem W5_main_arg4 (c : Dev nD) : W5 m c main_arg4 = m ((c : Thread nD τ).loc main_arg4) :=
  (W5_of_ne m c main_arg4 (by decide)).trans <| W4_keep m c main_arg4 (by decide) (by decide) (by decide) (by decide)
theorem W7_main_arg4 (c : Dev nD) : W7 m c main_arg4 = m ((c : Thread nD τ).loc main_arg4) :=
  (W7_of_ne m c main_arg4 (by decide)).trans <| (W6_in m c 3 rfl).trans (W5_main_arg4 m c)
theorem W7_main_arg5 (c : Dev nD) : W7 m c main_arg5 = m ((c : Thread nD τ).loc main_arg5) :=
  (W7_of_ne m c main_arg5 (by decide)).trans <| (W6_of_ne m c main_arg5 (by decide)).trans <| (W5_of_ne m c main_arg5 (by decide)).trans <|
    W4_keep m c main_arg5 (by decide) (by decide) (by decide) (by decide)
theorem W5_main_arg6 (c : Dev nD) : W5 m c main_arg6 = m ((c : Thread nD τ).loc main_arg6) :=
  (W5_of_ne m c main_arg6 (by decide)).trans <| W4_keep m c main_arg6 (by decide) (by decide) (by decide) (by decide)
theorem W6_main_arg6 (c : Dev nD) : W6 m c main_arg6 = m ((c : Thread nD τ).loc main_arg6) :=
  (W6_in m c 4 rfl).trans (W5_main_arg6 m c)
theorem W7_main_arg6 (c : Dev nD) : W7 m c main_arg6 = m ((c : Thread nD τ).loc main_arg6) :=
  (W7_in m c 3 rfl).trans (W6_main_arg6 m c)
theorem W7_main_arg7 (c : Dev nD) : W7 m c main_arg7 = m ((c : Thread nD τ).loc main_arg7) :=
  (W7_of_ne m c main_arg7 (by decide)).trans <| (W6_of_ne m c main_arg7 (by decide)).trans <| (W5_of_ne m c main_arg7 (by decide)).trans <|
    W4_keep m c main_arg7 (by decide) (by decide) (by decide) (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN WITH THE RESULT NAMED: every execution ends with the result buffer at region 2's output array and every
    argument as launched. -/
theorem run_value : θ_run defs (onTc (τ := τ) (main (F := F))) ⟨m, fun _ => 0, ρ⟩ (fun r => ∀ c : Dev nD,
      r.2.mem ((c.tc : Thread nD τ).loc main_v8) = (dat2 (Vr2 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v8 (by decide))).trans (W7_arr m c 5),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c)⟩) (run_main m ρ)

/-- THE FRAME: every execution terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.Kernel.Hand

end
-- ==== Proof.KI.R0.Runs.lean ====
/-
  Region 0 (the first contraction, x · W1 accumulated over 12 row blocks): what the three whole-body runs share.
  The branch conditions of the body decided over the 12 grid points, where the output window is idle, the staging
  and scratch memrefs, and the region invariant with the accumulator as an owned memref beside an unopened rest.
-/
import proofs.«145497_g38912403702117_cont_8to1_b_1654_14_alg».proof.Proof.Gen.KernelIdeal.Launch
import proofs.«145497_g38912403702117_cont_8to1_b_1654_14_alg».proof.Proof.Gen.KernelIdeal.Skeleton
import proofs.«145497_g38912403702117_cont_8to1_b_1654_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional: the grid coordinate is positive. -/
abbrev cond0_1 (i : grid0.Coords) : Prop := (Scalar.cmpi .ne (Scalar.extui (Scalar.cmpi .sgt (BitVec.ofNat 32 (i 0).val) 0#32)) 0#32) = 1#1
/-- It holds from point 1 on. -/
theorem hcond0_1 : ∀ t : Fin cfg0.N, cond0_1 (grid0.coords t) ↔ 1 ≤ t.val :=
  (by decide +kernel : ∀ t : Fin grid0.N, cond0_1 (grid0.coords t) ↔ 1 ≤ t.val)

/-- The third conditional: the grid coordinate is 11. -/
abbrev cond0_2 (i : grid0.Coords) : Prop := k0_cond3 i = 1#1
/-- It holds at the last point only. -/
theorem hcond0_2 : ∀ t : Fin cfg0.N, cond0_2 (grid0.coords t) ↔ t.val = 11 :=
  (by decide +kernel : ∀ t : Fin grid0.N, cond0_2 (grid0.coords t) ↔ t.val = 11)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle and not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
/-- At the last point it is live. -/
theorem liveAt0_2 : ∀ t : Fin cfg0.N, cond0_2 (grid0.coords t) → cfg0.idle 2 (grid0.coords t) = false := by decide +kernel

/-! ## The memrefs the body is called with -/

/-- The output window's one staging buffer, through which its contents are stated. -/
abbrev VO0_2 : View sig .tc .vmem S10000x60 .bf16 := (Memref.whole cc0_stg2_0 : Memref sig .tc .vmem S10000x60 .bf16).view
abbrev ms0_0 (t : Fin cfg0.N) : Memref sig .tc .vmem S128x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x60 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x60 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S10000x60 .f32 := Memref.whole cc0_scratch0
abbrev VS0_0 : View sig .tc .vmem S10000x60 .f32 := scM0_0.view

/-- Every scoped buffer of the core that is neither a staging buffer of this region nor its accumulator, at some
    contents each: carried through the region unopened. -/
def rest0 (c : Dev nD) : sProp 𝕄 :=
  Pipeline.scopedRestBut (Ix := Unit) (Name := ℕ) (U := UR sig nD τ) (Lvl := ℕ) (Val := Elt F) spec0 c [cc0_scratch0]

/-- The region invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0
  rw [Pipeline.scopedRest_split_of_list spec0 c [cc0_scratch0] (by decide) (by decide)]
  simp only [bigSepL_singleton, scM0_0, owns_whole]; try rfl

end Cert.KernelIdeal.Hand

end
-- ==== Proof.KI.R0.RunA.lean ====
/-
  Region 0, the body at the first grid point: the block product is stored into the accumulator, the output window
  is left untouched.
-/
import proofs.«145497_g38912403702117_cont_8to1_b_1654_14_alg».proof.Proof.KI.R0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (first conditional taken, the others not: point 0). On whole memrefs, the inputs' at their contents, the
    output's at contents handed back untouched, the accumulator at anything, the body runs to the continuation holding
    the inputs and the output as they were and the accumulator with its pieces written. -/
noncomputable def kernelRun0_A (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : cond0_0 i) (hc1 : ¬cond0_1 i) (hc2 : ¬cond0_2 i)
    (x0 : Vec F S128x10000 .f32) (x1 : Vec F S128x60 .f32) :
    { LS0 : List (View.Piece (Elt F) S10000x60 .f32) //
      ∀ (xi2 : Vec F S10000x60 .bf16) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__xw_body i arg1 harg1 arg2 harg2 arg3 harg3 arg4 harg4) K } := by
  refine ⟨?_, fun xi2 E K => ?run⟩
  case run =>
    simp only [cc0__xw_body_eq_skeleton]; unfold cc0__xw_body_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0.RunB.lean ====
/-
  Region 0, the body at the middle grid points: the block product is added into the accumulator, the output window
  is left untouched.
-/
import proofs.«145497_g38912403702117_cont_8to1_b_1654_14_alg».proof.Proof.KI.R0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (second conditional taken, the others not: points 1 to 10). On whole memrefs, the inputs' at their
    contents, the output's at contents handed back untouched, the accumulator at what the point before left, the body
    runs to the continuation holding the inputs and the output as they were and the accumulator with its pieces
    written. -/
noncomputable def kernelRun0_B (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : ¬cond0_2 i)
    (x0 : Vec F S128x10000 .f32) (x1 : Vec F S128x60 .f32) (xs0 : Vec F S10000x60 .f32) :
    { LS0 : List (View.Piece (Elt F) S10000x60 .f32) //
      ∀ (xi2 : Vec F S10000x60 .bf16) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__xw_body i arg1 harg1 arg2 harg2 arg3 harg3 arg4 harg4) K } := by
  refine ⟨?_, fun xi2 E K => ?run⟩
  case run =>
    simp only [cc0__xw_body_eq_skeleton]; unfold cc0__xw_body_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.R0.RunC.lean ====
/-
  Region 0, the body at the last grid point: the block product is added into the accumulator, and the accumulator,
  rounded to the output's element type, is stored into the output window.
-/
import proofs.«145497_g38912403702117_cont_8to1_b_1654_14_alg».proof.Proof.KI.R0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (second and third conditionals taken, the first not: point 11). On whole memrefs, the inputs' at their
    contents, the output's at anything, the accumulator at what the point before left, the body runs to the
    continuation holding the inputs as they were and the output and the accumulator with their pieces written. -/
noncomputable def kernelRun0_C (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : cond0_2 i)
    (x0 : Vec F S128x10000 .f32) (x1 : Vec F S128x60 .f32) (xs0 : Vec F S10000x60 .f32) :
    Σ' (L2 : List (View.Piece (Elt F) S10000x60 .bf16)), { LS0 : List (View.Piece (Elt F) S10000x60 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__xw_body i arg1 harg1 arg2 harg2 arg3 harg3 arg4 harg4) K } := by
  refine ⟨?_, ?_, fun E K => ?run⟩
  case run =>
    simp only [cc0__xw_body_eq_skeleton]; unfold cc0__xw_body_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Region0.lean ====
/-
  Region 0 (the first contraction, x · W1, accumulated over 12 blocks of 128 rows of the padded operands): the
  frame half. What the accumulator holds after each grid point, as a recursion on the point (the block product at
  point 0, the running value plus the block product afterwards), what the output window's buffer holds after the
  last point, the proof data of the pipeline, and the body obligation: at every grid point the body, run on the
  blocks the pipeline staged, leaves the accumulator and the output at these contents.
-/
import proofs.«145497_g38912403702117_cont_8to1_b_1654_14_alg».proof.Proof.KI.R0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The pieces each case writes cover the buffer they are written into -/

theorem scover0_A_0 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : cond0_0 i) (hc1 : ¬cond0_1 i) (hc2 : ¬cond0_2 i)
    (x0 : Vec F S128x10000 .f32) (x1 : Vec F S128x60 .f32) (y : S10000x60.Idx) :
    ∃ pc ∈ (kernelRun0_A c i arg1 harg1 arg2 harg2 arg3 harg3 arg4 harg4 hc0 hc1 hc2 x0 x1).1, y ∈ pc.1.set :=
  View.cover_of_tiledL (kernelRun0_A c i arg1 harg1 arg2 harg2 arg3 harg3 arg4 harg4 hc0 hc1 hc2 x0 x1).1 S10000x60.size (by sl_kernel_rfl) y

theorem scover0_B_0 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : ¬cond0_2 i)
    (x0 : Vec F S128x10000 .f32) (x1 : Vec F S128x60 .f32) (xs0 : Vec F S10000x60 .f32) (y : S10000x60.Idx) :
    ∃ pc ∈ (kernelRun0_B c i arg1 harg1 arg2 harg2 arg3 harg3 arg4 harg4 hc0 hc1 hc2 x0 x1 xs0).1, y ∈ pc.1.set :=
  View.cover_of_tiledL (kernelRun0_B c i arg1 harg1 arg2 harg2 arg3 harg3 arg4 harg4 hc0 hc1 hc2 x0 x1 xs0).1 S10000x60.size (by sl_kernel_rfl) y

theorem cover0_C_2 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : cond0_2 i)
    (x0 : Vec F S128x10000 .f32) (x1 : Vec F S128x60 .f32) (xs0 : Vec F S10000x60 .f32) (y : S10000x60.Idx) :
    ∃ pc ∈ (kernelRun0_C c i arg1 harg1 arg2 harg2 arg3 harg3 arg4 harg4 hc0 hc1 hc2 x0 x1 xs0).1, y ∈ pc.1.set :=
  View.cover_of_tiledL (kernelRun0_C c i arg1 harg1 arg2 harg2 arg3 harg3 arg4 harg4 hc0 hc1 hc2 x0 x1 xs0).1 S10000x60.size (by sl_kernel_rfl) y

theorem scover0_C_0 (c : Dev nD) (i : grid0.Coords) (arg1 : Memref sig .tc .vmem S128x10000 .f32) (harg1 : arg1.IsWhole) (arg2 : Memref sig .tc .vmem S128x60 .f32) (harg2 : arg2.IsWhole) (arg3 : Memref sig .tc .vmem S10000x60 .bf16) (harg3 : arg3.IsWhole) (arg4 : Memref sig .tc .vmem S10000x60 .f32) (harg4 : arg4.IsWhole) (hc0 : ¬cond0_0 i) (hc1 : cond0_1 i) (hc2 : cond0_2 i)
    (x0 : Vec F S128x10000 .f32) (x1 : Vec F S128x60 .f32) (xs0 : Vec F S10000x60 .f32) (y : S10000x60.Idx) :
    ∃ pc ∈ (kernelRun0_C c i arg1 harg1 arg2 harg2 arg3 harg3 arg4 harg4 hc0 hc1 hc2 x0 x1 xs0).2.1, y ∈ pc.1.set :=
  View.cover_of_tiledL (kernelRun0_C c i arg1 harg1 arg2 harg2 arg3 harg3 arg4 harg4 hc0 hc1 hc2 x0 x1 xs0).2.1 S10000x60.size (by sl_kernel_rfl) y

/-! ## Which case a grid point is in -/

theorem case0_A (t : Fin cfg0.N) (h : t.val = 0) :
    cond0_0 (grid0.coords t) ∧ ¬cond0_1 (grid0.coords t) ∧ ¬cond0_2 (grid0.coords t) :=
  ⟨(hcond0_0 t).mpr h, fun hh => by have := (hcond0_1 t).mp hh; omega, fun hh => by have := (hcond0_2 t).mp hh; omega⟩

theorem case0_B (t : Fin cfg0.N) (h1 : 1 ≤ t.val) (h2 : ¬t.val = 11) :
    ¬cond0_0 (grid0.coords t) ∧ cond0_1 (grid0.coords t) ∧ ¬cond0_2 (grid0.coords t) :=
  ⟨fun hh => by have := (hcond0_0 t).mp hh; omega, (hcond0_1 t).mpr h1, fun hh => h2 ((hcond0_2 t).mp hh)⟩

theorem case0_C (t : Fin cfg0.N) (h : t.val = 11) :
    ¬cond0_0 (grid0.coords t) ∧ cond0_1 (grid0.coords t) ∧ cond0_2 (grid0.coords t) :=
  ⟨fun hh => by have := (hcond0_0 t).mp hh; omega, (hcond0_1 t).mpr (by omega), (hcond0_2 t).mpr h⟩

/-! ## The runs at a grid point, on the memrefs and blocks the pipeline calls the body with -/

abbrev run0_A (c : Dev nD) (t : Fin cfg0.N) (h : t.val = 0) :=
  kernelRun0_A c (grid0.coords t) (ms0_0 t) (hs0_0 t) (ms0_1 t) (hs0_1 t) (ms0_2 t) (hs0_2 t) scM0_0 (Memref.isWhole_whole _) (case0_A t h).1 (case0_A t h).2.1 (case0_A t h).2.2 (iblk0 V c 0 t) (iblk0 V c 1 t)

abbrev run0_B (c : Dev nD) (t : Fin cfg0.N) (h1 : 1 ≤ t.val) (h2 : ¬t.val = 11) (xs0 : Vec F S10000x60 .f32) :=
  kernelRun0_B c (grid0.coords t) (ms0_0 t) (hs0_0 t) (ms0_1 t) (hs0_1 t) (ms0_2 t) (hs0_2 t) scM0_0 (Memref.isWhole_whole _) (case0_B t h1 h2).1 (case0_B t h1 h2).2.1 (case0_B t h1 h2).2.2 (iblk0 V c 0 t) (iblk0 V c 1 t) xs0

abbrev run0_C (c : Dev nD) (t : Fin cfg0.N) (h : t.val = 11) (xs0 : Vec F S10000x60 .f32) :=
  kernelRun0_C c (grid0.coords t) (ms0_0 t) (hs0_0 t) (ms0_1 t) (hs0_1 t) (ms0_2 t) (hs0_2 t) scM0_0 (Memref.isWhole_whole _) (case0_C t h).1 (case0_C t h).2.1 (case0_C t h).2.2 (iblk0 V c 0 t) (iblk0 V c 1 t) xs0

/-- What the first point leaves in the accumulator: its pieces read back. -/
def sout0_A (c : Dev nD) (t : Fin cfg0.N) (h : t.val = 0) : Vec F S10000x60 .f32 :=
  VS0_0.read (Elt F) (VS0_0.writes (Elt F) VS0_0.junk (run0_A V c t h).1)

/-- What a middle point leaves in the accumulator, from what the point before left. -/
def sout0_B (c : Dev nD) (t : Fin cfg0.N) (h1 : 1 ≤ t.val) (h2 : ¬t.val = 11) (xs0 : Vec F S10000x60 .f32) : Vec F S10000x60 .f32 :=
  VS0_0.read (Elt F) (VS0_0.writes (Elt F) VS0_0.junk (run0_B V c t h1 h2 xs0).1)

/-- What the last point leaves in the accumulator, from what the point before left. -/
def sout0_C (c : Dev nD) (t : Fin cfg0.N) (h : t.val = 11) (xs0 : Vec F S10000x60 .f32) : Vec F S10000x60 .f32 :=
  VS0_0.read (Elt F) (VS0_0.writes (Elt F) VS0_0.junk (run0_C V c t h xs0).2.1)

/-- What the last point leaves in the output window's buffer, from what the point before left in the accumulator. -/
def out0_C (c : Dev nD) (t : Fin cfg0.N) (h : t.val = 11) (xs0 : Vec F S10000x60 .f32) : Vec F S10000x60 .bf16 :=
  VO0_2.read (Elt F) (VO0_2.writes (Elt F) VO0_2.junk (run0_C V c t h xs0).1)

/-! ## What the accumulator and the output hold after each point -/

/-- THE ACCUMULATION: the accumulator after the body at position `n`. -/
def scrAt0 (c : Dev nD) : (n : ℕ) → n < cfg0.N → Vec F S10000x60 .f32
  | 0, hn => sout0_A V c ⟨0, hn⟩ rfl
  | n + 1, hn =>
    if h : n + 1 = 11 then sout0_C V c ⟨n + 1, hn⟩ h (scrAt0 c n (Nat.lt_of_succ_lt hn))
    else sout0_B V c ⟨n + 1, hn⟩ (Nat.succ_le_succ (Nat.zero_le n)) h (scrAt0 c n (Nat.lt_of_succ_lt hn))

theorem scrAt0_A (c : Dev nD) (t : Fin cfg0.N) (h : t.val = 0) : scrAt0 V c t.val t.isLt = sout0_A V c t h := by
  obtain ⟨n, hn⟩ := t
  cases n with
  | zero => rfl
  | succ n => exact absurd h (Nat.succ_ne_zero n)

theorem scrAt0_B (c : Dev nD) (t : Fin cfg0.N) (h1 : 1 ≤ t.val) (h2 : ¬t.val = 11) :
    scrAt0 V c t.val t.isLt = sout0_B V c t h1 h2 (scrAt0 V c (t.val - 1) (Nat.lt_of_le_of_lt (Nat.sub_le _ _) t.isLt)) := by
  obtain ⟨n, hn⟩ := t
  cases n with
  | zero => exact absurd h1 (Nat.not_succ_le_zero 0)
  | succ n => exact (dif_neg h2).trans rfl

theorem scrAt0_C (c : Dev nD) (t : Fin cfg0.N) (h : t.val = 11) :
    scrAt0 V c t.val t.isLt = sout0_C V c t h (scrAt0 V c (t.val - 1) (Nat.lt_of_le_of_lt (Nat.sub_le _ _) t.isLt)) := by
  obtain ⟨n, hn⟩ := t
  cases n with
  | zero => exact absurd h (show ¬((0 : ℕ) = 11) from by decide)
  | succ n => exact (dif_pos h).trans rfl

/-- The output window's buffer after the body at point `t`: at the last point what the body stores (the accumulator
    rounded to the output's element type); elsewhere a placeholder nothing consults (the window is idle there). -/
def outAt0 (c : Dev nD) (t : Fin cfg0.N) : Vec F S10000x60 .bf16 :=
  if h : t.val = 11 then out0_C V c t h (scrAt0 V c (t.val - 1) (Nat.lt_of_le_of_lt (Nat.sub_le _ _) t.isLt))
  else VO0_2.read (Elt F) VO0_2.junk

/-- The region invariant before position `n`: before the first point the class's; afterwards the accumulator at what
    the point before left, the unopened rest, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (scrAt0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (scrAt0 V c n hn) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (scrAt0 V c (n - 1) (by omega)) ∗ rest0 c) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; the
    invariant hands the body the accumulator at what the point before left (at anything at the first point) and takes
    it back at this point's contents; the rest, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 12 := lt_of_lt_of_eq t.isLt (show cfg0.N = 12 from N_0)
  by_cases hz : t.val = 0
  · rw [Dat.leavesExact_idle (dat0 V c) 2 t (idleAt0_2 t (case0_A t hz).2.2) (noFlush0_2 t (case0_A t hz).2.2)]
    rw [scrAt0_A V c t hz]
    unfold sout0_A
    rw [PhiS0_castSucc V c t, PhiS0_zero V c _ _ hz, PhiA0_eq]
    iintro ⟨⟨⟨HS0, Hr⟩, Hg⟩, Ho, ⟨%d0, H0⟩, ⟨%d1, H1⟩, ⟨%d2, H2⟩⟩
    iapply ((run0_A V c t hz).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_A_0 c _ _ _ _ _ _ _ _ _ _ _ _ _ _)
        iexact Hr
      iexact Hg
    isplitl [Ho]; · iexact Ho
    isplitl [H0]; · iexact H0
    isplitl [H1]; · iexact H1
    iexists _; iexact H2
  · by_cases hl : t.val = 11
    · rw [show (dat0 V c).leavesExact 2 t = owns (c : Thread nD τ) (ms0_2 t) fullShare ((dat0 V c).after 2 t) from by
        unfold Dat.leavesExact; rw [liveAt0_2 t (case0_C t hl).2.2], after0_2]
      rw [scrAt0_C V c t hl, show outAt0 V c t = out0_C V c t hl (scrAt0 V c (t.val - 1) (Nat.lt_of_le_of_lt (Nat.sub_le _ _) t.isLt)) from dif_pos hl]
      unfold sout0_C out0_C
      rw [PhiS0_castSucc V c t, PhiS0_pos V c _ _ hz]
      iintro ⟨⟨⟨HS0, Hr⟩, Hg⟩, Ho, ⟨%d0, H0⟩, ⟨%d1, H1⟩, ⟨%d2, H2⟩⟩
      iapply ((run0_C V c t hl _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _)
    · have h1 : 1 ≤ t.val := Nat.one_le_iff_ne_zero.mpr hz
      rw [Dat.leavesExact_idle (dat0 V c) 2 t (idleAt0_2 t (case0_B t h1 hl).2.2) (noFlush0_2 t (case0_B t h1 hl).2.2)]
      rw [scrAt0_B V c t h1 hl]
      unfold sout0_B
      rw [PhiS0_castSucc V c t, PhiS0_pos V c _ _ hz]
      iintro ⟨⟨⟨HS0, Hr⟩, Hg⟩, Ho, ⟨%d0, H0⟩, ⟨%d1, H1⟩, ⟨%d2, H2⟩⟩
      iapply ((run0_B V c t h1 hl _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 12 := N_0; omega)

end Cert.KernelIdeal.Hand

end
-- ==== Proof.KI.R1.Blocks.lean ====
/-
  Region 1 (the second kernel call: one pass over the adjacency in blocks of 400 rows), stated at the buffer contents
  `V` the region is entered with: each window's block at a grid point, what an input window's staging buffer holds
  when the body is called, the rectangles the body reads and writes, and what the body leaves in each output
  window's staging buffer as a function of the input blocks.
-/
import proofs.«145497_g38912403702117_cont_8to1_b_1654_14_alg».proof.Proof.Gen.KernelIdeal.Launch
import proofs.«145497_g38912403702117_cont_8to1_b_1654_14_alg».proof.Proof.Gen.KernelIdeal.Skeleton
import proofs.«145497_g38912403702117_cont_8to1_b_1654_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is a whole staging buffer -/

abbrev r1_0 : Rect S400x10000 := Rect.unit (s := S400x10000) ![0, 0] S400x10000.size inb_S400x10000_S400x10000_0_0
abbrev r1_1 : Rect S10000x60 := Rect.unit (s := S10000x60) ![0, 0] S10000x60.size inb_S10000x60_S10000x60_0_0
abbrev r1_2 : Rect S1x60 := Rect.unit (s := S1x60) ![0, 0] S1x60.size inb_S1x60_S1x60_0_0
abbrev r1_3 : Rect S60x30 := Rect.unit (s := S60x30) ![0, 0] S60x30.size inb_S60x30_S60x30_0_0
abbrev r1_4 : Rect S30x7 := Rect.unit (s := S30x7) ![0, 0] S30x7.size inb_S30x7_S30x7_0_0
abbrev r1_5 : Rect S400x7 := Rect.unit (s := S400x7) ![0, 0] S400x7.size inb_S400x7_S400x7_0_0

/-! ## What the body leaves in each output window's buffer -/

/-- Window 6's staging buffer after the body: its one store, the adjacency block narrowed to the 16-bit format. -/
def out1_6 (x0 : Vec F S400x10000 .f32) : Vec F S400x10000 .bf16 :=
  View.canon [⟨r1_0, k1_pay1 (View.ld x0 r1_0)⟩]

/-- Window 5's staging buffer after the body: its one store, the 7-wide support of the block's 400 rows, from the
    five input blocks. -/
def out1_5 (x0 : Vec F S400x10000 .f32) (x1 : Vec F S10000x60 .bf16) (x2 : Vec F S1x60 .f32) (x3 : Vec F S60x30 .f32)
    (x4 : Vec F S30x7 .f32) : Vec F S400x7 .bf16 :=
  View.canon [⟨r1_5, k1_pay2 (View.ld x0 r1_0) (View.ld x1 r1_1) (View.ld x2 r1_2) (View.ld x3 r1_3) (View.ld x4 r1_4)⟩]

/-- The one store of window 6 is the whole buffer, so it covers it. -/
theorem cover1_6 (p0 : Vec F S400x10000 .bf16) (y : S400x10000.Idx) :
    ∃ pc ∈ ([⟨r1_0, p0⟩] : List (View.Piece (Elt F) S400x10000 .bf16)), y ∈ pc.1.set :=
  View.cover_of_tiledL [⟨r1_0, p0⟩] S400x10000.size (by sl_kernel_rfl) y

/-- The one store of window 5 is the whole buffer, so it covers it. -/
theorem cover1_5 (p0 : Vec F S400x7 .bf16) (y : S400x7.Idx) :
    ∃ pc ∈ ([⟨r1_5, p0⟩] : List (View.Piece (Elt F) S400x7 .bf16)), y ∈ pc.1.set :=
  View.cover_of_tiledL [⟨r1_5, p0⟩] S400x7.size (by sl_kernel_rfl) y

end Cert.KernelIdeal.Hand

end
-- ==== Proof.KI.R1.Kernel.lean ====
/-
  Region 1: the body on whole staging memrefs. With the five input buffers at read contents and the two output
  buffers at anything, the body runs to the continuation holding the inputs as they were and each output buffer at
  what its one store leaves. The body also reads each output buffer before storing to it; nothing depends on
  what it reads there.
-/
import proofs.«145497_g38912403702117_cont_8to1_b_1654_14_alg».proof.Proof.KI.R1.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body's triple, by running its skeleton of memory operations. -/
theorem sound_kernel1 (c : Dev nD) (E : Set ℕ) (i : grid1.Coords)
    (arg1 : Memref sig .tc .vmem S400x10000 .f32) (harg1 : arg1.IsWhole) (arg2 : Memref sig .tc .vmem S10000x60 .bf16) (harg2 : arg2.IsWhole)
    (arg3 : Memref sig .tc .vmem S1x60 .f32) (harg3 : arg3.IsWhole) (arg4 : Memref sig .tc .vmem S60x30 .f32) (harg4 : arg4.IsWhole)
    (arg5 : Memref sig .tc .vmem S30x7 .f32) (harg5 : arg5.IsWhole) (arg6 : Memref sig .tc .vmem S400x7 .bf16) (harg6 : arg6.IsWhole)
    (arg7 : Memref sig .tc .vmem S400x10000 .bf16) (harg7 : arg7.IsWhole)
    (x0 : Vec F S400x10000 .f32) (x1 : Vec F S10000x60 .bf16) (x2 : Vec F S1x60 .f32) (x3 : Vec F S60x30 .f32) (x4 : Vec F S30x7 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0)) -∗ K ⟨⟩))
      ⊢ wp frame (wpE (defs₀ (F := F)) Variants.none c none) E (cc1__l1_body i arg1 harg1 arg2 harg2 arg3 harg3 arg4 harg4 arg5 harg5 arg6 harg6 arg7 harg7) K := by
  simp only [cc1__l1_body_eq_skeleton]; unfold cc1__l1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

end Cert.KernelIdeal.Hand

end
-- ==== Proof.KI.Region1.lean ====
/-
  Region 1: the proof data of its pipeline at the buffer contents `V` the region is entered with, and the body
  obligation at a generic grid point. After the body at point `t` each input window's staging buffer holds its block
  and each output window's holds what the body's one store to it leaves, a function of the input blocks. The
  invariant is the untouched rest of the core's state, the same at every point; nothing is owed; all shares are full.
-/
import proofs.«145497_g38912403702117_cont_8to1_b_1654_14_alg».proof.Proof.KI.R1.Kernel

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at the region's entry is the untouched rest of the core's state. -/
theorem hin1 (c : Dev nD) : Pipeline.ΦA spec1 c ⊢ (dat1 V c).Φ 0 := by
  unfold dat1; exact .rfl

/-- And so it is after the last point. -/
theorem hout1 (c : Dev nD) : (dat1 V c).Φ (Fin.last cfg1.N) ⊢ Pipeline.ΦA spec1 c := by
  unfold dat1; exact .rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.Base.lean ====
import proofs.«145497_g38912403702117_cont_8to1_b_1654_14_alg».proof.Proof.Gen.KernelIdeal.Launch
import proofs.«145497_g38912403702117_cont_8to1_b_1654_14_alg».proof.Proof.Gen.KernelIdeal.Skeleton
import proofs.«145497_g38912403702117_cont_8to1_b_1654_14_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: what its two cases share -/

/-- The first conditional of the body holds at a point. -/
abbrev cond2_0 (i : grid2.Coords) : Prop := k2_cond1 i = 1#1
/-- The second conditional of the body holds at a point. -/
abbrev cond2_1 (i : grid2.Coords) : Prop := k2_cond2 i = 1#1

/-- The first conditional holds at the first ten points. -/
theorem hcond2_0 : ∀ t : Fin cfg2.N, cond2_0 (grid2.coords t) ↔ t.val < 10 :=
  (by decide +kernel : ∀ t : Fin grid2.N, cond2_0 (grid2.coords t) ↔ t.val < 10)
/-- The second conditional holds at the last ten points. -/
theorem hcond2_1 : ∀ t : Fin cfg2.N, cond2_1 (grid2.coords t) ↔ 10 ≤ t.val :=
  (by decide +kernel : ∀ t : Fin grid2.N, cond2_1 (grid2.coords t) ↔ 10 ≤ t.val)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- The output is idle, and not written back, at the first ten points; live at the last ten. -/
theorem idleAt2_5_A : ∀ t : Fin cfg2.N, t.val < 10 → cfg2.idle 5 (grid2.coords t) = true := by decide +kernel
theorem noFlush2_5_A : ∀ t : Fin cfg2.N, t.val < 10 → (cfg2.win 5).flush t = false := by decide +kernel
theorem liveAt2_5_B : ∀ t : Fin cfg2.N, 10 ≤ t.val → cfg2.idle 5 (grid2.coords t) = false := by decide +kernel

/-- Each window's current staging memref at a point, and its wholeness. -/
abbrev ms2_0 (t : Fin cfg2.N) : Memref sig .tc .vmem S1000x10000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x7 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x30 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S30x7 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x7 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x7 .f32 := win2_5.stage (cfg2.slots t 5)
abbrev hs2_5 (t : Fin cfg2.N) : (ms2_5 t).IsWhole := hstage2_5 ((cfg2.slots t 5).cast nbuf2_5)
/-- The scratch operand: a whole scoped buffer of the kernel's own, carried between points. -/
abbrev scM2_0 : Memref sig .tc .vmem S10000x7 .bf16 := Memref.whole cc2_scratch0

/-- The scoped rest split at the scratch operand; the remainder stays unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The remainder of the scoped rest, carried unopened through the region. -/
abbrev rest2 (c : Dev nD) : sProp 𝕄 :=
  Pipeline.scopedRestBut (Ix := Unit) (Name := ℕ) (U := UR sig nD τ) (Lvl := ℕ) (Val := Elt F) spec2 c [cc2_scratch0]

/-- The region's entry invariant with the scratch operand as a memref owned at some contents. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

/-- The zero offsets of a rank-2 access, as the constant function. -/
theorem r2_hz2 : (![0, 0] : Fin 2 → ℕ) = fun _ => 0 := by funext a; fin_cases a <;> rfl

/-- A load of the whole shape from a whole memref at known read contents reads those contents. -/
theorem r2_readAt_whole_unread {S : Shape} {e : EltTy} (m : Memref sig .tc .vmem S e) (h : m.IsWhole)
    {off : Fin S.rank → ℕ} (hz : off = fun _ => 0) (inb : ∀ a, off a + S.size a ≤ S.size a) (x : S.Idx → Elt F e) :
    View.readAt (Elt F) m.view (Rect.unit (s := S) off S.size inb).toLoadRect (h.unread x) = x :=
  (View.readAt_eq_ld m.view (h.unread x) (Rect.unit (s := S) off S.size inb)).trans
    ((congrArg (fun X => View.ld X (Rect.unit (s := S) off S.size inb)) (h.read_unread x)).trans (View.ld_unit_zero hz inb x))

/-- A load of the whole shape through a view reads the view's contents. -/
theorem r2_readAt_whole {S : Shape} {e : EltTy} (v : View sig .tc .vmem S e)
    {off : Fin S.rank → ℕ} (hz : off = fun _ => 0) (inb : ∀ a, off a + S.size a ≤ S.size a) (f : v.ty.Contents (Elt F)) :
    View.readAt (Elt F) v (Rect.unit (s := S) off S.size inb).toLoadRect f = v.read (Elt F) f :=
  (View.readAt_eq_ld v f (Rect.unit (s := S) off S.size inb)).trans (View.ld_unit_zero hz inb _)

end Cert.KernelIdeal.Hand

end
-- ==== Proof.KI.R2.RunA.lean ====
import proofs.«145497_g38912403702117_cont_8to1_b_1654_14_alg».proof.Proof.KI.R2.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the first stage (the first conditional taken, the second not): on whole staging memrefs, the
    inputs' at their contents, the idle output's at anything, the scratch at any contents, it runs to the continuation
    holding the inputs' and the output's as they were and the scratch with one slice written: the thousand rows at the
    point's offset, at the stage's payload of the inputs. -/
theorem kernelRun2_A (c : Dev nD) (i : grid2.Coords) (arg1 : Memref sig .tc .vmem S1000x10000 .bf16) (harg1 : arg1.IsWhole) (arg2 : Memref sig .tc .vmem S10000x7 .bf16) (harg2 : arg2.IsWhole) (arg3 : Memref sig .tc .vmem S1x30 .f32) (harg3 : arg3.IsWhole) (arg4 : Memref sig .tc .vmem S30x7 .f32) (harg4 : arg4.IsWhole) (arg5 : Memref sig .tc .vmem S1x7 .f32) (harg5 : arg5.IsWhole) (arg6 : Memref sig .tc .vmem S1000x7 .f32) (harg6 : arg6.IsWhole) (arg7 : Memref sig .tc .vmem S10000x7 .bf16) (harg7 : arg7.IsWhole) (hc0 : cond2_0 i) (hc1 : ¬cond2_1 i)
    (x0 : Vec F S1000x10000 .bf16) (x1 : Vec F S10000x7 .bf16) (x2 : Vec F S1x30 .f32) (x3 : Vec F S30x7 .f32) (x4 : Vec F S1x7 .f32) (xi5 : Vec F S1000x7 .f32) (fs : arg7.view.ty.Contents (Elt F)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
        ∗ (arg7.view.loc (c : Thread nD τ) ↦[arg7.view.set]{fullShare} fs)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (arg7.view.loc (c : Thread nD τ) ↦[arg7.view.set]{fullShare} arg7.view.writes (Elt F) fs [⟨Rect.unit (s := S10000x7) (k2_off1 i) S1000x7.size (k2_off1_inb i hc0), k2_pay1 x2 x3 x0 x1⟩])) -∗ K ⟨⟩))
      ⊢ wp frame (wpE (defs₀ (F := F)) Variants.none c none) E (cc2__cd_body i arg1 harg1 arg2 harg2 arg3 harg3 arg4 harg4 arg5 harg5 arg6 harg6 arg7 harg7) K := by
  simp only [cc2__cd_body_eq_skeleton]; unfold cc2__cd_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, HS0, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  rw [r2_readAt_whole_unread arg3 harg3 r2_hz2 inb_S1x30_S1x30_0_0 x2, r2_readAt_whole_unread arg4 harg4 r2_hz2 inb_S30x7_S30x7_0_0 x3,
    r2_readAt_whole_unread arg1 harg1 r2_hz2 inb_S1000x10000_S1000x10000_0_0 x0, r2_readAt_whole_unread arg2 harg2 r2_hz2 inb_S10000x7_S10000x7_0_0 x1]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexact HS0

end Cert.KernelIdeal.Hand

end
-- ==== Proof.KI.R2.RunB.lean ====
import proofs.«145497_g38912403702117_cont_8to1_b_1654_14_alg».proof.Proof.KI.R2.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point of the second stage (the first conditional not taken, the second taken): on whole staging
    memrefs, the inputs' at their contents, the output's at anything, the scratch at any contents `fs`, it runs to the
    continuation holding the inputs' and the scratch as they were and the output's with one store written over it: the
    whole block at the stage's payload of the adjacency block, what the scratch reads, and the bias. -/
theorem kernelRun2_B (c : Dev nD) (i : grid2.Coords) (arg1 : Memref sig .tc .vmem S1000x10000 .bf16) (harg1 : arg1.IsWhole) (arg2 : Memref sig .tc .vmem S10000x7 .bf16) (harg2 : arg2.IsWhole) (arg3 : Memref sig .tc .vmem S1x30 .f32) (harg3 : arg3.IsWhole) (arg4 : Memref sig .tc .vmem S30x7 .f32) (harg4 : arg4.IsWhole) (arg5 : Memref sig .tc .vmem S1x7 .f32) (harg5 : arg5.IsWhole) (arg6 : Memref sig .tc .vmem S1000x7 .f32) (harg6 : arg6.IsWhole) (arg7 : Memref sig .tc .vmem S10000x7 .bf16) (harg7 : arg7.IsWhole) (hc0 : ¬cond2_0 i) (hc1 : cond2_1 i)
    (x0 : Vec F S1000x10000 .bf16) (x1 : Vec F S10000x7 .bf16) (x2 : Vec F S1x30 .f32) (x3 : Vec F S30x7 .f32) (x4 : Vec F S1x7 .f32) (fs : arg7.view.ty.Contents (Elt F)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (arg7.view.loc (c : Thread nD τ) ↦[arg7.view.set]{fullShare} fs)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ f, arg6.view.loc (c : Thread nD τ) ↦[arg6.view.set]{fullShare} arg6.view.writes (Elt F) f [⟨Rect.unit (s := S1000x7) ![0, 0] S1000x7.size inb_S1000x7_S1000x7_0_0, k2_pay2 x0 (arg7.view.read (Elt F) fs) x4⟩])
            ∗ (arg7.view.loc (c : Thread nD τ) ↦[arg7.view.set]{fullShare} fs)) -∗ K ⟨⟩))
      ⊢ wp frame (wpE (defs₀ (F := F)) Variants.none c none) E (cc2__cd_body i arg1 harg1 arg2 harg2 arg3 harg3 arg4 harg4 arg5 harg5 arg6 harg6 arg7 harg7) K := by
  simp only [cc2__cd_body_eq_skeleton]; unfold cc2__cd_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HS0, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  rw [r2_readAt_whole_unread arg1 harg1 r2_hz2 inb_S1000x10000_S1000x10000_0_0 x0, r2_readAt_whole arg7.view r2_hz2 inb_S10000x7_S10000x7_0_0 fs,
    r2_readAt_whole_unread arg5 harg5 r2_hz2 inb_S1x7_S1x7_0_0 x4]
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; iexact H5
  iexact HS0

end Cert.KernelIdeal.Hand

end
-- ==== Proof.KI.Region2.lean ====
import proofs.«145497_g38912403702117_cont_8to1_b_1654_14_alg».proof.Proof.KI.R2.RunA
import proofs.«145497_g38912403702117_cont_8to1_b_1654_14_alg».proof.Proof.KI.R2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 at the buffer contents `V` it is entered with: the frame half -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Each input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The scratch, slice by slice -/

/-- Point `n` of the first stage. -/
def pt2 (n : ℕ) (h : n < 10) : Fin cfg2.N := ⟨n, lt_of_lt_of_eq (Nat.lt_trans h (by decide : 10 < 20)) N_2.symm⟩

/-- What point `n` of the first stage stores into the scratch: the thousand rows at its offset, at the stage's payload
    of the point's input blocks. -/
def piece2 (c : Dev nD) (n : ℕ) (h : n < 10) : View.Piece (Elt F) S10000x7 .bf16 :=
  ⟨Rect.unit (s := S10000x7) (k2_off1 (grid2.coords (pt2 n h))) S1000x7.size (k2_off1_inb (grid2.coords (pt2 n h)) ((hcond2_0 (pt2 n h)).mpr h)),
    k2_pay1 (iblk2 V c 2 (pt2 n h)) (iblk2 V c 3 (pt2 n h)) (iblk2 V c 0 (pt2 n h)) (iblk2 V c 1 (pt2 n h))⟩

/-- The slices stored before point `n`, the last first: one per point of the first stage. -/
def pieces2 (c : Dev nD) : ℕ → List (View.Piece (Elt F) S10000x7 .bf16)
  | 0 => []
  | n + 1 => if h : n < 10 then piece2 V c n h :: pieces2 c n else pieces2 c n

theorem pieces2_succ_lt (c : Dev nD) {n : ℕ} (h : n < 10) : pieces2 V c (n + 1) = piece2 V c n h :: pieces2 V c n := by
  rw [pieces2]; exact dif_pos h

theorem pieces2_succ_ge (c : Dev nD) {n : ℕ} (h : 10 ≤ n) : pieces2 V c (n + 1) = pieces2 V c n := by
  rw [pieces2]; exact dif_neg (by omega)

/-- From the tenth point on the list no longer grows. -/
theorem pieces2_ge (c : Dev nD) (n : ℕ) (h : 10 ≤ n) : pieces2 V c n = pieces2 V c 10 := by
  induction n, h using Nat.le_induction with
  | base => rfl
  | succ n hn ih => rw [pieces2_succ_ge V c hn, ih]

/-- The ten slices tile the scratch (checked by evaluation), so they cover it. -/
theorem cover2 (c : Dev nD) (y : S10000x7.Idx) : ∃ pc ∈ pieces2 V c 10, y ∈ pc.1.set :=
  View.cover_of_tiledL (pieces2 V c 10) S1000x7.size (by sl_kernel_rfl) y

/-- What the scratch holds once the first stage is over: the ten slices, as one function of its index. -/
def scr2 (c : Dev nD) : Vec F S10000x7 .bf16 := View.canon (pieces2 V c 10)

/-- Whatever the scratch held before the first point, after the tenth it reads `scr2`. -/
theorem read_scr2 (c : Dev nD) (f : scM2_0.view.ty.Contents (Elt F)) :
    scM2_0.view.read (Elt F) (scM2_0.view.writes (Elt F) f (pieces2 V c 10)) = scr2 V c :=
  View.read_writes_eq_canon _ _ _ (cover2 V c)

/-- What a point of the second stage leaves in the output's staging buffer: the stage's payload of the point's
    adjacency block, the filled scratch and the bias. (At a point of the first stage the window is idle and this is
    consulted by nothing.) -/
def out2_5 (c : Dev nD) (t : Fin cfg2.N) : Vec F S1000x7 .f32 :=
  k2_pay2 (iblk2 V c 0 t) (scr2 V c) (iblk2 V c 4 t)

/-- The region invariant before point `n`: the scratch at the slices stored so far written over whatever it held, the
    rest of the scoped buffers unopened, the generator register at some state. -/
def PhiS2 (c : Dev nD) (n : ℕ) : sProp 𝕄 :=
  iprop(iprop(iprop((∃ f, scM2_0.view.loc (c : Thread nD τ) ↦[scM2_0.view.set]{fullShare} scM2_0.view.writes (Elt F) f (pieces2 V c n))) ∗ rest2 (F := F) c) ∗ (∃ r, prngReg c r))

/-! ## The pipeline's proof data -/

/-- The proof data of the region on core `c`: the arrays as the region finds them; after the body at a point each
    input's buffer at its block and the output's at `out2_5`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ t := PhiS2 V c t.val
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) : (dat2 V c).Φ t.castSucc = PhiS2 V c t.val := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 3200000 in
/-- The body at any point: the inputs' memrefs hold their blocks; the point is of the first stage or of the second; the
    invariant hands the body the scratch at the slices stored so far and takes it back with the point's slice written
    (first stage) or as it was (second stage, where it reads `scr2` whatever it held before the first point); the core
    owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) from rfl, PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold PhiS2
  by_cases h : t.val < 10
  · rw [Dat.leavesExact_idle (dat2 V c) 5 t (idleAt2_5_A t h) (noFlush2_5_A t h)]
    rw [pieces2_succ_lt V c h]
    iintro ⟨⟨⟨⟨%f, HS0⟩, Hr⟩, Hg⟩, Ho, ⟨%d0, H0⟩, ⟨%d1, H1⟩, ⟨%d2, H2⟩, ⟨%d3, H3⟩, ⟨%d4, H4⟩, ⟨%d5, H5⟩⟩
    iapply (kernelRun2_A c (grid2.coords t) _ _ _ _ _ _ _ _ _ _ _ _ _ _ ((hcond2_0 t).mpr h) (fun h' => absurd ((hcond2_1 t).mp h') (by omega))
      (iblk2 V c 0 t) (iblk2 V c 1 t) (iblk2 V c 2 t) (iblk2 V c 3 t) (iblk2 V c 4 t) ((dat2 V c).before 5 t d5) (scM2_0.view.writes (Elt F) f (pieces2 V c t.val)) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hr Hg]
    · isplitl [HS0 Hr]
      · isplitl [HS0]
        · iexists f; iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have h10 : 10 ≤ t.val := Nat.le_of_not_lt h
    rw [show (dat2 V c).leavesExact 5 t = owns (c : Thread nD τ) (ms2_5 t) fullShare ((dat2 V c).after 5 t) from by
      unfold Dat.leavesExact; rw [liveAt2_5_B t h10], after2_5]
    rw [pieces2_succ_ge V c h10, pieces2_ge V c t.val h10]
    iintro ⟨⟨⟨⟨%f, HS0⟩, Hr⟩, Hg⟩, Ho, ⟨%d0, H0⟩, ⟨%d1, H1⟩, ⟨%d2, H2⟩, ⟨%d3, H3⟩, ⟨%d4, H4⟩, ⟨%d5, H5⟩⟩
    iapply (kernelRun2_B c (grid2.coords t) _ _ _ _ _ _ _ _ _ _ _ _ _ _ (fun h' => h ((hcond2_0 t).mp h')) ((hcond2_1 t).mpr h10)
      (iblk2 V c 0 t) (iblk2 V c 1 t) (iblk2 V c 2 t) (iblk2 V c 3 t) (iblk2 V c 4 t) (scM2_0.view.writes (Elt F) f (pieces2 V c 10)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    rw [read_scr2 V c f]
    isplitl [HS0 Hr Hg]
    · isplitl [HS0 Hr]
      · isplitl [HS0]
        · iexists f; iexact HS0
        iexact Hr
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact (View.read_writes_eq_canon _ _ _ (fun y => ⟨_, List.mem_singleton_self _, View.mem_set_unit_zero r2_hz2 inb_S1000x7_S1000x7_0_0 y⟩)).trans
      (View.canon_unit_zero r2_hz2 inb_S1000x7_S1000x7_0_0 _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, at whatever the scratch holds. -/
theorem hin2 (c : Dev nD) : Pipeline.ΦA spec2 c ⊢ (dat2 V c).Φ 0 := by
  rw [show (dat2 V c).Φ 0 = PhiS2 V c 0 from rfl, PhiA2_eq]
  unfold PhiS2 owns
  iintro ⟨⟨⟨%d, %f, -, HS0⟩, Hr⟩, Hg⟩
  isplitl [HS0 Hr]
  · isplitl [HS0]
    · iexists f; iexact HS0
    iexact Hr
  iexact Hg

/-- After the last point the invariant gives the entry invariant back: what the scratch holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl, PhiA2_eq]
  unfold PhiS2 owns
  generalize pieces2 V c (Fin.last cfg2.N).val = L
  iintro ⟨⟨⟨%f, HS0⟩, Hr⟩, Hg⟩
  isplitl [HS0 Hr]
  · isplitl [HS0]
    · iexists (scM2_0.view.read (Elt F) (scM2_0.view.writes (Elt F) f L))
      iexists (scM2_0.view.writes (Elt F) f L)
      isplitr; · ipureintro; rfl
      iexact HS0
    iexact Hr
  iexact Hg

end Cert.KernelIdeal.Hand

end
-- ==== Proof.KI.Run.lean ====
/-
  The kernel program as seven segments, and its run. The contents of every unscoped buffer at each boundary of @main:
  the launch contents with the four host stretches applied, then, after each of the three regions, the region's arrays
  at what its write-backs leave and every other buffer as entered. Each region, entered with the buffers at one
  boundary's contents, runs to the next boundary's; chained, every weakly fair execution of @main terminates without a
  fault with every unscoped buffer at the last boundary's contents.
-/
import proofs.«145497_g38912403702117_cont_8to1_b_1654_14_alg».proof.Proof.Gen.KernelIdeal.Regions
import proofs.«145497_g38912403702117_cont_8to1_b_1654_14_alg».proof.Proof.KI.Region0
import proofs.«145497_g38912403702117_cont_8to1_b_1654_14_alg».proof.Proof.KI.Region1
import proofs.«145497_g38912403702117_cont_8to1_b_1654_14_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: the host prefix folded, then region by region -/

/-- Before region 0: the launch contents with the four host stretches applied. -/
abbrev W4 : Dev nD → Valuation τ sig (Elt F) := fun c => Gen.V4 m c
/-- The same read at the TensorCore's references (what region 0's proof data take). -/
abbrev Vr0 : (c : Dev nD) → (b : Ref sig .tc) → Buf (Elt F) ((c : Thread nD τ).loc b) := fun c b => W4 m c b

/-- After region 0: its arrays at what the pipeline leaves (an input as entered, an output its write-backs folded),
    every other buffer as entered. -/
def W5 (c : Dev nD) : Valuation τ sig (Elt F) :=
  Pipeline.withArrays spec0 c (W4 m c) fun w => (dat0 (Vr0 m) c).arrAt w cfg0.N
theorem W5_arr (c : Dev nD) (w : Fin cfg0.W) :
    W5 m c (Proc.devRef .tc (Pipeline.arrRef spec0 w)) = (dat0 (Vr0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
/-- The same read at the TensorCore's references. -/
abbrev Vr1 : (c : Dev nD) → (b : Ref sig .tc) → Buf (Elt F) ((c : Thread nD τ).loc b) := fun c b => W5 m c b
theorem hF0 (c : Dev nD) (w : Fin cfg0.W) : (dat0 (Vr0 m) c).arrAt w cfg0.N = Vr1 m c (Pipeline.arrRef spec0 w) :=
  (W5_arr m c w).symm
theorem hrest0 (c : Dev nD) : ∀ b, b ∉ Finset.univ.image (Pipeline.arrRef spec0) → Vr1 m c b = Vr0 m c b :=
  fun b hb => W5_of_ne m c b fun w e => hb (Finset.mem_image.mpr ⟨w, Finset.mem_univ _, e⟩)

/-- After region 1: its arrays at what the pipeline leaves (an input as entered, an output its write-backs folded),
    every other buffer as entered. -/
def W6 (c : Dev nD) : Valuation τ sig (Elt F) :=
  Pipeline.withArrays spec1 c (W5 m c) fun w => (dat1 (Vr1 m) c).arrAt w cfg1.N
theorem W6_arr (c : Dev nD) (w : Fin cfg1.W) :
    W6 m c (Proc.devRef .tc (Pipeline.arrRef spec1 w)) = (dat1 (Vr1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev Vr2 : (c : Dev nD) → (b : Ref sig .tc) → Buf (Elt F) ((c : Thread nD τ).loc b) := fun c b => W6 m c b
theorem hF1 (c : Dev nD) (w : Fin cfg1.W) : (dat1 (Vr1 m) c).arrAt w cfg1.N = Vr2 m c (Pipeline.arrRef spec1 w) :=
  (W6_arr m c w).symm
theorem hrest1 (c : Dev nD) : ∀ b, b ∉ Finset.univ.image (Pipeline.arrRef spec1) → Vr2 m c b = Vr1 m c b :=
  fun b hb => W6_of_ne m c b fun w e => hb (Finset.mem_image.mpr ⟨w, Finset.mem_univ _, e⟩)

/-- After region 2: its arrays at what the pipeline leaves (an input as entered, an output its write-backs folded),
    every other buffer as entered. -/
def W7 (c : Dev nD) : Valuation τ sig (Elt F) :=
  Pipeline.withArrays spec2 c (W6 m c) fun w => (dat2 (Vr2 m) c).arrAt w cfg2.N
theorem W7_arr (c : Dev nD) (w : Fin cfg2.W) :
    W7 m c (Proc.devRef .tc (Pipeline.arrRef spec2 w)) = (dat2 (Vr2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev Vr3 : (c : Dev nD) → (b : Ref sig .tc) → Buf (Elt F) ((c : Thread nD τ).loc b) := fun c b => W7 m c b
theorem hF2 (c : Dev nD) (w : Fin cfg2.W) : (dat2 (Vr2 m) c).arrAt w cfg2.N = Vr3 m c (Pipeline.arrRef spec2 w) :=
  (W7_arr m c w).symm
theorem hrest2 (c : Dev nD) : ∀ b, b ∉ Finset.univ.image (Pipeline.arrRef spec2) → Vr3 m c b = Vr2 m c b :=
  fun b hb => W7_of_ne m c b fun w e => hb (Finset.mem_image.mpr ⟨w, Finset.mem_univ _, e⟩)

/-! ## The proof data family and the thread state -/

/-- None of the three kernel calls has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
  | ⟨2, _⟩ => fun c => dat2 (Vr2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered with every unscoped buffer at the contents before it, left with the
    region's arrays at what its write-backs leave and every other buffer as entered. The generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vr0 m) c)
    unfold Pipeline.ΦA
    iintro ⟨Hp, -, Hr⟩
    isplitl [Hr]; · iexact Hr
    iexact Hp
  hout c := by
    rw [Pipeline.ownSems0_none]
    refine BIBase.Entails.trans (hout0 (Vr0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. The generator register goes into
    the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr1 m) c)
    unfold Pipeline.ΦA
    iintro ⟨Hp, -, Hr⟩
    isplitl [Hr]; · iexact Hr
    iexact Hp
  hout c := by
    rw [Pipeline.ownSems0_none]
    refine BIBase.Entails.trans (hout1 (Vr1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr1 m c) (Vr2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with the
    region's arrays at what its write-backs leave and every other buffer as entered. The generator register goes into
    the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr2 m) c)
    unfold Pipeline.ΦA
    iintro ⟨Hp, -, Hr⟩
    isplitl [Hr]; · iexact Hr
    iexact Hp
  hout c := by
    rw [Pipeline.ownSems0_none]
    refine BIBase.Entails.trans (hout2 (Vr2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr2 m c) (Vr3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's seven segments: the four host stretches, each from its boundary's contents, then the three regions. -/
abbrev segs : List (Pipeline.Seg (pcfgs (F := F)) adm (pdats m) () defs₀ 𝒱₀ L lv) :=
  [ .host (Gen.seg0 m 𝒱₀ L lv fun _ => R), .host (Gen.seg1 m 𝒱₀ L lv fun _ => R), .host (Gen.seg2 m 𝒱₀ L lv fun _ => R),
    .host (Gen.seg3 m 𝒱₀ L lv fun _ => R), .region (reg0 m), .region (reg1 m), .region (reg2 m) ]

set_option backward.isDefEq.respectTransparency.types false in
/-- THE RUN: from any memory with zero counters every weakly fair execution of @main terminates, nothing faulting, and
    every unscoped buffer of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (W7 m c) ∗ ∃ r, prngReg c r))
    (hch := fun c => ⟨.rfl, .rfl, .rfl, .rfl, .rfl, .rfl, .rfl, by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.KI.Frame.lean ====
/-
  The kernel's frame, read off its run. A buffer that no host stretch writes and that the regions only stage as an
  input holds its launch contents at every boundary, so after the run each of the eight argument arrays is as launched;
  the result buffer holds region 2's output array.
-/
import proofs.«145497_g38912403702117_cont_8to1_b_1654_14_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading a buffer back through the boundaries -/

/-- A buffer no host stretch writes holds, before region 0, its launch contents. -/
theorem W4_keep (c : Dev nD) (r : Ref sig .tc) (h0 : r ∉ hostOps0_W) (h1 : r ∉ hostOps0_1_W) (h2 : r ∉ hostOps0_2_W) (h3 : r ∉ hostOps0_3_W) :
    W4 m c r = m ((c : Thread nD τ).loc r) :=
  (V4_of m c r h3).trans <| (V3_of m c r h2).trans <| (V2_of m c r h1).trans <| (V1_of m c r h0).trans rfl

/-- An input window's array leaves region 1 as it entered. -/
theorem W6_in (c : Dev nD) (w : Fin cfg1.W) (hw : (cfg1.win w).isOut = false) :
    W6 m c (Proc.devRef .tc (Pipeline.arrRef spec1 w)) = W5 m c (Proc.devRef .tc (Pipeline.arrRef spec1 w)) :=
  (W6_arr m c w).trans (((dat1 (Vr1 m) c).arrAt_in w hw _).trans (A_eq1 (Vr1 m) c w))
/-- An input window's array leaves region 2 as it entered. -/
theorem W7_in (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((dat2 (Vr2 m) c).arrAt_in w hw _).trans (A_eq2 (Vr2 m) c w))

theorem W7_main_arg0 (c : Dev nD) : W7 m c main_arg0 = m ((c : Thread nD τ).loc main_arg0) :=
  (W7_of_ne m c main_arg0 (by decide)).trans <| (W6_of_ne m c main_arg0 (by decide)).trans <| (W5_of_ne m c main_arg0 (by decide)).trans <|
    W4_keep m c main_arg0 (by decide) (by decide) (by decide) (by decide)
theorem W5_main_arg1 (c : Dev nD) : W5 m c main_arg1 = m ((c : Thread nD τ).loc main_arg1) :=
  (W5_of_ne m c main_arg1 (by decide)).trans <| W4_keep m c main_arg1 (by decide) (by decide) (by decide) (by decide)
theorem W6_main_arg1 (c : Dev nD) : W6 m c main_arg1 = m ((c : Thread nD τ).loc main_arg1) :=
  (W6_in m c 0 rfl).trans (W5_main_arg1 m c)
theorem W7_main_arg1 (c : Dev nD) : W7 m c main_arg1 = m ((c : Thread nD τ).loc main_arg1) :=
  (W7_of_ne m c main_arg1 (by decide)).trans (W6_main_arg1 m c)
theorem W7_main_arg2 (c : Dev nD) : W7 m c main_arg2 = m ((c : Thread nD τ).loc main_arg2) :=
  (W7_of_ne m c main_arg2 (by decide)).trans <| (W6_of_ne m c main_arg2 (by decide)).trans <| (W5_of_ne m c main_arg2 (by decide)).trans <|
    W4_keep m c main_arg2 (by decide) (by decide) (by decide) (by decide)
theorem W7_main_arg3 (c : Dev nD) : W7 m c main_arg3 = m ((c : Thread nD τ).loc main_arg3) :=
  (W7_of_ne m c main_arg3 (by decide)).trans <| (W6_of_ne m c main_arg3 (by decide)).trans <| (W5_of_ne m c main_arg3 (by decide)).trans <|
    W4_keep m c main_arg3 (by decide) (by decide) (by decide) (by decide)
theorem W5_main_arg4 (c : Dev nD) : W5 m c main_arg4 = m ((c : Thread nD τ).loc main_arg4) :=
  (W5_of_ne m c main_arg4 (by decide)).trans <| W4_keep m c main_arg4 (by decide) (by decide) (by decide) (by decide)
theorem W7_main_arg4 (c : Dev nD) : W7 m c main_arg4 = m ((c : Thread nD τ).loc main_arg4) :=
  (W7_of_ne m c main_arg4 (by decide)).trans <| (W6_in m c 3 rfl).trans (W5_main_arg4 m c)
theorem W7_main_arg5 (c : Dev nD) : W7 m c main_arg5 = m ((c : Thread nD τ).loc main_arg5) :=
  (W7_of_ne m c main_arg5 (by decide)).trans <| (W6_of_ne m c main_arg5 (by decide)).trans <| (W5_of_ne m c main_arg5 (by decide)).trans <|
    W4_keep m c main_arg5 (by decide) (by decide) (by decide) (by decide)
theorem W5_main_arg6 (c : Dev nD) : W5 m c main_arg6 = m ((c : Thread nD τ).loc main_arg6) :=
  (W5_of_ne m c main_arg6 (by decide)).trans <| W4_keep m c main_arg6 (by decide) (by decide) (by decide) (by decide)
theorem W6_main_arg6 (c : Dev nD) : W6 m c main_arg6 = m ((c : Thread nD τ).loc main_arg6) :=
  (W6_in m c 4 rfl).trans (W5_main_arg6 m c)
theorem W7_main_arg6 (c : Dev nD) : W7 m c main_arg6 = m ((c : Thread nD τ).loc main_arg6) :=
  (W7_in m c 3 rfl).trans (W6_main_arg6 m c)
theorem W7_main_arg7 (c : Dev nD) : W7 m c main_arg7 = m ((c : Thread nD τ).loc main_arg7) :=
  (W7_of_ne m c main_arg7 (by decide)).trans <| (W6_of_ne m c main_arg7 (by decide)).trans <| (W5_of_ne m c main_arg7 (by decide)).trans <|
    W4_keep m c main_arg7 (by decide) (by decide) (by decide) (by decide)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN WITH THE RESULT NAMED: every execution ends with the result buffer at region 2's output array and every
    argument as launched. -/
theorem run_value : θ_run defs (onTc (τ := τ) (main (F := F))) ⟨m, fun _ => 0, ρ⟩ (fun r => ∀ c : Dev nD,
      r.2.mem ((c.tc : Thread nD τ).loc main_v8) = (dat2 (Vr2 m) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v8 (by decide))).trans (W7_arr m c 5),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c),
     (h c _ (mem_uc main_arg6 (by decide))).trans (W7_main_arg6 m c),
     (h c _ (mem_uc main_arg7 (by decide))).trans (W7_main_arg7 m c)⟩) (run_main m ρ)

/-- THE FRAME: every execution terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.KernelIdeal.Hand

end
-- ==== Proof.Spec.lean ====
/-
  The mathematics of the claim, with no program in sight: a three-layer graph convolution over a dense adjacency
  followed by a row-wise log-softmax, written once in the arrangement the reference computes it in and once in the
  arrangement the kernel computes it in. Arrays are functions of an index into a literal shape, values are extended
  reals; `ix2 n k` is the index with coordinates `(n, k)`.

    s1 = x · W1                          h1 = max (adj · s1 + b1) 0
  reference:  h2 = adj · (h1 · W2) + b2,   h3 = adj · (h2 · W3) + b3
  kernel:     u  = (h1 · W2) · W3,         t  = adj · u + b2 · W3,       h  = adj · t + b3
  and both end with  lsm z = (z − rowMax z) − log Σ exp (z − rowMax z)  along each row of 7 entries.
  For real (finite) inputs  t = h2 · W3  — the product is associative and distributes over the bias — so  h = h3.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals over a literal shape. -/
abbrev Mat (a b : Nat) : Type := (⟨2, ![a, b]⟩ : Shape).Idx → EReal
/-- A vector of extended reals over a literal shape. -/
abbrev Vct (a : Nat) : Type := (⟨1, ![a]⟩ : Shape).Idx → EReal

/-- The first support: row `n` of `x` against column `a` of `W1`. -/
def s1 (x : Mat 10000 1433) (W1 : Mat 1433 60) (n : Fin 10000) (a : Fin 60) : EReal :=
  ∑ f : Fin 1433, x (ix2 n f) * W1 (ix2 f a)

/-- The first layer: aggregate the support `s` along the adjacency's row, add the bias, clamp at zero. -/
def h1 (adj : Mat 10000 10000) (s : Fin 10000 → Fin 60 → EReal) (b1 : Vct 60) (n : Fin 10000) (a : Fin 60) : EReal :=
  max ((∑ k : Fin 10000, adj (ix2 n k) * s k a) + b1 (ix1 a)) 0

/-- A hidden row projected by `W2`. -/
def p2 (h : Fin 10000 → Fin 60 → EReal) (W2 : Mat 60 30) (n : Fin 10000) (b : Fin 30) : EReal :=
  ∑ a : Fin 60, h n a * W2 (ix2 a b)

/-- A 30-wide row projected by `W3`. -/
def p3 (g : Fin 10000 → Fin 30 → EReal) (W3 : Mat 30 7) (n : Fin 10000) (j : Fin 7) : EReal :=
  ∑ b : Fin 30, g n b * W3 (ix2 b j)

/-- The reference's second layer: aggregate `h1 · W2`, add `b2`. -/
def h2 (adj : Mat 10000 10000) (g : Fin 10000 → Fin 30 → EReal) (b2 : Vct 30) (n : Fin 10000) (b : Fin 30) : EReal :=
  (∑ k : Fin 10000, adj (ix2 n k) * g k b) + b2 (ix1 b)

/-- Aggregation of a 7-wide support along the adjacency's row, plus a bias row `c`. -/
def agg7 (adj : Mat 10000 10000) (v : Fin 10000 → Fin 7 → EReal) (c : Fin 7 → EReal) (n : Fin 10000) (j : Fin 7) : EReal :=
  (∑ k : Fin 10000, adj (ix2 n k) * v k j) + c j

/-- The bias of the second layer carried through `W3`: `b2 · W3`. -/
def c23 (b2 : Vct 30) (W3 : Mat 30 7) (j : Fin 7) : EReal :=
  ∑ b : Fin 30, b2 (ix1 b) * W3 (ix2 b j)

/-- The largest entry of a row of 7, folded from `⊥`. -/
def rowMax (z : Fin 7 → EReal) : EReal := Finset.univ.fold max ⊥ z

/-- The log-softmax of a row of 7 at entry `j`: shift by the row's maximum, subtract the log of the sum of exponentials. -/
def lsm (z : Fin 7 → EReal) (j : Fin 7) : EReal :=
  (z j - rowMax z) - Ideal.log (∑ j' : Fin 7, Ideal.exp (z j' - rowMax z))

/-- The hidden layer both programs share. -/
def hid (x : Mat 10000 1433) (adj : Mat 10000 10000) (W1 : Mat 1433 60) (b1 : Vct 60) : Fin 10000 → Fin 60 → EReal :=
  h1 adj (s1 x W1) b1

/-- THE REFERENCE'S logits `h3`. -/
def logitsRef (x : Mat 10000 1433) (adj : Mat 10000 10000) (W1 : Mat 1433 60) (b1 : Vct 60) (W2 : Mat 60 30) (b2 : Vct 30)
    (W3 : Mat 30 7) (b3 : Vct 7) : Fin 10000 → Fin 7 → EReal :=
  agg7 adj (p3 (h2 adj (p2 (hid x adj W1 b1) W2) b2) W3) (fun j => b3 (ix1 j))

/-- The kernel's 7-wide support `u = (h1 · W2) · W3`. -/
def uK (x : Mat 10000 1433) (adj : Mat 10000 10000) (W1 : Mat 1433 60) (b1 : Vct 60) (W2 : Mat 60 30) (W3 : Mat 30 7) :
    Fin 10000 → Fin 7 → EReal :=
  p3 (p2 (hid x adj W1 b1) W2) W3

/-- THE KERNEL'S logits `h = adj · (adj · u + b2 · W3) + b3`. -/
def logitsKer (x : Mat 10000 1433) (adj : Mat 10000 10000) (W1 : Mat 1433 60) (b1 : Vct 60) (W2 : Mat 60 30) (b2 : Vct 30)
    (W3 : Mat 30 7) (b3 : Vct 7) : Fin 10000 → Fin 7 → EReal :=
  agg7 adj (agg7 adj (uK x adj W1 b1 W2 W3) (c23 b2 W3)) (fun j => b3 (ix1 j))

/-- The result array from logits: the log-softmax of each row, at index `i` of the `[10000, 7]` result. -/
def result (z : Fin 10000 → Fin 7 → EReal) : Mat 10000 7 := fun i => lsm (z (i 0)) (i 1)

end Cert.Spec

end
-- ==== Proof.KI.HostRead.lean ====
import proofs.«145497_g38912403702117_cont_8to1_b_1654_14_alg».proof.Proof.Gen.KernelIdeal.Regions
import proofs.«145497_g38912403702117_cont_8to1_b_1654_14_alg».proof.Proof.Spec
import Idealize.ShloMosaic.Lib.ValueLayout
import Idealize.ShloMosaic.Lib.KernelVsHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ) (c : Dev nD)

/-! ## The host lines before the first region, read at an index (at the extended reals)

  Each bias vector is recast as a one-row matrix; `x` is transposed and padded below with 103 rows of the integer
  zero converted to a float, and so is `W1`: the padded rows hold the real number 0. -/

/-- The bias of the first layer as a row: entry `(0, a)` is `b1[a]`. -/
theorem V4_main_v0 (a : Fin 60) :
    (Gen.V4 m c main_v0 : S1x60.Idx → EReal) (ix2 (0 : Fin 1) a) = (m ((c : Thread nD τ).loc main_arg3) : S60.Idx → EReal) (ix1 a) := by
  have e : Gen.V4 m c main_v0 = Gen.V1 m c main_v0 :=
    (V4_of m c main_v0 (by decide)).trans ((V3_of m c main_v0 (by decide)).trans (V2_of m c main_v0 (by decide)))
  have e1 : (Gen.V1 m c main_v0 : S1x60.Idx → EReal)
      = shapeCast S1x60 (m ((c : Thread nD τ).loc main_arg3) : S60.Idx → EReal) shapeCasts_S60_S1x60 := by
    show StableHlo.after hostOps0 (Gen.V0 m c) (Proc.devRef .tc main_v0) = _
    after_results; rfl
  rw [e, e1]; exact shapeCast_a_1a_apply _ _ 0 a

/-- The bias of the second layer as a row: entry `(0, b)` is `b2[b]`. -/
theorem V4_main_v1 (b : Fin 30) :
    (Gen.V4 m c main_v1 : S1x30.Idx → EReal) (ix2 (0 : Fin 1) b) = (m ((c : Thread nD τ).loc main_arg5) : S30.Idx → EReal) (ix1 b) := by
  have e : Gen.V4 m c main_v1 = Gen.V1 m c main_v1 :=
    (V4_of m c main_v1 (by decide)).trans ((V3_of m c main_v1 (by decide)).trans (V2_of m c main_v1 (by decide)))
  have e1 : (Gen.V1 m c main_v1 : S1x30.Idx → EReal)
      = shapeCast S1x30 (m ((c : Thread nD τ).loc main_arg5) : S30.Idx → EReal) shapeCasts_S30_S1x30 := by
    show StableHlo.after hostOps0 (Gen.V0 m c) (Proc.devRef .tc main_v1) = _
    after_results; rfl
  rw [e, e1]; exact shapeCast_a_1a_apply _ _ 0 b

/-- The bias of the third layer as a row: entry `(0, j)` is `b3[j]`. -/
theorem V4_main_v2 (j : Fin 7) :
    (Gen.V4 m c main_v2 : S1x7.Idx → EReal) (ix2 (0 : Fin 1) j) = (m ((c : Thread nD τ).loc main_arg7) : S7.Idx → EReal) (ix1 j) := by
  have e : Gen.V4 m c main_v2 = Gen.V1 m c main_v2 :=
    (V4_of m c main_v2 (by decide)).trans ((V3_of m c main_v2 (by decide)).trans (V2_of m c main_v2 (by decide)))
  have e1 : (Gen.V1 m c main_v2 : S1x7.Idx → EReal)
      = shapeCast S1x7 (m ((c : Thread nD τ).loc main_arg7) : S7.Idx → EReal) shapeCasts_S7_S1x7 := by
    show StableHlo.after hostOps0 (Gen.V0 m c) (Proc.devRef .tc main_v2) = _
    after_results; rfl
  rw [e, e1]; exact shapeCast_a_1a_apply _ _ 0 j

/-- The padding value: the integer zero converted is the real zero. -/
theorem padZero : (sitofp (F := Ideal) .f32 (constantI S_ 32 0#32) : S_.Idx → EReal) (Shape.Idx.first h_S_) = 0 := by
  show (((0#32 : BitVec 32).toInt : ℝ) : EReal) = 0
  simp

/-- The transposed, padded `x`: row `f` below 1433 is column `f` of `x`, the rows from 1433 on are zero. -/
theorem V4_main_v4 (f : Fin 1536) (n : Fin 10000) :
    (Gen.V4 m c main_v4 : S1536x10000.Idx → EReal) (ix2 f n)
      = (if h : f.val < 1433 then (m ((c : Thread nD τ).loc main_arg0) : S10000x1433.Idx → EReal) (ix2 n ⟨f.val, h⟩) else 0 : EReal) := by
  have e : Gen.V4 m c main_v4 = Gen.V2 m c main_v4 := (V4_of m c main_v4 (by decide)).trans (V3_of m c main_v4 (by decide))
  have e1 : (Gen.V2 m c main_v4 : S1536x10000.Idx → EReal)
      = pad S1536x10000 ![0, 0] ![103, 0] ![0, 0]
          (transpose S1433x10000 [1, 0] (m ((c : Thread nD τ).loc main_arg0) : S10000x1433.Idx → EReal) transposes_S10000x1433_S1433x10000_1_0)
          (sitofp (F := Ideal) .f32 (constantI S_ 32 0#32)) pads_S1433x10000_S1536x10000_01030_000 h_S_ := by
    show StableHlo.after hostOps0_1 (Gen.V1 m c) (Proc.devRef .tc main_v4) = _
    after_results; rfl
  rw [e, e1]
  by_cases h : f.val < 1433
  · rw [dif_pos h]
    refine (pad_apply_of_inside _ _ _ _ _ _ _ (ix2 f n) (ix2 (⟨f.val, h⟩ : Fin 1433) n) (fun a => by
      match a with
      | ⟨0, _⟩ => simp
      | ⟨1, _⟩ => simp)).trans ?_
    exact transpose_ix2_apply _ _ (⟨f.val, h⟩ : Fin 1433) n
  · rw [dif_neg h]
    refine (pad_apply_of_not_inside _ _ _ _ _ _ _ (ix2 f n) (0 : Fin 2) (fun hh => h (by have h3 := hh.2.2; simp only [Nat.sub_zero, Matrix.cons_val_zero, Nat.zero_add, Nat.div_one] at h3; exact h3))).trans ?_
    exact padZero

/-- The padded `W1`: row `f` below 1433 is row `f` of `W1`, the rows from 1433 on are zero. -/
theorem V4_main_v5 (f : Fin 1536) (a : Fin 60) :
    (Gen.V4 m c main_v5 : S1536x60.Idx → EReal) (ix2 f a)
      = (if h : f.val < 1433 then (m ((c : Thread nD τ).loc main_arg2) : S1433x60.Idx → EReal) (ix2 ⟨f.val, h⟩ a) else 0 : EReal) := by
  have e1 : (Gen.V4 m c main_v5 : S1536x60.Idx → EReal)
      = pad S1536x60 ![0, 0] ![103, 0] ![0, 0]
          (m ((c : Thread nD τ).loc main_arg2) : S1433x60.Idx → EReal)
          (sitofp (F := Ideal) .f32 (constantI S_ 32 0#32)) pads_S1433x60_S1536x60_01030_000 h_S_ := by
    show StableHlo.after hostOps0_3 (Gen.V3 m c) (Proc.devRef .tc main_v5) = _
    after_results; rfl
  rw [e1]
  by_cases h : f.val < 1433
  · rw [dif_pos h]
    exact pad_apply_of_inside _ _ _ _ _ _ _ (ix2 f a) (ix2 (⟨f.val, h⟩ : Fin 1433) a) (fun d => by
      match d with
      | ⟨0, _⟩ => simp
      | ⟨1, _⟩ => simp)
  · rw [dif_neg h]
    refine (pad_apply_of_not_inside _ _ _ _ _ _ _ (ix2 f a) (0 : Fin 2) (fun hh => h (by have h3 := hh.2.2; simp only [Nat.sub_zero, Matrix.cons_val_zero, Nat.zero_add, Nat.div_one] at h3; exact h3))).trans ?_
    exact padZero

end Cert.KernelIdeal.Hand

end
-- ==== Proof.LibGroupedSum.lean ====
/-
  A sum over consecutive positions, grouped.

  The sum of f over the first K·n natural numbers is the sum, over the n consecutive groups of K positions, of each group's
  sum: position K·g + k is the k-th of group g. In any additive commutative monoid, so with no finiteness or
  cancellation asked: it holds for the extended reals as it stands. This is what equates one contraction over K·n
  features with the same contraction accumulated group by group.
-/
import Idealize.ShloMosaic.Lib.ValueIdx

namespace Cert.LibGroupedSum

/-- The sum over the first K·n positions is the sum over the n groups of the sums over each group's K positions. -/
theorem sum_range_mul_groups {M : Type*} [AddCommMonoid M] (K : ℕ) (f : ℕ → M) :
    ∀ n : ℕ, ∑ i ∈ Finset.range (K * n), f i = ∑ g ∈ Finset.range n, ∑ k : Fin K, f (K * g + k.val)
  | 0 => by simp
  | n + 1 => by
    have h1 : ∑ i ∈ Finset.range (K * (n + 1)), f i
        = ∑ i ∈ Finset.range (K * n), f i + ∑ k ∈ Finset.range K, f (K * n + k) := by
      rw [show K * (n + 1) = K * n + K from by ring, Finset.sum_range_add]
    rw [h1, sum_range_mul_groups K f n, Finset.sum_range_succ (fun g => ∑ k : Fin K, f (K * g + k.val)) n]
    exact congrArg (_ + ·) (Finset.sum_range (fun k => f (K * n + k)))

end Cert.LibGroupedSum
-- ==== Proof.KI.Value0.lean ====
/-
  Region 0: the value. Each grid point's block product is the contraction of 128 rows of the padded operands; the
  accumulator after point m holds the sum of the first m + 1 block products; the last point rounds the accumulator
  into the output (the identity on the extended reals) and the one write-back makes it the output array. The 12 · 128
  positions regroup into the 1536 padded rows, of which the last 103 contribute zero (0 · 0 = 0 and y + 0 = y hold on
  the extended reals with no finiteness), leaving the contraction over the 1433 real rows: the first support x · W1.
-/
import proofs.«145497_g38912403702117_cont_8to1_b_1654_14_alg».proof.Proof.KI.Region0
import proofs.«145497_g38912403702117_cont_8to1_b_1654_14_alg».proof.Proof.Spec
import proofs.«145497_g38912403702117_cont_8to1_b_1654_14_alg».proof.Proof.LibGroupedSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

variable {F : FTy → Type} [FloatOps F]

namespace V0

/-! ## What each case leaves in the accumulator and in the output, as terms of the blocks -/

section Cases
variable (V : (c : Dev nD) → (b : Ref sig .tc) → Buf (Elt F) ((c : Thread nD τ).loc b))

theorem hz2 : (![0, 0] : Fin 2 → Nat) = fun _ => 0 := funext fun a => by fin_cases a <;> rfl

theorem soutA_eq (c : Dev nD) (t : Fin cfg0.N) (h : t.val = 0) :
    sout0_A V c t h = k0_pay1 (iblk0 V c 0 t) (iblk0 V c 1 t) := by
  unfold sout0_A
  rw [View.read_writes_eq_canon _ _ _ (scover0_A_0 c _ _ _ _ _ _ _ _ _ _ _ _ _ _)]
  unfold kernelRun0_A
  dsimp only
  try sl_unfold_words
  rw [View.canon_unit_zero hz2]
  unfold k0_pay2
  simp only [View.readAt_eq_ld, (hs0_0 t).read_unread, (hs0_1 t).read_unread, View.ld_unit_zero (S := S128x10000) hz2, View.ld_unit_zero (S := S128x60) hz2, shapeCast_self]

theorem soutB_eq (c : Dev nD) (t : Fin cfg0.N) (h1 : 1 ≤ t.val) (h2 : ¬t.val = 11) (xs0 : Vec F S10000x60 .f32) :
    sout0_B V c t h1 h2 xs0 = addf xs0 (k0_pay1 (iblk0 V c 0 t) (iblk0 V c 1 t)) := by
  unfold sout0_B
  rw [View.read_writes_eq_canon _ _ _ (scover0_B_0 c _ _ _ _ _ _ _ _ _ _ _ _ _ _ _)]
  unfold kernelRun0_B
  dsimp only
  try sl_unfold_words
  rw [View.canon_unit_zero hz2]
  unfold k0_pay3
  simp only [View.readAt_eq_ld, (hs0_0 t).read_unread, (hs0_1 t).read_unread, (Memref.isWhole_whole cc0_scratch0).read_unread, View.ld_unit_zero (S := S128x10000) hz2, View.ld_unit_zero (S := S128x60) hz2, View.ld_unit_zero (S := S10000x60) hz2, shapeCast_self]

theorem soutC_eq (c : Dev nD) (t : Fin cfg0.N) (h : t.val = 11) (xs0 : Vec F S10000x60 .f32) :
    sout0_C V c t h xs0 = addf xs0 (k0_pay1 (iblk0 V c 0 t) (iblk0 V c 1 t)) := by
  unfold sout0_C
  rw [View.read_writes_eq_canon _ _ _ (scover0_C_0 c _ _ _ _ _ _ _ _ _ _ _ _ _ _ _)]
  unfold kernelRun0_C
  dsimp only
  try sl_unfold_words
  rw [View.canon_unit_zero hz2]
  unfold k0_pay3
  simp only [View.readAt_eq_ld, (hs0_0 t).read_unread, (hs0_1 t).read_unread, (Memref.isWhole_whole cc0_scratch0).read_unread, View.ld_unit_zero (S := S128x10000) hz2, View.ld_unit_zero (S := S128x60) hz2, View.ld_unit_zero (S := S10000x60) hz2, shapeCast_self]

theorem outC_eq (c : Dev nD) (t : Fin cfg0.N) (h : t.val = 11) (xs0 : Vec F S10000x60 .f32) :
    out0_C V c t h xs0 = k0_pay4 (addf xs0 (k0_pay1 (iblk0 V c 0 t) (iblk0 V c 1 t))) := by
  unfold out0_C
  rw [View.read_writes_eq_canon _ _ _ (cover0_C_2 c _ _ _ _ _ _ _ _ _ _ _ _ _ _ _)]
  unfold kernelRun0_C
  dsimp only
  try sl_unfold_words
  rw [View.canon_unit_zero hz2, View.readCov_unit_zero (S := S10000x60) _ hz2]
  unfold k0_pay3
  simp only [View.readAt_eq_ld, (hs0_0 t).read_unread, (hs0_1 t).read_unread, (Memref.isWhole_whole cc0_scratch0).read_unread, View.ld_unit_zero (S := S128x10000) hz2, View.ld_unit_zero (S := S128x60) hz2, View.ld_unit_zero (S := S10000x60) hz2, shapeCast_self]

end Cases

/-! ## The contraction over axis 0 of both operands, read at an entry -/

/-- The dimension numbers of the block product: axis 0 of the [128, 10000] operand against axis 0 of the [128, 60] one. -/
abbrev D0 : DotDims S128x10000 S128x60 S10000x60 := dot_S128x10000_S128x60_S10000x60_0_0_1_1_n_n

theorem D0_lhsIdx (p : Fin 10000) (q : Fin 60) (k : Fin 128) :
    D0.lhsIdx (ix2 p q) ((contrEquiv1 D0 128 rfl rfl).symm k) = ix2 k p :=
  funext fun a => Fin.ext (by
    have hk := contrEquiv1_symm_val D0 128 rfl rfl k
    match a with
    | ⟨0, _⟩ => exact (D0.lhsIdx_val_of_single rfl _ _).trans hk
    | ⟨1, _⟩ => rfl)

theorem D0_rhsIdx (p : Fin 10000) (q : Fin 60) (k : Fin 128) :
    D0.rhsIdx (ix2 p q) ((contrEquiv1 D0 128 rfl rfl).symm k) = ix2 k q :=
  funext fun a => Fin.ext (by
    have hk := contrEquiv1_symm_val D0 128 rfl rfl k
    match a with
    | ⟨0, _⟩ => exact (D0.rhsIdx_val_of_single rfl _ _).trans hk
    | ⟨1, _⟩ => rfl)

/-- The contraction sum at entry (p, q) is the sum over k of l[k, p] · r[k, q]. -/
theorem D0_sum (l : S128x10000.Idx → EReal) (r : S128x60.Idx → EReal) (p : Fin 10000) (q : Fin 60) :
    ∑ k : D0.contr.Idx, l (D0.lhsIdx (ix2 p q) k) * r (D0.rhsIdx (ix2 p q) k) = ∑ k : Fin 128, l (ix2 k p) * r (ix2 k q) := by
  rw [← Equiv.sum_comp (contrEquiv1 D0 128 rfl rfl).symm]
  refine Finset.sum_congr rfl fun k _ => ?_
  rw [D0_lhsIdx, D0_rhsIdx]

/-- One block product at entry (p, q): the sum over the block's 128 rows. -/
theorem pay1_apply (x0 : Vec Ideal S128x10000 .f32) (x1 : Vec Ideal S128x60 .f32) (p : Fin 10000) (q : Fin 60) :
    k0_pay1 x0 x1 (ix2 p q) = ∑ k : Fin 128, x0 (ix2 k p) * x1 (ix2 k q) := by
  unfold k0_pay1
  simp only [shapeCast_self]
  exact (Ideal.matmul_constant_zero_apply D0 none _ _ (ix2 p q)).trans (D0_sum _ _ p q)

/-! ## The input windows' blocks as rows of their arrays -/

section Blocks
variable (V : (c : Dev nD) → (b : Ref sig .tc) → Buf (Elt F) ((c : Thread nD τ).loc b))

theorem index0_0 (t : Fin cfg0.N) : win0_0.index t 0 = t.val ∧ win0_0.index t 1 = 0 := by
  rcases fin_N0 t with rfl | rfl | rfl | rfl | rfl | rfl | rfl | rfl | rfl | rfl | rfl | rfl <;> decide

theorem index0_1 (t : Fin cfg0.N) : win0_1.index t 0 = t.val ∧ win0_1.index t 1 = 0 := by
  rcases fin_N0 t with rfl | rfl | rfl | rfl | rfl | rfl | rfl | rfl | rfl | rfl | rfl | rfl <;> decide

/-- Window 0's block at point `t` is rows 128·t … 128·t + 127 of its array. -/
theorem iblk0_0_apply (c : Dev nD) (t : Fin cfg0.N) (y : S128x10000.Idx) (k : S1536x10000.Idx)
    (hk0 : (k 0).val = 128 * t.val + (y 0).val) (hk1 : (k 1).val = (y 1).val) :
    (iblk0 V c 0 t : Vec F S128x10000 .f32) y = (V c main_v4 : S1536x10000.Idx → Elt F .f32) k := by
  have hi := index0_0 t
  unfold iblk0
  rw [View.read_apply]
  show V c main_v4 _ = V c main_v4 _
  congr 1
  funext a
  apply Fin.ext
  match a with
  | ⟨0, _⟩ => show win0_0.index t 0 * 128 + 1 * (y 0).val = (k 0).val; rw [hi.1, hk0]; omega
  | ⟨1, _⟩ => show win0_0.index t 1 * 10000 + 1 * (y 1).val = (k 1).val; rw [hi.2, hk1]; omega

/-- Window 1's block at point `t` is rows 128·t … 128·t + 127 of its array. -/
theorem iblk0_1_apply (c : Dev nD) (t : Fin cfg0.N) (y : S128x60.Idx) (k : S1536x60.Idx)
    (hk0 : (k 0).val = 128 * t.val + (y 0).val) (hk1 : (k 1).val = (y 1).val) :
    (iblk0 V c 1 t : Vec F S128x60 .f32) y = (V c main_v5 : S1536x60.Idx → Elt F .f32) k := by
  have hi := index0_1 t
  unfold iblk0
  rw [View.read_apply]
  show V c main_v5 _ = V c main_v5 _
  congr 1
  funext a
  apply Fin.ext
  match a with
  | ⟨0, _⟩ => show win0_1.index t 0 * 128 + 1 * (y 0).val = (k 0).val; rw [hi.1, hk0]; omega
  | ⟨1, _⟩ => show win0_1.index t 1 * 60 + 1 * (y 1).val = (k 1).val; rw [hi.2, hk1]; omega

end Blocks

/-! ## The accumulation at an entry, and the region's output -/

section Value
variable (V : (c : Dev nD) → (b : Ref sig .tc) → Buf (Elt Ideal) ((c : Thread nD τ).loc b))

/-- The term of the contraction at feature position `i` of the padded operands: the product inside the 1433 real
    rows, zero on the padding. -/
def term (x : Cert.Spec.Mat 10000 1433) (W1 : Cert.Spec.Mat 1433 60) (n : Fin 10000) (a : Fin 60) (i : ℕ) : EReal :=
  if h : i < 1433 then x (ix2 n ⟨i, h⟩) * W1 (ix2 ⟨i, h⟩ a) else 0

/-- The block product of point `t` at entry (n, a): the 128 terms of the block's rows. -/
theorem part_apply (x : Cert.Spec.Mat 10000 1433) (W1 : Cert.Spec.Mat 1433 60) (c : Dev nD)
    (hx : ∀ (f : Fin 1536) (n : Fin 10000), (V c main_v4 : S1536x10000.Idx → EReal) (ix2 f n) = if h : f.val < 1433 then x (ix2 n ⟨f.val, h⟩) else 0)
    (hw : ∀ (f : Fin 1536) (a : Fin 60), (V c main_v5 : S1536x60.Idx → EReal) (ix2 f a) = if h : f.val < 1433 then W1 (ix2 ⟨f.val, h⟩ a) else 0)
    (n : Fin 10000) (a : Fin 60) (t : Fin cfg0.N) :
    k0_pay1 (iblk0 V c 0 t) (iblk0 V c 1 t) (ix2 n a) = ∑ k : Fin 128, term x W1 n a (128 * t.val + k.val) := by
  rw [pay1_apply]
  refine Finset.sum_congr rfl fun k _ => ?_
  have hN : t.val < 12 := lt_of_lt_of_eq t.isLt (show cfg0.N = 12 from N_0)
  have hlt : 128 * t.val + k.val < 1536 := by have := k.isLt; omega
  rw [iblk0_0_apply V c t (ix2 k n) (ix2 ⟨128 * t.val + k.val, hlt⟩ n) rfl rfl,
    iblk0_1_apply V c t (ix2 k a) (ix2 ⟨128 * t.val + k.val, hlt⟩ a) rfl rfl, hx, hw]
  unfold term
  by_cases h : 128 * t.val + k.val < 1433
  · rw [dif_pos h, dif_pos h, dif_pos h]
  · rw [dif_neg h, dif_neg h, dif_neg h, mul_zero]

/-- After point `m` the accumulator holds, at entry (n, a), the terms of the first `m + 1` blocks. -/
theorem scr_apply (x : Cert.Spec.Mat 10000 1433) (W1 : Cert.Spec.Mat 1433 60) (c : Dev nD)
    (hx : ∀ (f : Fin 1536) (n : Fin 10000), (V c main_v4 : S1536x10000.Idx → EReal) (ix2 f n) = if h : f.val < 1433 then x (ix2 n ⟨f.val, h⟩) else 0)
    (hw : ∀ (f : Fin 1536) (a : Fin 60), (V c main_v5 : S1536x60.Idx → EReal) (ix2 f a) = if h : f.val < 1433 then W1 (ix2 ⟨f.val, h⟩ a) else 0)
    (n : Fin 10000) (a : Fin 60) :
    ∀ (m : ℕ) (hm : m < cfg0.N), (scrAt0 V c m hm : Vec Ideal S10000x60 .f32) (ix2 n a)
      = ∑ g ∈ Finset.range (m + 1), ∑ k : Fin 128, term x W1 n a (128 * g + k.val)
  | 0, hm => by
    have e : scrAt0 V c 0 hm = sout0_A V c ⟨0, hm⟩ rfl := rfl
    rw [e, soutA_eq, part_apply V x W1 c hx hw n a ⟨0, hm⟩, Finset.sum_range_one]
  | m + 1, hm => by
    have ih := scr_apply x W1 c hx hw n a m (Nat.lt_of_succ_lt hm)
    by_cases h : m + 1 = 11
    · have e : scrAt0 V c (m + 1) hm = sout0_C V c ⟨m + 1, hm⟩ h (scrAt0 V c m (Nat.lt_of_succ_lt hm)) := dif_pos h
      rw [e, soutC_eq, addf_apply, ih, part_apply V x W1 c hx hw n a ⟨m + 1, hm⟩, Finset.sum_range_succ _ (m + 1)]
    · have e : scrAt0 V c (m + 1) hm = sout0_B V c ⟨m + 1, hm⟩ (Nat.succ_le_succ (Nat.zero_le m)) h (scrAt0 V c m (Nat.lt_of_succ_lt hm)) := dif_neg h
      rw [e, soutB_eq, addf_apply, ih, part_apply V x W1 c hx hw n a ⟨m + 1, hm⟩, Finset.sum_range_succ _ (m + 1)]

/-- The terms of all 12 blocks are the contraction over the 1433 real rows: regrouping 1536 = 12 · 128 positions, the
    103 padded ones contributing zero. -/
theorem sum_blocks (x : Cert.Spec.Mat 10000 1433) (W1 : Cert.Spec.Mat 1433 60) (n : Fin 10000) (a : Fin 60) :
    ∑ g ∈ Finset.range 12, ∑ k : Fin 128, term x W1 n a (128 * g + k.val) = Cert.Spec.s1 x W1 n a := by
  rw [← Cert.LibGroupedSum.sum_range_mul_groups 128 (term x W1 n a) 12]
  have hsub : Finset.range 1433 ⊆ Finset.range (128 * 12) := Finset.range_subset_range.mpr (by decide)
  rw [← Finset.sum_subset hsub (fun i _ hi => by
    unfold term; exact dif_neg (fun h => hi (Finset.mem_range.mpr h)))]
  rw [Finset.sum_range]
  unfold Cert.Spec.s1
  refine Finset.sum_congr rfl fun f _ => ?_
  unfold term
  rw [dif_pos f.isLt]

/-- What the output window's buffer holds after the last point, at entry (n, a). -/
theorem out_last_apply (x : Cert.Spec.Mat 10000 1433) (W1 : Cert.Spec.Mat 1433 60) (c : Dev nD)
    (hx : ∀ (f : Fin 1536) (n : Fin 10000), (V c main_v4 : S1536x10000.Idx → EReal) (ix2 f n) = if h : f.val < 1433 then x (ix2 n ⟨f.val, h⟩) else 0)
    (hw : ∀ (f : Fin 1536) (a : Fin 60), (V c main_v5 : S1536x60.Idx → EReal) (ix2 f a) = if h : f.val < 1433 then W1 (ix2 ⟨f.val, h⟩ a) else 0)
    (n : Fin 10000) (a : Fin 60) :
    (outAt0 V c t0_11 : Vec Ideal S10000x60 .bf16) (ix2 n a) = Cert.Spec.s1 x W1 n a := by
  have h11 : t0_11.val = 11 := rfl
  have e : outAt0 V c t0_11 = out0_C V c t0_11 h11 (scrAt0 V c (t0_11.val - 1) (Nat.lt_of_le_of_lt (Nat.sub_le _ _) t0_11.isLt)) := dif_pos h11
  rw [e, outC_eq]
  unfold k0_pay4
  rw [truncf_apply, addf_apply, scr_apply V x W1 c hx hw n a, part_apply V x W1 c hx hw n a t0_11, ← sum_blocks x W1 n a]
  exact (Finset.sum_range_succ (fun g => ∑ k : Fin 128, term x W1 n a (128 * g + k.val)) 11).symm

/-! ## The output array after the last write-back -/

/-- The one write-back, at the last point, writes the output buffer's contents: the window's block is the whole array. -/
theorem flushed_eq (c : Dev nD) (t : Fin cfg0.N) (hf : (cfg0.win 2).flush t = true) :
    (dat0 V c).flushed 2 t = ((cfg0.win 2).blk t).view.read (Elt Ideal) (outAt0 V c t0_11) := by
  have hN : cfg0.N = 12 := N_0
  have h1 : t.val = 11 := by have := (flush0_2 t).mp hf; have := t.isLt; omega
  obtain rfl : t = t0_11 := Fin.ext h1
  show (cfg0.win 2).cut (grid0.coords t0_11) ((dat0 V c).after 2 t0_11) = _
  rw [after0_2]
  have hz' : (fun a => win0_2.index t0_11 a * main_v6.ty.shape.size a) = fun _ => 0 := funext fun a => by fin_cases a <;> decide
  exact (Memref.read_access_unit_zero (Elt Ideal) main_v6 hz' (fun a => by rw [congrFun hz' a]; simp) (outAt0 V c t0_11)).symm

/-- So the output array ends holding them. -/
theorem final_o (c : Dev nD) : (dat0 V c).arrAt 2 cfg0.N = outAt0 V c t0_11 :=
  (dat0 V c).arrAt_eq_of_cover 2 (outAt0 V c t0_11) (flushed_eq V c) fun i =>
    ⟨t0_11, (flush0_2 t0_11).mpr rfl, by
      show i ∈ ((View.whole main_v6).slice (win0_2.rect t0_11)).set
      rw [View.set_slice_whole, Rect.mem_set_unit]
      intro a
      have h0 : (i 0 : Nat) < 10000 := (i 0).isLt
      have h1 : (i 1 : Nat) < 60 := (i 1).isLt
      match a with
      | ⟨0, _⟩ => show win0_2.index t0_11 0 * win0_2.size 0 ≤ (i 0 : Nat) ∧ (i 0 : Nat) < win0_2.index t0_11 0 * win0_2.size 0 + win0_2.xsize (grid0.coords t0_11) 0
                  rw [show win0_2.index t0_11 0 * win0_2.size 0 = 0 from by decide +kernel, show win0_2.xsize (grid0.coords t0_11) 0 = 10000 from by decide +kernel]; omega
      | ⟨1, _⟩ => show win0_2.index t0_11 1 * win0_2.size 1 ≤ (i 1 : Nat) ∧ (i 1 : Nat) < win0_2.index t0_11 1 * win0_2.size 1 + win0_2.xsize (grid0.coords t0_11) 1
                  rw [show win0_2.index t0_11 1 * win0_2.size 1 = 0 from by decide +kernel, show win0_2.xsize (grid0.coords t0_11) 1 = 60 from by decide +kernel]; omega⟩

end Value

end V0

/-- THE VALUE OF REGION 0: after the region the output array holds, at entry (n, a), the first support x · W1, given
    that the region's input arrays hold the transposed x and W1, each padded with 103 zero rows. -/
theorem value0 (V : (c : Dev nD) → (b : Ref sig .tc) → Buf (Elt Ideal) ((c : Thread nD τ).loc b)) (x : Cert.Spec.Mat 10000 1433) (W1 : Cert.Spec.Mat 1433 60) (c : Dev nD)
    (hx : ∀ (f : Fin 1536) (n : Fin 10000), (V c main_v4 : S1536x10000.Idx → EReal) (ix2 f n) = if h : f.val < 1433 then x (ix2 n ⟨f.val, h⟩) else 0)
    (hw : ∀ (f : Fin 1536) (a : Fin 60), (V c main_v5 : S1536x60.Idx → EReal) (ix2 f a) = if h : f.val < 1433 then W1 (ix2 ⟨f.val, h⟩ a) else 0)
    (n : Fin 10000) (a : Fin 60) :
    ((dat0 (F := Ideal) V c).arrAt 2 cfg0.N : S10000x60.Idx → EReal) (ix2 n a) = Cert.Spec.s1 x W1 n a := by
  rw [V0.final_o V c]
  exact V0.out_last_apply V x W1 c hx hw n a

end Cert.KernelIdeal.Hand

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.KI.Value1.lean ====
/-
  Region 1 at exact values: what its two output arrays hold after the last write-back, entry by entry, from what its
  five input arrays hold when the region is entered.

  The grid has 25 points; point t stages rows 400·t … 400·t + 399 of the adjacency (all 10000 columns) and the whole of
  the four small operands, and writes back rows 400·t … 400·t + 399 of both outputs. Row n is therefore written by
  point n / 400, and by no other. Within a block the body computes, for row p and column q,
      Σ_b ( Σ_a max( Σ_k adj[p, k] · s[k, a] + b1[a], 0 ) · W2[a, b] ) · W3[b, q]
  (narrowing to the 16-bit format is the identity at exact values; a matrix product into the zero accumulator is the
  plain sum), which is the 7-wide support of the specification at row 400·t + p. The second output is the adjacency
  block itself.
-/
import proofs.«145497_g38912403702117_cont_8to1_b_1654_14_alg».proof.Proof.KI.Region1
import proofs.«145497_g38912403702117_cont_8to1_b_1654_14_alg».proof.Proof.Spec
import proofs.«145497_g38912403702117_cont_8to1_b_1654_14_alg».proof.Proof.LibPlainContract
import proofs.«145497_g38912403702117_cont_8to1_b_1654_14_alg».proof.Proof.LibLreluRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

namespace V1

/-! ## The body's arithmetic at an entry -/

theorem hz1 : (![0, 0] : Fin 2 → Nat) = fun _ => 0 := funext fun a => by fin_cases a <;> rfl

/-- The narrowed adjacency block, entry by entry: narrowing changes nothing at exact values. -/
theorem pay1_apply (x0 : Vec Ideal S400x10000 .f32) (j : S400x10000.Idx) : k1_pay1 (F := Ideal) x0 j = x0 j := rfl

/-- The body's 7-wide result at entry (p, q) of its block, from the five loaded blocks. -/
theorem pay2_apply (x0 : Vec Ideal S400x10000 .f32) (x1 : Vec Ideal S10000x60 .bf16) (x2 : Vec Ideal S1x60 .f32)
    (x3 : Vec Ideal S60x30 .f32) (x4 : Vec Ideal S30x7 .f32) (p : Fin 400) (q : Fin 7) :
    k1_pay2 (F := Ideal) x0 x1 x2 x3 x4 (ix2 p q)
      = ∑ b : Fin 30, (∑ a : Fin 60, max ((∑ k : Fin 10000, x0 (ix2 p k) * x1 (ix2 k a)) + x2 (ix2 (0 : Fin 1) a)) 0 * x3 (ix2 a b)) * x4 (ix2 b q) := by
  unfold k1_pay2
  refine (Cert.LibPlainContract.matmul_plain_apply 400 30 7 (φ₁ := .f32) (φ₂ := .f32) none _ x4 p q).trans ?_
  refine Finset.sum_congr rfl fun b _ => ?_
  refine congrArg (· * x4 (ix2 b q)) ?_
  refine (Cert.LibPlainContract.matmul_plain_apply 400 60 30 (φ₁ := .f32) (φ₂ := .f32) none _ x3 p b).trans ?_
  refine Finset.sum_congr rfl fun a _ => ?_
  refine congrArg (· * x3 (ix2 a b)) ?_
  refine (maximumf_apply _ _ _).trans ?_
  refine congrArg₂ max ?_ Ideal.ofBits_zero_f32
  refine (addf_apply _ _ _).trans ?_
  refine congrArg₂ (· + ·) ?_ ?_
  · refine (Cert.LibPlainContract.matmul_plain_apply 400 10000 60 (φ₁ := .bf16) (φ₂ := .bf16) none (k1_pay1 x0)
      (shapeCast S10000x60 x1 shapeCasts_S10000x60_S10000x60) p a).trans ?_
    refine Finset.sum_congr rfl fun k _ => ?_
    exact congrArg (x0 (ix2 p k) * ·) (congrFun (shapeCast_self x1 shapeCasts_S10000x60_S10000x60) (ix2 k a))
  · exact Cert.LibLreluRows.rowDown_apply shapeCasts_S1x60_S1x60 broadcasts_S1x60_S400x60 x2 p a

/-! ## Where each window's block sits in its array -/

/-- The block index of every window at every grid point: the adjacency and the two outputs move one block of 400 rows
    per point, the four small operands stay at block (0, 0). Decided over the 25 points. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 25 := Nat.lt_of_lt_of_eq t.isLt N_1

variable (V : (c : Dev nD) → (b : Ref sig .tc) → Buf (Elt Ideal) ((c : Thread nD τ).loc b))

/-- Entry (p, k) of the adjacency block at point t is entry (400·t + p, k) of the adjacency. -/
theorem blk0_read (c : Dev nD) (t : Fin cfg1.N) (p : Fin 400) (k : Fin 10000) (n : Fin 10000) (hn : n.val = t.val * 400 + p.val) :
    iblk1 V c 0 t (ix2 p k) = V c main_arg1 (ix2 n k) := by
  obtain ⟨e0, e1, -⟩ := idx_facts1 t
  show V c main_arg1 (((cfg1.win 0).blk t).view.emb (ix2 p k)) = V c main_arg1 (ix2 n k)
  refine congrArg (V c main_arg1) (funext fun a => Fin.ext ?_)
  match a with
  | ⟨0, _⟩ => show win1_0.index t (0 : Fin 2) * 400 + 1 * p.val = n.val; omega
  | ⟨1, _⟩ => show win1_0.index t (1 : Fin 2) * 10000 + 1 * k.val = k.val; omega

/-- Window 1's block at any point is its whole array. -/
theorem blk1_read (c : Dev nD) (t : Fin cfg1.N) (x : Fin 10000) (y : Fin 60) :
    iblk1 V c 1 t (ix2 x y) = V c main_v6 (ix2 x y) := by
  obtain ⟨-, -, e0, e1, -⟩ := idx_facts1 t
  show V c main_v6 (((cfg1.win 1).blk t).view.emb (ix2 x y)) = V c main_v6 (ix2 x y)
  refine congrArg (V c main_v6) (funext fun a => Fin.ext ?_)
  match a with
  | ⟨0, _⟩ => show win1_1.index t (0 : Fin 2) * 10000 + 1 * x.val = x.val; omega
  | ⟨1, _⟩ => show win1_1.index t (1 : Fin 2) * 60 + 1 * y.val = y.val; omega

/-- Window 2's block at any point is its whole array. -/
theorem blk2_read (c : Dev nD) (t : Fin cfg1.N) (x : Fin 1) (y : Fin 60) :
    iblk1 V c 2 t (ix2 x y) = V c main_v0 (ix2 x y) := by
  obtain ⟨-, -, -, -, e0, e1, -⟩ := idx_facts1 t
  show V c main_v0 (((cfg1.win 2).blk t).view.emb (ix2 x y)) = V c main_v0 (ix2 x y)
  refine congrArg (V c main_v0) (funext fun a => Fin.ext ?_)
  match a with
  | ⟨0, _⟩ => show win1_2.index t (0 : Fin 2) * 1 + 1 * x.val = x.val; omega
  | ⟨1, _⟩ => show win1_2.index t (1 : Fin 2) * 60 + 1 * y.val = y.val; omega

/-- Window 3's block at any point is its whole array. -/
theorem blk3_read (c : Dev nD) (t : Fin cfg1.N) (x : Fin 60) (y : Fin 30) :
    iblk1 V c 3 t (ix2 x y) = V c main_arg4 (ix2 x y) := by
  obtain ⟨-, -, -, -, -, -, e0, e1, -⟩ := idx_facts1 t
  show V c main_arg4 (((cfg1.win 3).blk t).view.emb (ix2 x y)) = V c main_arg4 (ix2 x y)
  refine congrArg (V c main_arg4) (funext fun a => Fin.ext ?_)
  match a with
  | ⟨0, _⟩ => show win1_3.index t (0 : Fin 2) * 60 + 1 * x.val = x.val; omega
  | ⟨1, _⟩ => show win1_3.index t (1 : Fin 2) * 30 + 1 * y.val = y.val; omega

/-- Window 4's block at any point is its whole array. -/
theorem blk4_read (c : Dev nD) (t : Fin cfg1.N) (x : Fin 30) (y : Fin 7) :
    iblk1 V c 4 t (ix2 x y) = V c main_arg6 (ix2 x y) := by
  obtain ⟨-, -, -, -, -, -, -, -, e0, e1, -⟩ := idx_facts1 t
  show V c main_arg6 (((cfg1.win 4).blk t).view.emb (ix2 x y)) = V c main_arg6 (ix2 x y)
  refine congrArg (V c main_arg6) (funext fun a => Fin.ext ?_)
  match a with
  | ⟨0, _⟩ => show win1_4.index t (0 : Fin 2) * 30 + 1 * x.val = x.val; omega
  | ⟨1, _⟩ => show win1_4.index t (1 : Fin 2) * 7 + 1 * y.val = y.val; omega

/-- Entry (p, q) of output window 5's block at point t is entry (400·t + p, q) of its array. -/
theorem emb5 (t : Fin cfg1.N) (p : Fin 400) (q : Fin 7) (n : Fin 10000) (hn : n.val = t.val * 400 + p.val) :
    ((cfg1.win 5).blk t).view.emb (ix2 p q) = ix2 n q := by
  obtain ⟨-, -, -, -, -, -, -, -, -, -, e0, e1, -⟩ := idx_facts1 t
  refine funext fun a => Fin.ext ?_
  match a with
  | ⟨0, _⟩ => show win1_5.index t (0 : Fin 2) * 400 + 1 * p.val = n.val; omega
  | ⟨1, _⟩ => show win1_5.index t (1 : Fin 2) * 7 + 1 * q.val = q.val; omega

/-- Entry (p, k) of output window 6's block at point t is entry (400·t + p, k) of its array. -/
theorem emb6 (t : Fin cfg1.N) (p : Fin 400) (k : Fin 10000) (n : Fin 10000) (hn : n.val = t.val * 400 + p.val) :
    ((cfg1.win 6).blk t).view.emb (ix2 p k) = ix2 n k := by
  obtain ⟨-, -, -, -, -, -, -, -, -, -, -, -, e0, e1⟩ := idx_facts1 t
  refine funext fun a => Fin.ext ?_
  match a with
  | ⟨0, _⟩ => show win1_6.index t (0 : Fin 2) * 400 + 1 * p.val = n.val; omega
  | ⟨1, _⟩ => show win1_6.index t (1 : Fin 2) * 10000 + 1 * k.val = k.val; omega

/-! ## What each point writes back -/

/-- The 7-wide support as one array: entry (n, j) is the specification's support at row n, column j. -/
def support7 (adj : Cert.Spec.Mat 10000 10000) (s : Fin 10000 → Fin 60 → EReal) (b1 : Cert.Spec.Vct 60) (W2 : Cert.Spec.Mat 60 30)
    (W3 : Cert.Spec.Mat 30 7) : S10000x7.Idx → EReal :=
  fun i => Cert.Spec.p3 (Cert.Spec.p2 (Cert.Spec.h1 adj s b1) W2) W3 (i 0) (i 1)

section
variable (adj : Cert.Spec.Mat 10000 10000) (s : Fin 10000 → Fin 60 → EReal) (b1 : Cert.Spec.Vct 60) (W2 : Cert.Spec.Mat 60 30)
  (W3 : Cert.Spec.Mat 30 7) (c : Dev nD)
  (hadj : ∀ n k : Fin 10000, V c main_arg1 (ix2 n k) = adj (ix2 n k))
  (hs : ∀ (n : Fin 10000) (a : Fin 60), V c main_v6 (ix2 n a) = s n a)
  (hb : ∀ a : Fin 60, V c main_v0 (ix2 (0 : Fin 1) a) = b1 (ix1 a))
  (hW2 : ∀ (a : Fin 60) (b : Fin 30), V c main_arg4 (ix2 a b) = W2 (ix2 a b))
  (hW3 : ∀ (b : Fin 30) (j : Fin 7), V c main_arg6 (ix2 b j) = W3 (ix2 b j))
include hadj hs hb hW2 hW3

/-- Point t's block of the support, entry by entry. -/
theorem block5_apply (t : Fin cfg1.N) (p : Fin 400) (q : Fin 7) :
    k1_pay2 (F := Ideal) (iblk1 V c 0 t) (iblk1 V c 1 t) (iblk1 V c 2 t) (iblk1 V c 3 t) (iblk1 V c 4 t) (ix2 p q)
      = support7 adj s b1 W2 W3 (((cfg1.win 5).blk t).view.emb (ix2 p q)) := by
  have ht := point_lt t
  have hp := p.isLt
  have hn : t.val * 400 + p.val < 10000 := by omega
  rw [emb5 t p q ⟨t.val * 400 + p.val, hn⟩ rfl]
  refine (pay2_apply _ _ _ _ _ p q).trans ?_
  simp only [blk0_read V c t p _ ⟨t.val * 400 + p.val, hn⟩ rfl, blk1_read, blk2_read, blk3_read, blk4_read, hadj, hs, hb, hW2, hW3]
  rfl

/-- What point t writes back to output window 5 is block t of the support. -/
theorem flushed5_eq (t : Fin cfg1.N) :
    (dat1 (F := Ideal) V c).flushed 5 t = ((cfg1.win 5).blk t).view.read (Elt Ideal) (support7 adj s b1 W2 W3) := by
  show (cfg1.win 5).cut (grid1.coords t) ((dat1 V c).after 5 t) = _
  rw [after1_5]
  unfold out1_5
  rw [View.canon_unit_zero hz1]
  simp only [View.ld_unit_zero (S := S400x10000) hz1, View.ld_unit_zero (S := S10000x60) hz1, View.ld_unit_zero (S := S1x60) hz1,
    View.ld_unit_zero (S := S60x30) hz1, View.ld_unit_zero (S := S30x7) hz1]
  funext j
  obtain ⟨p, q, rfl⟩ : ∃ (p : Fin 400) (q : Fin 7), j = ix2 p q := ⟨j 0, j 1, eq_ix2 j⟩
  exact block5_apply V adj s b1 W2 W3 c hadj hs hb hW2 hW3 t p q

end

/-- What point t writes back to output window 6 is block t of the adjacency as the region finds it. -/
theorem flushed6_eq (c : Dev nD) (t : Fin cfg1.N) :
    (dat1 (F := Ideal) V c).flushed 6 t = ((cfg1.win 6).blk t).view.read (Elt Ideal) (V c main_arg1) := by
  show (cfg1.win 6).cut (grid1.coords t) ((dat1 V c).after 6 t) = _
  rw [after1_6]
  unfold out1_6
  rw [View.canon_unit_zero hz1]
  simp only [View.ld_unit_zero (S := S400x10000) hz1]
  funext j
  obtain ⟨p, k, rfl⟩ : ∃ (p : Fin 400) (k : Fin 10000), j = ix2 p k := ⟨j 0, j 1, eq_ix2 j⟩
  have ht := point_lt t
  have hp := p.isLt
  have hn : t.val * 400 + p.val < 10000 := by omega
  show k1_pay1 (F := Ideal) (iblk1 V c 0 t) (ix2 p k) = V c main_arg1 (((cfg1.win 6).blk t).view.emb (ix2 p k))
  rw [emb6 t p k ⟨t.val * 400 + p.val, hn⟩ rfl]
  exact blk0_read V c t p k ⟨t.val * 400 + p.val, hn⟩ rfl

/-! ## The blocks tile the arrays -/

/-- An index of output 5's array is in point t's block iff each coordinate is in the block's range on its axis. -/
theorem mem_blk5 (t : Fin cfg1.N) (i : S10000x7.Idx) :
    i ∈ ((cfg1.win 5).blk t).view.set ↔ ∀ a : Fin 2, win1_5.index t a * S400x7.size a ≤ (i a).val ∧ (i a).val < win1_5.index t a * S400x7.size a + S400x7.size a := by
  show i ∈ ((View.whole main_v7_0).slice (win1_5.rect t)).set ↔ _
  rw [View.set_slice_whole, Rect.mem_set_unit]
  exact Iff.rfl

/-- The same for output 6. -/
theorem mem_blk6 (t : Fin cfg1.N) (i : S10000x10000.Idx) :
    i ∈ ((cfg1.win 6).blk t).view.set ↔ ∀ a : Fin 2, win1_6.index t a * S400x10000.size a ≤ (i a).val ∧ (i a).val < win1_6.index t a * S400x10000.size a + S400x10000.size a := by
  show i ∈ ((View.whole main_v7_1).slice (win1_6.rect t)).set ↔ _
  rw [View.set_slice_whole, Rect.mem_set_unit]
  exact Iff.rfl

/-- Row n of output 5 is written back by point n / 400. -/
theorem cover5 (i : S10000x7.Idx) : ∃ t : Fin cfg1.N, (cfg1.win 5).flush t = true ∧ i ∈ ((cfg1.win 5).blk t).view.set := by
  have hi0 : (i 0).val < 10000 := (i 0).isLt
  have hi1 : (i 1).val < 7 := (i 1).isLt
  obtain ⟨t, ht⟩ : ∃ t : Fin cfg1.N, t.val = (i 0).val / 400 :=
    ⟨⟨(i 0).val / 400, Nat.lt_of_lt_of_eq (by omega : (i 0).val / 400 < 25) N_1.symm⟩, rfl⟩
  obtain ⟨-, -, -, -, -, -, -, -, -, -, e0, e1, -⟩ := idx_facts1 t
  refine ⟨t, flush1_5 t, ?_⟩
  rw [mem_blk5]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 7 ≤ (i 1).val ∧ (i 1).val < win1_5.index t (1 : Fin 2) * 7 + 7; omega

/-- Row n of output 6 is written back by point n / 400. -/
theorem cover6 (i : S10000x10000.Idx) : ∃ t : Fin cfg1.N, (cfg1.win 6).flush t = true ∧ i ∈ ((cfg1.win 6).blk t).view.set := by
  have hi0 : (i 0).val < 10000 := (i 0).isLt
  have hi1 : (i 1).val < 10000 := (i 1).isLt
  obtain ⟨t, ht⟩ : ∃ t : Fin cfg1.N, t.val = (i 0).val / 400 :=
    ⟨⟨(i 0).val / 400, Nat.lt_of_lt_of_eq (by omega : (i 0).val / 400 < 25) N_1.symm⟩, rfl⟩
  obtain ⟨-, -, -, -, -, -, -, -, -, -, -, -, e0, e1⟩ := idx_facts1 t
  refine ⟨t, flush1_6 t, ?_⟩
  rw [mem_blk6]
  intro a
  match a with
  | ⟨0, _⟩ => show win1_6.index t (0 : Fin 2) * 400 ≤ (i 0).val ∧ (i 0).val < win1_6.index t (0 : Fin 2) * 400 + 400; omega
  | ⟨1, _⟩ => show win1_6.index t (1 : Fin 2) * 10000 ≤ (i 1).val ∧ (i 1).val < win1_6.index t (1 : Fin 2) * 10000 + 10000; omega

end V1

/-! ## The arrays after the last write-back -/

variable (V : (c : Dev nD) → (b : Ref sig .tc) → Buf (Elt Ideal) ((c : Thread nD τ).loc b))

/-- OUTPUT 5 after the region: the specification's 7-wide support of the hidden layer, entry by entry. -/
theorem value1_u (adj : Cert.Spec.Mat 10000 10000) (s : Fin 10000 → Fin 60 → EReal) (b1 : Cert.Spec.Vct 60) (W2 : Cert.Spec.Mat 60 30)
    (W3 : Cert.Spec.Mat 30 7) (c : Dev nD)
    (hadj : ∀ n k : Fin 10000, V c main_arg1 (ix2 n k) = adj (ix2 n k))
    (hs : ∀ (n : Fin 10000) (a : Fin 60), V c main_v6 (ix2 n a) = s n a)
    (hb : ∀ a : Fin 60, V c main_v0 (ix2 (0 : Fin 1) a) = b1 (ix1 a))
    (hW2 : ∀ (a : Fin 60) (b : Fin 30), V c main_arg4 (ix2 a b) = W2 (ix2 a b))
    (hW3 : ∀ (b : Fin 30) (j : Fin 7), V c main_arg6 (ix2 b j) = W3 (ix2 b j))
    (n : Fin 10000) (j : Fin 7) :
    (dat1 (F := Ideal) V c).arrAt 5 cfg1.N (ix2 n j) = Cert.Spec.p3 (Cert.Spec.p2 (Cert.Spec.h1 adj s b1) W2) W3 n j :=
  congrFun ((dat1 (F := Ideal) V c).arrAt_eq_of_cover 5 (V1.support7 adj s b1 W2 W3)
    (fun t _ => V1.flushed5_eq V adj s b1 W2 W3 c hadj hs hb hW2 hW3 t) V1.cover5) (ix2 n j)

/-- OUTPUT 6 after the region: the adjacency as the region finds it, entry by entry. -/
theorem value1_adj (c : Dev nD) (n k : Fin 10000) :
    (dat1 (F := Ideal) V c).arrAt 6 cfg1.N (ix2 n k) = V c main_arg1 (ix2 n k) :=
  congrFun ((dat1 (F := Ideal) V c).arrAt_eq_of_cover 6 (V c main_arg1) (fun t _ => V1.flushed6_eq V c t) V1.cover6) (ix2 n k)

end Cert.KernelIdeal.Hand

end
-- ==== Proof.LibRowFold.lean ====
import Idealize.ShloMosaic.PureOps.Ideal.Laws
import Idealize.ShloMosaic.Lib.ValueIdx
import Idealize.ShloMosaic.PureOps.Reduce

open scoped BigOperators

namespace Cert.Lib.RowFold
open Idealize.ShloMosaic Idealize.ShloMosaic.ValueIdx

/-- Over a rank-2 array reduced along its columns, the source index over row `p` with column coordinate
    `k` inserted is the index `(p, k)`. -/
theorem lift_ix1 {R C : Nat} (h : (⟨2, ![R, C]⟩ : Shape).Reduces [1] ⟨1, ![R]⟩) (p : Fin R) (k : Fin C) :
    h.lift (ix1 p) k = ix2 p k := by
  funext a
  match a with
  | ⟨0, _⟩ => rfl
  | ⟨1, _⟩ => rfl

/-- At the extended reals, a minimum-reduction over the columns of a rank-2 array, read at row `p`, is the
    fold of `min` from the accumulator's value over the column coordinates `k` of the entries `(p, k)`. -/
theorem multiReduction_minimumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.minimumf.neutral .f32 hφ) (p : Fin R) :
    multiReduction .minimumf [1] ⟨1, ![R]⟩ x acc h hφ hacc (ix1 p)
      = (Finset.univ : Finset (Fin C)).fold min (Ideal.ofBits .f32 acc) (fun k => x (ix2 p k)) := by
  rw [multiReduction_minimumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a maximum-reduction over the columns of a rank-2 array, read at row `p`, is the
    fold of `max` from the accumulator's value over the column coordinates `k` of the entries `(p, k)`. -/
theorem multiReduction_maximumf_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ x acc h hφ hacc (ix1 p)
      = (Finset.univ : Finset (Fin C)).fold max (Ideal.ofBits .f32 acc) (fun k => x (ix2 p k)) := by
  rw [multiReduction_maximumf_eq_fold]
  refine (h.fold_filter_drop_single _ _ x (ix1 p)).trans ?_
  have e : (x ∘ h.lift (ix1 p)) = fun k : Fin C => x (ix2 p k) :=
    funext fun k => congrArg x (lift_ix1 h p k)
  rw [e]
  rfl

/-- At the extended reals, a sum-reduction over the columns of a rank-2 array, read at row `p`, is the sum
    over the column coordinates `k` of the entries `(p, k)`. -/
theorem multiReduction_add_row {R C : Nat} (x : FVec Ideal ⟨2, ![R, C]⟩ .f32) (acc : BitVec 32)
    (h : (⟨2, ![R, C]⟩ : Shape).Reduces [1] ⟨1, ![R]⟩) (hφ : FKind.Formats .f32)
    (hacc : acc = FKind.add.neutral .f32 hφ) (p : Fin R) :
    multiReduction .add [1] ⟨1, ![R]⟩ x acc h hφ hacc (ix1 p) = ∑ k : Fin C, x (ix2 p k) := by
  refine (Ideal.multiReduction_add_single x acc h hφ hacc (ix1 p)).trans ?_
  exact Finset.sum_congr rfl fun k _ => congrArg x (lift_ix1 h p k)

/-- The host's reduction with the minimum as its body over the columns of a rank-2 array of extended reals,
    read at row `p`: the fold of `min` from the initial value over the column coordinates `k` of the entries
    `(p, k)`. -/
theorem hostReduce_minimumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.minimumf (F := Ideal) (φ := .f32)) x init h' hu (ix1 p)
      = (Finset.univ : Finset (Fin C)).fold min (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's reduction with the maximum as its body over the columns of a rank-2 array of extended reals,
    read at row `p`: the fold of `max` from the initial value over the column coordinates `k` of the entries
    `(p, k)`. -/
theorem hostReduce_maximumf_row {R C : Nat} {u : Shape} (x : (⟨2, ![R, C]⟩ : Shape).Idx → EReal)
    (init : u.Idx → EReal) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single _ x init h' h hu (ix1 p)).trans ?_
  have e : (x ∘ h.lift (ix1 p)) = fun k : Fin C => x (ix2 p k) :=
    funext fun k => congrArg x (lift_ix1 h p k)
  rw [e]
  rfl

/-- The host's float sum over the columns of a rank-2 array, at the extended reals and read at row `p`: the
    initial value plus the sum over the column coordinates `k` of the entries `(p, k)`. -/
theorem hostReduceAdd_row {R C : Nat} {u : Shape} (x : FVec Ideal ⟨2, ![R, C]⟩ .f32)
    (init : FVec Ideal u .f32) (h' : (⟨2, ![R, C]⟩ : Shape).ReducesTo [1] ⟨1, ![R]⟩)
    (h : (⟨2, ![R, C]⟩ : Shape).Reduces [1] ⟨1, ![R]⟩) (hu : 0 < u.numel) (p : Fin R) :
    Host.reduceAdd x init h' hu (ix1 p) = init (Shape.Idx.first hu) + ∑ k : Fin C, x (ix2 p k) := by
  show Ideal.hostReduceAdd h' x (init (Shape.Idx.first hu)) (ix1 p) = _
  rw [Ideal.hostReduceAdd_single h' h]
  exact congrArg (init (Shape.Idx.first hu) + ·)
    (Finset.sum_congr rfl fun k _ => congrArg x (lift_ix1 h p k))

end Cert.Lib.RowFold
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KI.Value2.lean ====
/-
  The VALUE of region 2 at the extended reals: what the region's output array holds after the last write-back, entry by
  entry, from what its input arrays hold when the region is entered. The first ten points fill the scratch, a thousand
  rows each, with  t = adj · u + b2 · W3;  the last ten compute, per block of a thousand rows,  h = adj · t + b3  and
  store  h − max h − log Σ exp (h − max h)  along each row of seven.
-/
import proofs.«145497_g38912403702117_cont_8to1_b_1654_14_alg».proof.Proof.KI.Region2
import proofs.«145497_g38912403702117_cont_8to1_b_1654_14_alg».proof.Proof.Spec
import proofs.«145497_g38912403702117_cont_8to1_b_1654_14_alg».proof.Proof.LibPlainContract
import proofs.«145497_g38912403702117_cont_8to1_b_1654_14_alg».proof.Proof.LibRowFold
import proofs.«145497_g38912403702117_cont_8to1_b_1654_14_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

namespace V2

/-! ## The two payloads at the extended reals, entry by entry -/

theorem ofBits_neg_inf : Ideal.ofBits .f32 0xFF800000#32 = ⊥ := by simp [Ideal.ofBits, Ideal.ieee]

theorem dotBig_eq : dot_S1000x10000_S10000x7_S1000x7_1_0_0_1_n_n = DotDims.plain 1000 10000 7 := rfl
theorem dotSmall_eq : dot_S1x30_S30x7_S1x7_1_0_0_1_n_n = DotDims.plain 1 30 7 := rfl

/-- The product of a block of a thousand adjacency rows with a 7-wide support, into the zero accumulator, at an entry. -/
theorem matBig_apply (x0 : FVec Ideal S1000x10000 .bf16) (x1 : FVec Ideal S10000x7 .bf16) (r : Fin 1000) (j : Fin 7) :
    (FloatOps.matmul (F := Ideal) dot_S1000x10000_S10000x7_S1000x7_1_0_0_1_n_n none x0 x1 (constant S1000x7 .f32 0x00000000#32) (ix2 r j) : EReal)
      = ∑ k : Fin 10000, (x0 (ix2 r k) : EReal) * (x1 (ix2 k j) : EReal) := by
  rw [dotBig_eq]; exact Cert.LibPlainContract.matmul_plain_apply 1000 10000 7 none x0 x1 r j

/-- The first stage's payload at row `r`, column `j`: the adjacency block's row against the support's column, plus the
    second bias carried through the third weight. -/
theorem pay1_apply (x2 : FVec Ideal S1x30 .f32) (x3 : FVec Ideal S30x7 .f32) (x0 : FVec Ideal S1000x10000 .bf16) (x1 : FVec Ideal S10000x7 .bf16)
    (r : Fin 1000) (j : Fin 7) :
    (k2_pay1 (F := Ideal) x2 x3 x0 x1 (ix2 r j) : EReal)
      = (∑ k : Fin 10000, (x0 (ix2 r k) : EReal) * (x1 (ix2 k j) : EReal)) + ∑ b : Fin 30, (x2 (ix2 (0 : Fin 1) b) : EReal) * (x3 (ix2 b j) : EReal) := by
  have hB : (broadcastTo S1000x7 (FloatOps.matmul (F := Ideal) dot_S1x30_S30x7_S1x7_1_0_0_1_n_n none x2 x3 (constant S1x7 .f32 0x00000000#32)) broadcasts_S1x7_S1000x7 (ix2 r j) : EReal)
      = ∑ b : Fin 30, (x2 (ix2 (0 : Fin 1) b) : EReal) * (x3 (ix2 b j) : EReal) := by
    rw [dotSmall_eq]
    exact (broadcastTo_1b_ab_apply _ broadcasts_S1x7_S1000x7 r j).trans (Cert.LibPlainContract.matmul_plain_apply 1 30 7 none x2 x3 0 j)
  unfold k2_pay1
  simp only [shapeCast_self]
  exact congrArg₂ (· + ·) (matBig_apply x0 x1 r j) hB

/-- The log-softmax of a row of a `[1000, 7]` array whose row `r` is `z`, as the second stage computes it. -/
theorem lsm_row (v14 : FVec Ideal S1000x7 .f32) (z : Fin 7 → EReal) (r : Fin 1000) (h14 : ∀ j' : Fin 7, (v14 (ix2 r j') : EReal) = z j') (j : Fin 7) :
    ((subf (subf v14 (broadcastTo S1000x7 (shapeCast S1000x1 (multiReduction .maximumf [1] S1000 v14 0xFF800000#32 reduces_S1000x7_S1000 (.inl rfl) rfl) shapeCasts_S1000_S1000x1) broadcasts_S1000x1_S1000x7))
        (broadcastTo S1000x7 (log (shapeCast S1000x1 (multiReduction .add [1] S1000 (exp (subf v14 (broadcastTo S1000x7 (shapeCast S1000x1 (multiReduction .maximumf [1] S1000 v14 0xFF800000#32 reduces_S1000x7_S1000 (.inl rfl) rfl) shapeCasts_S1000_S1000x1) broadcasts_S1000x1_S1000x7))) 0x00000000#32 reduces_S1000x7_S1000 (.inl rfl) rfl) shapeCasts_S1000_S1000x1)) broadcasts_S1000x1_S1000x7)
        : FVec Ideal S1000x7 .f32) (ix2 r j) : EReal) = Cert.Spec.lsm z j := by
  have hmx : ((multiReduction .maximumf [1] S1000 v14 0xFF800000#32 reduces_S1000x7_S1000 (.inl rfl) rfl : FVec Ideal S1000 .f32) (ix1 r) : EReal) = Cert.Spec.rowMax z :=
    (Cert.Lib.RowFold.multiReduction_maximumf_row v14 0xFF800000#32 reduces_S1000x7_S1000 (.inl rfl) rfl r).trans
      (by rw [ofBits_neg_inf]; unfold Cert.Spec.rowMax; exact congrArg (fun f => Finset.univ.fold max ⊥ f) (funext h14))
  generalize hM : (broadcastTo S1000x7 (shapeCast S1000x1 (multiReduction .maximumf [1] S1000 v14 0xFF800000#32 reduces_S1000x7_S1000 (.inl rfl) rfl) shapeCasts_S1000_S1000x1) broadcasts_S1000x1_S1000x7 : FVec Ideal S1000x7 .f32) = bm
  have hbm : ∀ j' : Fin 7, (bm (ix2 r j') : EReal) = Cert.Spec.rowMax z := by
    subst hM; intro j'
    exact (Cert.Lib.Keepdims.broadcastTo_a1_ab_apply _ broadcasts_S1000x1_S1000x7 r j').trans
      ((Cert.Lib.Keepdims.shapeCast_a_a1_apply _ shapeCasts_S1000_S1000x1 r (0 : Fin 1)).trans hmx)
  generalize hE : (exp (subf v14 bm) : FVec Ideal S1000x7 .f32) = ex
  have hex : ∀ j' : Fin 7, (ex (ix2 r j') : EReal) = Ideal.exp (z j' - Cert.Spec.rowMax z) := by
    subst hE; intro j'
    show Ideal.exp ((v14 (ix2 r j') : EReal) - (bm (ix2 r j') : EReal)) = _
    rw [h14, hbm]
  have hsm : ((multiReduction .add [1] S1000 ex 0x00000000#32 reduces_S1000x7_S1000 (.inl rfl) rfl : FVec Ideal S1000 .f32) (ix1 r) : EReal) = ∑ j' : Fin 7, Ideal.exp (z j' - Cert.Spec.rowMax z) :=
    (Cert.Lib.RowFold.multiReduction_add_row ex 0x00000000#32 reduces_S1000x7_S1000 (.inl rfl) rfl r).trans (Finset.sum_congr rfl fun j' _ => hex j')
  generalize hL : (broadcastTo S1000x7 (log (shapeCast S1000x1 (multiReduction .add [1] S1000 ex 0x00000000#32 reduces_S1000x7_S1000 (.inl rfl) rfl) shapeCasts_S1000_S1000x1)) broadcasts_S1000x1_S1000x7 : FVec Ideal S1000x7 .f32) = bl
  have hbl : (bl (ix2 r j) : EReal) = Ideal.log (∑ j' : Fin 7, Ideal.exp (z j' - Cert.Spec.rowMax z)) := by
    subst hL
    refine (Cert.Lib.Keepdims.broadcastTo_a1_ab_apply _ broadcasts_S1000x1_S1000x7 r j).trans ?_
    show Ideal.log ((shapeCast S1000x1 (multiReduction .add [1] S1000 ex 0x00000000#32 reduces_S1000x7_S1000 (.inl rfl) rfl : FVec Ideal S1000 .f32) shapeCasts_S1000_S1000x1 (ix2 r (0 : Fin 1)) : EReal)) = _
    rw [Cert.Lib.Keepdims.shapeCast_a_a1_apply _ shapeCasts_S1000_S1000x1 r (0 : Fin 1), hsm]
  show ((v14 (ix2 r j) : EReal) - (bm (ix2 r j) : EReal)) - (bl (ix2 r j) : EReal) = _
  rw [h14, hbm, hbl]
  rfl

/-- The second stage's payload at row `r`, column `j`: the log-softmax of the row of logits. -/
theorem pay2_apply (x0 : FVec Ideal S1000x10000 .bf16) (xs : FVec Ideal S10000x7 .bf16) (x4 : FVec Ideal S1x7 .f32)
    (r : Fin 1000) (j : Fin 7) :
    (k2_pay2 (F := Ideal) x0 xs x4 (ix2 r j) : EReal)
      = Cert.Spec.lsm (fun j' : Fin 7 => (∑ k : Fin 10000, (x0 (ix2 r k) : EReal) * (xs (ix2 k j') : EReal)) + (x4 (ix2 (0 : Fin 1) j') : EReal)) j := by
  unfold k2_pay2
  simp only [shapeCast_self]
  exact lsm_row _ _ r (fun j' => congrArg₂ (· + ·) (matBig_apply x0 xs r j') (broadcastTo_1b_ab_apply x4 broadcasts_S1x7_S1000x7 r j')) j

/-! ## The input blocks, entry by entry -/

variable (V : (c : Dev nD) → (b : Ref sig .tc) → Buf (Elt Ideal) ((c : Thread nD τ).loc b))

theorem hidx2_0 : ∀ t : Fin cfg2.N, win2_0.index t 0 = t.val % 10 ∧ win2_0.index t 1 = 0 :=
  (by decide +kernel : ∀ t : Fin grid2.N, win2_0.index t 0 = t.val % 10 ∧ win2_0.index t 1 = 0)
theorem hidx2_1 : ∀ t : Fin cfg2.N, win2_1.index t 0 = 0 ∧ win2_1.index t 1 = 0 :=
  (by decide +kernel : ∀ t : Fin grid2.N, win2_1.index t 0 = 0 ∧ win2_1.index t 1 = 0)
theorem hidx2_2 : ∀ t : Fin cfg2.N, win2_2.index t 0 = 0 ∧ win2_2.index t 1 = 0 :=
  (by decide +kernel : ∀ t : Fin grid2.N, win2_2.index t 0 = 0 ∧ win2_2.index t 1 = 0)
theorem hidx2_3 : ∀ t : Fin cfg2.N, win2_3.index t 0 = 0 ∧ win2_3.index t 1 = 0 :=
  (by decide +kernel : ∀ t : Fin grid2.N, win2_3.index t 0 = 0 ∧ win2_3.index t 1 = 0)
theorem hidx2_4 : ∀ t : Fin cfg2.N, win2_4.index t 0 = 0 ∧ win2_4.index t 1 = 0 :=
  (by decide +kernel : ∀ t : Fin grid2.N, win2_4.index t 0 = 0 ∧ win2_4.index t 1 = 0)
theorem hidx2_5 : ∀ t : Fin cfg2.N, win2_5.index t 0 = t.val - 10 ∧ win2_5.index t 1 = 0 :=
  (by decide +kernel : ∀ t : Fin grid2.N, win2_5.index t 0 = t.val - 10 ∧ win2_5.index t 1 = 0)
theorem flush2_5 : ∀ t : Fin cfg2.N, (cfg2.win 5).flush t = true ↔ 10 ≤ t.val :=
  (by decide +kernel : ∀ t : Fin grid2.N, win2_5.flush t = true ↔ 10 ≤ t.val)
/-- The grid coordinate of a point is its number. -/
theorem hcoord2 : ∀ t : Fin cfg2.N, ((grid2.coords t) 0).val = t.val :=
  (by decide +kernel : ∀ t : Fin grid2.N, ((grid2.coords t) 0).val = t.val)

/-- The adjacency block at point `t` is rows `1000 · (t mod 10) …` of the bf16 adjacency. -/
theorem iblk2_0_apply (c : Dev nD) (t : Fin cfg2.N) (r : Fin 1000) (k : Fin 10000) (n : Fin 10000) (hn : n.val = 1000 * (t.val % 10) + r.val) :
    ((iblk2 V c 0 t : Vec Ideal S1000x10000 .bf16) (ix2 r k) : EReal) = ((V c main_v7_1 : S10000x10000.Idx → Elt Ideal .bf16) (ix2 n k) : EReal) := by
  unfold iblk2
  rw [View.read_apply]
  show (V c main_v7_1 : S10000x10000.Idx → Elt Ideal .bf16) _ = (V c main_v7_1 : S10000x10000.Idx → Elt Ideal .bf16) _
  congr 1
  funext a
  apply Fin.ext
  match a with
  | ⟨0, _⟩ => show win2_0.index t 0 * 1000 + 1 * r.val = n.val; rw [(hidx2_0 t).1, hn]; omega
  | ⟨1, _⟩ => show win2_0.index t 1 * 10000 + 1 * k.val = k.val; rw [(hidx2_0 t).2]; omega

theorem iblk2_1_apply (c : Dev nD) (t : Fin cfg2.N) (k : Fin 10000) (j : Fin 7) :
    ((iblk2 V c 1 t : Vec Ideal S10000x7 .bf16) (ix2 k j) : EReal) = ((V c main_v7_0 : S10000x7.Idx → Elt Ideal .bf16) (ix2 k j) : EReal) := by
  unfold iblk2
  rw [View.read_apply]
  show (V c main_v7_0 : S10000x7.Idx → Elt Ideal .bf16) _ = (V c main_v7_0 : S10000x7.Idx → Elt Ideal .bf16) _
  congr 1
  funext a
  apply Fin.ext
  match a with
  | ⟨0, _⟩ => show win2_1.index t 0 * 10000 + 1 * k.val = k.val; rw [(hidx2_1 t).1]; omega
  | ⟨1, _⟩ => show win2_1.index t 1 * 7 + 1 * j.val = j.val; rw [(hidx2_1 t).2]; omega

theorem iblk2_2_apply (c : Dev nD) (t : Fin cfg2.N) (b : Fin 30) :
    ((iblk2 V c 2 t : Vec Ideal S1x30 .f32) (ix2 (0 : Fin 1) b) : EReal) = ((V c main_v1 : S1x30.Idx → Elt Ideal .f32) (ix2 (0 : Fin 1) b) : EReal) := by
  unfold iblk2
  rw [View.read_apply]
  show (V c main_v1 : S1x30.Idx → Elt Ideal .f32) _ = (V c main_v1 : S1x30.Idx → Elt Ideal .f32) _
  congr 1
  funext a
  apply Fin.ext
  match a with
  | ⟨0, _⟩ => show win2_2.index t 0 * 1 + 1 * 0 = 0; rw [(hidx2_2 t).1]
  | ⟨1, _⟩ => show win2_2.index t 1 * 30 + 1 * b.val = b.val; rw [(hidx2_2 t).2]; omega

theorem iblk2_3_apply (c : Dev nD) (t : Fin cfg2.N) (b : Fin 30) (j : Fin 7) :
    ((iblk2 V c 3 t : Vec Ideal S30x7 .f32) (ix2 b j) : EReal) = ((V c main_arg6 : S30x7.Idx → Elt Ideal .f32) (ix2 b j) : EReal) := by
  unfold iblk2
  rw [View.read_apply]
  show (V c main_arg6 : S30x7.Idx → Elt Ideal .f32) _ = (V c main_arg6 : S30x7.Idx → Elt Ideal .f32) _
  congr 1
  funext a
  apply Fin.ext
  match a with
  | ⟨0, _⟩ => show win2_3.index t 0 * 30 + 1 * b.val = b.val; rw [(hidx2_3 t).1]; omega
  | ⟨1, _⟩ => show win2_3.index t 1 * 7 + 1 * j.val = j.val; rw [(hidx2_3 t).2]; omega

theorem iblk2_4_apply (c : Dev nD) (t : Fin cfg2.N) (j : Fin 7) :
    ((iblk2 V c 4 t : Vec Ideal S1x7 .f32) (ix2 (0 : Fin 1) j) : EReal) = ((V c main_v2 : S1x7.Idx → Elt Ideal .f32) (ix2 (0 : Fin 1) j) : EReal) := by
  unfold iblk2
  rw [View.read_apply]
  show (V c main_v2 : S1x7.Idx → Elt Ideal .f32) _ = (V c main_v2 : S1x7.Idx → Elt Ideal .f32) _
  congr 1
  funext a
  apply Fin.ext
  match a with
  | ⟨0, _⟩ => show win2_4.index t 0 * 1 + 1 * 0 = 0; rw [(hidx2_4 t).1]
  | ⟨1, _⟩ => show win2_4.index t 1 * 7 + 1 * j.val = j.val; rw [(hidx2_4 t).2]; omega

/-! ## The scratch after the first stage, entry by entry -/

theorem mem_pieces2 (c : Dev nD) (p : View.Piece (Elt Ideal) S10000x7 .bf16) :
    ∀ n : ℕ, p ∈ pieces2 V c n → ∃ (m : ℕ) (h : m < 10), p = piece2 V c m h
  | 0, hp => by rw [show pieces2 V c 0 = [] from rfl] at hp; exact absurd hp List.not_mem_nil
  | n + 1, hp => by
    by_cases h : n < 10
    · rw [pieces2_succ_lt V c h] at hp
      rcases List.mem_cons.mp hp with rfl | hp'
      · exact ⟨n, h, rfl⟩
      · exact mem_pieces2 c p n hp'
    · rw [pieces2_succ_ge V c (Nat.le_of_not_lt h)] at hp
      exact mem_pieces2 c p n hp

/-- The slice point `m` stores holds rows `1000 · m …` of the aggregated support. -/
theorem piece2_rows (adj : Cert.Spec.Mat 10000 10000) (u : Fin 10000 → Fin 7 → EReal) (b2 : Cert.Spec.Vct 30) (W3 : Cert.Spec.Mat 30 7) (b3 : Cert.Spec.Vct 7) (c : Dev nD)
    (hadj : ∀ n k : Fin 10000, V c main_v7_1 (ix2 n k) = adj (ix2 n k))
    (hu : ∀ (n : Fin 10000) (j : Fin 7), V c main_v7_0 (ix2 n j) = u n j)
    (hb2 : ∀ b : Fin 30, V c main_v1 (ix2 (0 : Fin 1) b) = b2 (ix1 b))
    (hW3 : ∀ (b : Fin 30) (j : Fin 7), V c main_arg6 (ix2 b j) = W3 (ix2 b j))
    (hb3 : ∀ j : Fin 7, V c main_v2 (ix2 (0 : Fin 1) j) = b3 (ix1 j))
    (m : ℕ) (h : m < 10) (r : Fin 1000) (j : Fin 7) :
    ((piece2 V c m h).2 (ix2 r j) : EReal) = Cert.Spec.agg7 adj u (Cert.Spec.c23 b2 W3) ⟨1000 * m + r.val, by omega⟩ j := by
  show (k2_pay1 (F := Ideal) (iblk2 V c 2 (pt2 m h)) (iblk2 V c 3 (pt2 m h)) (iblk2 V c 0 (pt2 m h)) (iblk2 V c 1 (pt2 m h)) (ix2 r j) : EReal) = _
  refine (pay1_apply _ _ _ _ r j).trans ?_
  unfold Cert.Spec.agg7 Cert.Spec.c23
  refine congrArg₂ (· + ·) (Finset.sum_congr rfl fun k _ => ?_) (Finset.sum_congr rfl fun b _ => ?_)
  · refine congrArg₂ (· * ·) ?_ ?_
    · exact (iblk2_0_apply V c (pt2 m h) r k ⟨1000 * m + r.val, by omega⟩ (by show 1000 * m + r.val = 1000 * (m % 10) + r.val; omega)).trans (hadj _ k)
    · exact (iblk2_1_apply V c (pt2 m h) k j).trans (hu k j)
  · refine congrArg₂ (· * ·) ?_ ?_
    · exact (iblk2_2_apply V c (pt2 m h) b).trans (hb2 b)
    · exact (iblk2_3_apply V c (pt2 m h) b j).trans (hW3 b j)

/-- After the first stage the scratch holds the aggregated support `adj · u + b2 · W3`. -/
theorem scr2_apply (adj : Cert.Spec.Mat 10000 10000) (u : Fin 10000 → Fin 7 → EReal) (b2 : Cert.Spec.Vct 30) (W3 : Cert.Spec.Mat 30 7) (b3 : Cert.Spec.Vct 7) (c : Dev nD)
    (hadj : ∀ n k : Fin 10000, V c main_v7_1 (ix2 n k) = adj (ix2 n k))
    (hu : ∀ (n : Fin 10000) (j : Fin 7), V c main_v7_0 (ix2 n j) = u n j)
    (hb2 : ∀ b : Fin 30, V c main_v1 (ix2 (0 : Fin 1) b) = b2 (ix1 b))
    (hW3 : ∀ (b : Fin 30) (j : Fin 7), V c main_arg6 (ix2 b j) = W3 (ix2 b j))
    (hb3 : ∀ j : Fin 7, V c main_v2 (ix2 (0 : Fin 1) j) = b3 (ix1 j))
    (k : Fin 10000) (j : Fin 7) :
    (scr2 V c (ix2 k j) : EReal) = Cert.Spec.agg7 adj u (Cert.Spec.c23 b2 W3) k j := by
  unfold scr2
  refine (View.canon_apply_of_pieces (fun y : S10000x7.Idx => (Cert.Spec.agg7 adj u (Cert.Spec.c23 b2 W3) (y 0) (y 1) : EReal))
    (pieces2 V c 10) ?_ (ix2 k j) (cover2 V c (ix2 k j))).trans rfl
  intro p hp x
  obtain ⟨m, h, rfl⟩ := mem_pieces2 V c p 10 hp
  obtain ⟨r, j', rfl⟩ : ∃ (r : Fin 1000) (j' : Fin 7), x = ix2 r j' := ⟨x 0, x 1, eq_ix2 x⟩
  refine (piece2_rows V adj u b2 W3 b3 c hadj hu hb2 hW3 hb3 m h r j').trans ?_
  have e0 : ((piece2 V c m h).1.emb (ix2 r j')) 0 = (⟨1000 * m + r.val, by omega⟩ : Fin 10000) := Fin.ext (by
    show k2_off1 (grid2.coords (pt2 m h)) 0 + 1 * r.val = 1000 * m + r.val
    rw [congrFun (k2_off1_eq (grid2.coords (pt2 m h))) 0]
    show 1000 * (((grid2.coords (pt2 m h)) 0).val % 10) + 1 * r.val = 1000 * m + r.val
    rw [hcoord2 (pt2 m h)]
    show 1000 * (m % 10) + 1 * r.val = 1000 * m + r.val
    omega)
  have e1 : ((piece2 V c m h).1.emb (ix2 r j')) 1 = j' := Fin.ext (by
    show k2_off1 (grid2.coords (pt2 m h)) 1 + 1 * j'.val = j'.val
    rw [congrFun (k2_off1_eq (grid2.coords (pt2 m h))) 1]
    show 0 + 1 * j'.val = j'.val
    omega)
  show _ = Cert.Spec.agg7 adj u (Cert.Spec.c23 b2 W3) (((piece2 V c m h).1.emb (ix2 r j')) 0) (((piece2 V c m h).1.emb (ix2 r j')) 1)
  rw [e0, e1]

/-! ## The output block of a point of the second stage -/

/-- The logits the second stage computes: the aggregated support aggregated again, plus the third bias. -/
abbrev logits (adj : Cert.Spec.Mat 10000 10000) (u : Fin 10000 → Fin 7 → EReal) (b2 : Cert.Spec.Vct 30) (W3 : Cert.Spec.Mat 30 7) (b3 : Cert.Spec.Vct 7) :
    Fin 10000 → Fin 7 → EReal :=
  Cert.Spec.agg7 adj (Cert.Spec.agg7 adj u (Cert.Spec.c23 b2 W3)) (fun j => b3 (ix1 j))

theorem out2_5_apply (adj : Cert.Spec.Mat 10000 10000) (u : Fin 10000 → Fin 7 → EReal) (b2 : Cert.Spec.Vct 30) (W3 : Cert.Spec.Mat 30 7) (b3 : Cert.Spec.Vct 7) (c : Dev nD)
    (hadj : ∀ n k : Fin 10000, V c main_v7_1 (ix2 n k) = adj (ix2 n k))
    (hu : ∀ (n : Fin 10000) (j : Fin 7), V c main_v7_0 (ix2 n j) = u n j)
    (hb2 : ∀ b : Fin 30, V c main_v1 (ix2 (0 : Fin 1) b) = b2 (ix1 b))
    (hW3 : ∀ (b : Fin 30) (j : Fin 7), V c main_arg6 (ix2 b j) = W3 (ix2 b j))
    (hb3 : ∀ j : Fin 7, V c main_v2 (ix2 (0 : Fin 1) j) = b3 (ix1 j))
    (t : Fin cfg2.N) (h10 : 10 ≤ t.val) (r : Fin 1000) (j : Fin 7) (n : Fin 10000) (hn : n.val = 1000 * (t.val - 10) + r.val) :
    (out2_5 V c t (ix2 r j) : EReal) = Cert.Spec.result (logits adj u b2 W3 b3) (ix2 n j) := by
  have hN : t.val < 20 := lt_of_lt_of_eq t.isLt N_2
  unfold out2_5
  refine (pay2_apply _ _ _ r j).trans ?_
  show Cert.Spec.lsm _ j = Cert.Spec.lsm (logits adj u b2 W3 b3 n) j
  congr 1
  funext j'
  show _ = (∑ k : Fin 10000, adj (ix2 n k) * Cert.Spec.agg7 adj u (Cert.Spec.c23 b2 W3) k j') + b3 (ix1 j')
  refine congrArg₂ (· + ·) (Finset.sum_congr rfl fun k _ => ?_) ?_
  · refine congrArg₂ (· * ·) ?_ ?_
    · exact (iblk2_0_apply V c t r k n (by rw [hn]; omega)).trans (hadj n k)
    · exact scr2_apply V adj u b2 W3 b3 c hadj hu hb2 hW3 hb3 k j'
  · exact (iblk2_4_apply V c t j').trans (hb3 j')

theorem hxsize2_5 : ∀ t : Fin cfg2.N, win2_5.xsize (grid2.coords t) 0 = 1000 ∧ win2_5.xsize (grid2.coords t) 1 = 7 :=
  (by decide +kernel : ∀ t : Fin grid2.N, win2_5.xsize (grid2.coords t) 0 = 1000 ∧ win2_5.xsize (grid2.coords t) 1 = 7)

/-- What a point of the second stage writes back is its block of the result. -/
theorem flushed2_5 (adj : Cert.Spec.Mat 10000 10000) (u : Fin 10000 → Fin 7 → EReal) (b2 : Cert.Spec.Vct 30) (W3 : Cert.Spec.Mat 30 7) (b3 : Cert.Spec.Vct 7) (c : Dev nD)
    (hadj : ∀ n k : Fin 10000, V c main_v7_1 (ix2 n k) = adj (ix2 n k))
    (hu : ∀ (n : Fin 10000) (j : Fin 7), V c main_v7_0 (ix2 n j) = u n j)
    (hb2 : ∀ b : Fin 30, V c main_v1 (ix2 (0 : Fin 1) b) = b2 (ix1 b))
    (hW3 : ∀ (b : Fin 30) (j : Fin 7), V c main_arg6 (ix2 b j) = W3 (ix2 b j))
    (hb3 : ∀ j : Fin 7, V c main_v2 (ix2 (0 : Fin 1) j) = b3 (ix1 j))
    (t : Fin cfg2.N) (hf : (cfg2.win 5).flush t = true) :
    (dat2 V c).flushed 5 t = ((cfg2.win 5).blk t).view.read (Elt Ideal) (Cert.Spec.result (logits adj u b2 W3 b3)) := by
  have h10 : 10 ≤ t.val := (flush2_5 t).mp hf
  show (cfg2.win 5).cut (grid2.coords t) ((dat2 V c).after 5 t) = _
  rw [after2_5]
  funext x
  obtain ⟨r, j, rfl⟩ : ∃ (r : Fin 1000) (j : Fin 7), x = ix2 r j := ⟨x 0, x 1, eq_ix2 x⟩
  rw [View.read_apply]
  show (out2_5 V c t (ix2 r j) : EReal) = Cert.Spec.result (logits adj u b2 W3 b3) _
  refine (out2_5_apply V adj u b2 W3 b3 c hadj hu hb2 hW3 hb3 t h10 r j ⟨1000 * (t.val - 10) + r.val, by have := lt_of_lt_of_eq t.isLt N_2; omega⟩ rfl).trans ?_
  congr 1
  funext a
  apply Fin.ext
  match a with
  | ⟨0, _⟩ => show 1000 * (t.val - 10) + r.val = win2_5.index t 0 * 1000 + 1 * r.val; rw [(hidx2_5 t).1]; omega
  | ⟨1, _⟩ => show j.val = win2_5.index t 1 * 7 + 1 * j.val; rw [(hidx2_5 t).2]; omega

end V2

open V2 in
/-- THE VALUE of region 2: after the last write-back the output array holds the log-softmax of the logits
    `adj · (adj · u + b2 · W3) + b3`, entry by entry, from what the region's input arrays hold when it is entered. -/
theorem value2 (V : (c : Dev nD) → (b : Ref sig .tc) → Buf (Elt Ideal) ((c : Thread nD τ).loc b)) (adj : Cert.Spec.Mat 10000 10000) (u : Fin 10000 → Fin 7 → EReal) (b2 : Cert.Spec.Vct 30) (W3 : Cert.Spec.Mat 30 7) (b3 : Cert.Spec.Vct 7) (c : Dev nD)
    (hadj : ∀ n k : Fin 10000, V c main_v7_1 (ix2 n k) = adj (ix2 n k))
    (hu : ∀ (n : Fin 10000) (j : Fin 7), V c main_v7_0 (ix2 n j) = u n j)
    (hb2 : ∀ b : Fin 30, V c main_v1 (ix2 (0 : Fin 1) b) = b2 (ix1 b))
    (hW3 : ∀ (b : Fin 30) (j : Fin 7), V c main_arg6 (ix2 b j) = W3 (ix2 b j))
    (hb3 : ∀ j : Fin 7, V c main_v2 (ix2 (0 : Fin 1) j) = b3 (ix1 j))
    (i : S10000x7.Idx) : (dat2 (F := Ideal) V c).arrAt 5 cfg2.N i
        = Cert.Spec.result (Cert.Spec.agg7 adj (Cert.Spec.agg7 adj u (Cert.Spec.c23 b2 W3)) (fun j => b3 (ix1 j))) i := by
  have key := (dat2 (F := Ideal) V c).arrAt_eq_of_cover 5 (Cert.Spec.result (logits adj u b2 W3 b3))
    (flushed2_5 V adj u b2 W3 b3 c hadj hu hb2 hW3 hb3) (fun i => by
      have hi0 : (i 0).val < 10000 := (i 0).isLt
      have hi1 : (i 1).val < 7 := (i 1).isLt
      have htN : 10 + (i 0).val / 1000 < cfg2.N := lt_of_lt_of_eq (by omega : 10 + (i 0).val / 1000 < 20) N_2.symm
      refine ⟨⟨10 + (i 0).val / 1000, htN⟩, (flush2_5 ⟨10 + (i 0).val / 1000, htN⟩).mpr (by show 10 ≤ 10 + (i 0).val / 1000; omega), ?_⟩
      show i ∈ ((View.whole main_v8).slice (win2_5.rect ⟨10 + (i 0).val / 1000, htN⟩)).set
      rw [View.set_slice_whole, Rect.mem_set_unit]
      intro a
      match a with
      | ⟨0, _⟩ =>
        show win2_5.index ⟨10 + (i 0).val / 1000, htN⟩ 0 * win2_5.size 0 ≤ (i 0 : Nat) ∧ (i 0 : Nat) < win2_5.index ⟨10 + (i 0).val / 1000, htN⟩ 0 * win2_5.size 0 + win2_5.xsize (grid2.coords ⟨10 + (i 0).val / 1000, htN⟩) 0
        rw [(hidx2_5 ⟨10 + (i 0).val / 1000, htN⟩).1, (hxsize2_5 ⟨10 + (i 0).val / 1000, htN⟩).1]
        show (10 + (i 0).val / 1000 - 10) * 1000 ≤ (i 0 : Nat) ∧ (i 0 : Nat) < (10 + (i 0).val / 1000 - 10) * 1000 + 1000
        omega
      | ⟨1, _⟩ =>
        show win2_5.index ⟨10 + (i 0).val / 1000, htN⟩ 1 * win2_5.size 1 ≤ (i 1 : Nat) ∧ (i 1 : Nat) < win2_5.index ⟨10 + (i 0).val / 1000, htN⟩ 1 * win2_5.size 1 + win2_5.xsize (grid2.coords ⟨10 + (i 0).val / 1000, htN⟩) 1
        rw [(hidx2_5 ⟨10 + (i 0).val / 1000, htN⟩).2, (hxsize2_5 ⟨10 + (i 0).val / 1000, htN⟩).2]
        show 0 * 7 ≤ (i 1 : Nat) ∧ (i 1 : Nat) < 0 * 7 + 7
        omega)
  exact congrFun key i

end Cert.KernelIdeal.Hand

end
-- ==== Proof.KI.Result.lean ====
import proofs.«145497_g38912403702117_cont_8to1_b_1654_14_alg».proof.Proof.KI.Frame
import proofs.«145497_g38912403702117_cont_8to1_b_1654_14_alg».proof.Proof.KI.HostRead
import proofs.«145497_g38912403702117_cont_8to1_b_1654_14_alg».proof.Proof.KI.Value0
import proofs.«145497_g38912403702117_cont_8to1_b_1654_14_alg».proof.Proof.KI.Value1
import proofs.«145497_g38912403702117_cont_8to1_b_1654_14_alg».proof.Proof.KI.Value2
import proofs.«145497_g38912403702117_cont_8to1_b_1654_14_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-! ## The three regions composed: the result array is the kernel's arrangement of the specification

  Region 0 leaves the first support `s1 = x · W1`; region 1 reads it with the adjacency and leaves
  `u = (h1 · W2) · W3` beside a copy of the adjacency; region 2 reads both and leaves the log-softmax of
  `adj · (adj · u + b2 · W3) + b3`. -/

/-- The adjacency as region 1 finds it. -/
theorem Vr1_adj (n k : Fin 10000) :
    (Vr1 m c main_arg1 : S10000x10000.Idx → EReal) (ix2 n k) = (m ((c : Thread nD τ).loc main_arg1) : S10000x10000.Idx → EReal) (ix2 n k) :=
  congrFun (W5_main_arg1 m c) _

/-- The first support as region 1 finds it: what region 0 wrote. -/
theorem Vr1_s1 (n : Fin 10000) (a : Fin 60) :
    (Vr1 m c main_v6 : S10000x60.Idx → EReal) (ix2 n a)
      = Cert.Spec.s1 (m ((c : Thread nD τ).loc main_arg0)) (m ((c : Thread nD τ).loc main_arg2)) n a :=
  (congrFun (W5_arr m c 2) _).trans
    (value0 (Vr0 m) (m ((c : Thread nD τ).loc main_arg0)) (m ((c : Thread nD τ).loc main_arg2)) c
      (fun f n => V4_main_v4 m c f n) (fun f a => V4_main_v5 m c f a) n a)

/-- The first bias row as region 1 finds it. -/
theorem Vr1_b1 (a : Fin 60) :
    (Vr1 m c main_v0 : S1x60.Idx → EReal) (ix2 (0 : Fin 1) a) = (m ((c : Thread nD τ).loc main_arg3) : S60.Idx → EReal) (ix1 a) :=
  (congrFun (W5_of_ne m c main_v0 (by decide)) _).trans (V4_main_v0 m c a)

/-- The support `u` as region 2 finds it: what region 1 wrote. -/
theorem Vr2_u (n : Fin 10000) (j : Fin 7) :
    (Vr2 m c main_v7_0 : S10000x7.Idx → EReal) (ix2 n j)
      = Cert.Spec.uK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg6)) n j :=
  (congrFun (W6_arr m c 5) _).trans
    (value1_u (Vr1 m) (m ((c : Thread nD τ).loc main_arg1))
      (Cert.Spec.s1 (m ((c : Thread nD τ).loc main_arg0)) (m ((c : Thread nD τ).loc main_arg2)))
      (m ((c : Thread nD τ).loc main_arg3)) (m ((c : Thread nD τ).loc main_arg4)) (m ((c : Thread nD τ).loc main_arg6)) c
      (Vr1_adj m c) (Vr1_s1 m c) (Vr1_b1 m c)
      (fun a b => congrFun (W5_main_arg4 m c) _) (fun b j => congrFun (W5_main_arg6 m c) _) n j)

/-- The adjacency's copy as region 2 finds it. -/
theorem Vr2_adj (n k : Fin 10000) :
    (Vr2 m c main_v7_1 : S10000x10000.Idx → EReal) (ix2 n k) = (m ((c : Thread nD τ).loc main_arg1) : S10000x10000.Idx → EReal) (ix2 n k) :=
  (congrFun (W6_arr m c 6) _).trans ((value1_adj (Vr1 m) c n k).trans (Vr1_adj m c n k))

/-- THE RESULT: region 2's output array is the log-softmax of the kernel's logits. -/
theorem result_eq :
    ((dat2 (F := Ideal) (Vr2 m) c).arrAt 5 cfg2.N : S10000x7.Idx → EReal)
      = Cert.Spec.result (Cert.Spec.logitsKer (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))) := by
  funext i
  exact value2 (Vr2 m) (m ((c : Thread nD τ).loc main_arg1))
    (Cert.Spec.uK (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6)))
    (m ((c : Thread nD τ).loc main_arg5)) (m ((c : Thread nD τ).loc main_arg6)) (m ((c : Thread nD τ).loc main_arg7)) c
    (Vr2_adj m c) (Vr2_u m c)
    (fun b => (congrFun (W6_of_ne m c main_v1 (by decide)) _).trans ((congrFun (W5_of_ne m c main_v1 (by decide)) _).trans (V4_main_v1 m c b)))
    (fun b j => congrFun (W6_main_arg6 m c) _)
    (fun j => (congrFun (W6_of_ne m c main_v2 (by decide)) _).trans ((congrFun (W5_of_ne m c main_v2 (by decide)) _).trans (V4_main_v2 m c j)))
    i

end Cert.KernelIdeal.Hand

end
-- ==== Proof.RefValue.lean ====
/-
  The reference program computes the specification.  Its 33 host operations are read one at a time at an index
  `(n, a)`: a contraction is the sum over the contracted coordinate, a bias row laid along every row is the bias
  at the column, the clamp against a broadcast zero is `max · 0`, and the inlined log-softmax is the row maximum
  folded from `⊥` (the word 0xFF800000 is `⊥`, and `max ⊥ y = y`), the shift by it, the exponential, the row sum
  from `0`, its logarithm, and the final subtraction.  Stage by stage these are `Spec.s1`, `Spec.hid`, `Spec.p2`,
  `Spec.h2`, `Spec.p3`, `Spec.agg7` (together `Spec.logitsRef`), `Spec.rowMax` and `Spec.lsm`.
-/
import proofs.«145497_g38912403702117_cont_8to1_b_1654_14_alg».proof.Proof.RefRead
import proofs.«145497_g38912403702117_cont_8to1_b_1654_14_alg».proof.Proof.LibRowFold
import proofs.«145497_g38912403702117_cont_8to1_b_1654_14_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- The word of negative infinity is the bottom of the extended reals. -/
theorem ofBits_negInf : Ideal.ofBits .f32 0xFF800000#32 = (⊥ : EReal) := by simp [Ideal.ofBits, Ideal.ieee]

/-- Two indices of rank 2 with the same coordinates are equal. -/
local macro "idx2" : tactic =>
  `(tactic| exact funext fun d => Fin.ext (by match d with | ⟨0, _⟩ => rfl | ⟨1, _⟩ => rfl))
/-- Two indices of rank 1 with the same coordinate are equal. -/
local macro "idx1" : tactic =>
  `(tactic| exact funext fun d => Fin.ext (by match d with | ⟨0, _⟩ => rfl))

section Stages

variable (x0 : (⟨S10000x1433, .f32⟩ : BufTy).Contents (Elt Ideal)) (x1 : (⟨S10000x10000, .f32⟩ : BufTy).Contents (Elt Ideal)) (x2 : (⟨S1433x60, .f32⟩ : BufTy).Contents (Elt Ideal)) (x3 : (⟨S60, .f32⟩ : BufTy).Contents (Elt Ideal)) (x4 : (⟨S60x30, .f32⟩ : BufTy).Contents (Elt Ideal)) (x5 : (⟨S30, .f32⟩ : BufTy).Contents (Elt Ideal)) (x6 : (⟨S30x7, .f32⟩ : BufTy).Contents (Elt Ideal)) (x7 : (⟨S7, .f32⟩ : BufTy).Contents (Elt Ideal))

/-- `x · W1` at `(n, a)`. -/
theorem v0_at (n : Fin 10000) (a : Fin 60) :
    val_main_v0 (F := Ideal) x0 x2 (ix2 n a) = Spec.s1 x0 x2 n a := by
  rw [val_main_v0_apply]; unfold Spec.s1
  refine Finset.sum_congr rfl fun k _ => ?_
  have el : lidx_main_v0 (ix2 n a) k = ix2 n k := by idx2
  have er : ridx_main_v0 (ix2 n a) k = ix2 k a := by idx2
  rw [el, er]

/-- `adj · (x · W1)` at `(n, a)`. -/
theorem v1_at (n : Fin 10000) (a : Fin 60) :
    val_main_v1 (F := Ideal) x0 x1 x2 (ix2 n a) = ∑ k : Fin 10000, x1 (ix2 n k) * Spec.s1 x0 x2 k a := by
  rw [val_main_v1_apply]
  refine Finset.sum_congr rfl fun k _ => ?_
  have el : lidx_main_v1 (ix2 n a) k = ix2 n k := by idx2
  have er : ridx_main_v1 (ix2 n a) k = ix2 k a := by idx2
  rw [el, er, v0_at]

/-- The first bias laid along every row. -/
theorem v3_at (n : Fin 10000) (a : Fin 60) : val_main_v3 (F := Ideal) x3 (ix2 n a) = x3 (ix1 a) := by
  rw [val_main_v3_apply, val_main_v2_apply]
  exact congrArg x3 (by idx1)

/-- The hidden layer at `(n, a)`. -/
theorem v5_at (n : Fin 10000) (a : Fin 60) :
    val_main_v5 (F := Ideal) x0 x1 x2 x3 (ix2 n a) = Spec.hid x0 x1 x2 x3 n a := by
  rw [val_main_v5_apply, val_main_v4_apply, v1_at, v3_at, val_main_call0_v0_apply, val_main_call0_cst_apply]
  unfold Spec.hid Spec.h1
  simp only [Ideal.maximumf_def, Ideal.addf_def, Ideal.ofBits_def, Ideal.ofBits_zero_f32]

/-- `h1 · W2` at `(n, b)`. -/
theorem v6_at (n : Fin 10000) (b : Fin 30) :
    val_main_v6 (F := Ideal) x0 x1 x2 x3 x4 (ix2 n b) = Spec.p2 (Spec.hid x0 x1 x2 x3) x4 n b := by
  rw [val_main_v6_apply]; unfold Spec.p2
  refine Finset.sum_congr rfl fun k _ => ?_
  have el : lidx_main_v6 (ix2 n b) k = ix2 n k := by idx2
  have er : ridx_main_v6 (ix2 n b) k = ix2 k b := by idx2
  rw [el, er, v5_at]

/-- `adj · (h1 · W2)` at `(n, b)`. -/
theorem v7_at (n : Fin 10000) (b : Fin 30) :
    val_main_v7 (F := Ideal) x0 x1 x2 x3 x4 (ix2 n b)
      = ∑ k : Fin 10000, x1 (ix2 n k) * Spec.p2 (Spec.hid x0 x1 x2 x3) x4 k b := by
  rw [val_main_v7_apply]
  refine Finset.sum_congr rfl fun k _ => ?_
  have el : lidx_main_v7 (ix2 n b) k = ix2 n k := by idx2
  have er : ridx_main_v7 (ix2 n b) k = ix2 k b := by idx2
  rw [el, er, v6_at]

/-- The second bias laid along every row. -/
theorem v9_at (n : Fin 10000) (b : Fin 30) : val_main_v9 (F := Ideal) x5 (ix2 n b) = x5 (ix1 b) := by
  rw [val_main_v9_apply, val_main_v8_apply]
  exact congrArg x5 (by idx1)

/-- The second layer at `(n, b)`. -/
theorem v10_at (n : Fin 10000) (b : Fin 30) :
    val_main_v10 (F := Ideal) x0 x1 x2 x3 x4 x5 (ix2 n b)
      = Spec.h2 x1 (Spec.p2 (Spec.hid x0 x1 x2 x3) x4) x5 n b := by
  rw [val_main_v10_apply, v7_at, v9_at]
  unfold Spec.h2
  simp only [Ideal.addf_def]

/-- `h2 · W3` at `(n, j)`. -/
theorem v11_at (n : Fin 10000) (j : Fin 7) :
    val_main_v11 (F := Ideal) x0 x1 x2 x3 x4 x5 x6 (ix2 n j)
      = Spec.p3 (Spec.h2 x1 (Spec.p2 (Spec.hid x0 x1 x2 x3) x4) x5) x6 n j := by
  rw [val_main_v11_apply]; unfold Spec.p3
  refine Finset.sum_congr rfl fun k _ => ?_
  have el : lidx_main_v11 (ix2 n j) k = ix2 n k := by idx2
  have er : ridx_main_v11 (ix2 n j) k = ix2 k j := by idx2
  rw [el, er, v10_at]

/-- `adj · (h2 · W3)` at `(n, j)`. -/
theorem v12_at (n : Fin 10000) (j : Fin 7) :
    val_main_v12 (F := Ideal) x0 x1 x2 x3 x4 x5 x6 (ix2 n j)
      = ∑ k : Fin 10000, x1 (ix2 n k) * Spec.p3 (Spec.h2 x1 (Spec.p2 (Spec.hid x0 x1 x2 x3) x4) x5) x6 k j := by
  rw [val_main_v12_apply]
  refine Finset.sum_congr rfl fun k _ => ?_
  have el : lidx_main_v12 (ix2 n j) k = ix2 n k := by idx2
  have er : ridx_main_v12 (ix2 n j) k = ix2 k j := by idx2
  rw [el, er, v11_at]

/-- The third bias laid along every row. -/
theorem v14_at (n : Fin 10000) (j : Fin 7) : val_main_v14 (F := Ideal) x7 (ix2 n j) = x7 (ix1 j) := by
  rw [val_main_v14_apply, val_main_v13_apply]
  exact congrArg x7 (by idx1)

/-- The logits at `(n, j)`. -/
theorem v15_at (n : Fin 10000) (j : Fin 7) :
    val_main_v15 (F := Ideal) x0 x1 x2 x3 x4 x5 x6 x7 (ix2 n j) = Spec.logitsRef x0 x1 x2 x3 x4 x5 x6 x7 n j := by
  rw [val_main_v15_apply, v12_at, v14_at]
  unfold Spec.logitsRef Spec.agg7
  simp only [Ideal.addf_def]

/-- The row maximum of the logits, folded from negative infinity. -/
theorem rowmax_at (n : Fin 10000) :
    val_main_call1_v0 (F := Ideal) x0 x1 x2 x3 x4 x5 x6 x7 (ix1 n)
      = Spec.rowMax (Spec.logitsRef x0 x1 x2 x3 x4 x5 x6 x7 n) := by
  unfold val_main_call1_v0
  refine (Cert.Lib.RowFold.hostReduce_maximumf_row (val_main_v15 (F := Ideal) x0 x1 x2 x3 x4 x5 x6 x7)
    (val_main_call1_cst (F := Ideal)) reducesTo_S10000x7_S10000_d1 (by decide) h_S_ n).trans ?_
  unfold Spec.rowMax
  simp only [val_main_call1_cst_apply, Ideal.ofBits_def, ofBits_negInf, v15_at]

/-- The maximum of negative infinity and the row maximum is the row maximum. -/
theorem v2c_at (n : Fin 10000) :
    val_main_call1_v2 (F := Ideal) x0 x1 x2 x3 x4 x5 x6 x7 (ix1 n)
      = Spec.rowMax (Spec.logitsRef x0 x1 x2 x3 x4 x5 x6 x7 n) := by
  rw [val_main_call1_v2_apply, val_main_call1_v1_apply, val_main_call1_cst_0_apply, rowmax_at]
  simp only [Ideal.maximumf_def, Ideal.ofBits_def, ofBits_negInf, max_bot_left]

/-- The row maximum kept as a column and spread along the row. -/
theorem v4c_at (n : Fin 10000) (j : Fin 7) :
    val_main_call1_v4 (F := Ideal) x0 x1 x2 x3 x4 x5 x6 x7 (ix2 n j)
      = Spec.rowMax (Spec.logitsRef x0 x1 x2 x3 x4 x5 x6 x7 n) := by
  rw [val_main_call1_v4_apply, val_main_call1_v3_apply]
  have e : idx_main_call1_v3 (idx_main_call1_v4 (ix2 n j)) = ix1 n := by idx1
  rw [e, v2c_at]

/-- The shifted logits. -/
theorem v5c_at (n : Fin 10000) (j : Fin 7) :
    val_main_call1_v5 (F := Ideal) x0 x1 x2 x3 x4 x5 x6 x7 (ix2 n j)
      = Spec.logitsRef x0 x1 x2 x3 x4 x5 x6 x7 n j - Spec.rowMax (Spec.logitsRef x0 x1 x2 x3 x4 x5 x6 x7 n) := by
  rw [val_main_call1_v5_apply, v15_at, v4c_at]
  simp only [Ideal.subf_def]

/-- The exponentials of the shifted logits. -/
theorem v6c_at (n : Fin 10000) (j : Fin 7) :
    val_main_call1_v6 (F := Ideal) x0 x1 x2 x3 x4 x5 x6 x7 (ix2 n j)
      = Ideal.exp (Spec.logitsRef x0 x1 x2 x3 x4 x5 x6 x7 n j - Spec.rowMax (Spec.logitsRef x0 x1 x2 x3 x4 x5 x6 x7 n)) := by
  rw [val_main_call1_v6_apply, v5c_at]
  simp only [Ideal.hostUnary_exp_def]

/-- The row sum of the exponentials, from zero. -/
theorem v7c_at (n : Fin 10000) :
    val_main_call1_v7 (F := Ideal) x0 x1 x2 x3 x4 x5 x6 x7 (ix1 n)
      = ∑ k : Fin 7, Ideal.exp (Spec.logitsRef x0 x1 x2 x3 x4 x5 x6 x7 n k - Spec.rowMax (Spec.logitsRef x0 x1 x2 x3 x4 x5 x6 x7 n)) := by
  rw [val_main_call1_v7_apply, val_main_call1_cst_1_apply]
  simp only [Ideal.ofBits_def, Ideal.ofBits_zero_f32, zero_add]
  refine Finset.sum_congr rfl fun k _ => ?_
  have e : idx_main_call1_v7 (ix1 n) k = ix2 n k := by idx2
  rw [e, v6c_at]

/-- The logarithm of the row sum, kept as a column and spread along the row. -/
theorem v10c_at (n : Fin 10000) (j : Fin 7) :
    val_main_call1_v10 (F := Ideal) x0 x1 x2 x3 x4 x5 x6 x7 (ix2 n j)
      = Ideal.log (∑ k : Fin 7, Ideal.exp (Spec.logitsRef x0 x1 x2 x3 x4 x5 x6 x7 n k - Spec.rowMax (Spec.logitsRef x0 x1 x2 x3 x4 x5 x6 x7 n))) := by
  rw [val_main_call1_v10_apply, val_main_call1_v9_apply, val_main_call1_v8_apply]
  have e : idx_main_call1_v8 (idx_main_call1_v10 (ix2 n j)) = ix1 n := by idx1
  rw [e, v7c_at]
  simp only [Ideal.hostUnary_log_def]

/-- The result at `(n, j)` is the log-softmax of the row of logits. -/
theorem v16_at (n : Fin 10000) (j : Fin 7) :
    val_main_v16 (F := Ideal) x0 x1 x2 x3 x4 x5 x6 x7 (ix2 n j)
      = Spec.lsm (Spec.logitsRef x0 x1 x2 x3 x4 x5 x6 x7 n) j := by
  rw [val_main_v16_apply, v5c_at, v10c_at]
  unfold Spec.lsm
  simp only [Ideal.subf_def]

/-- The last stage of the reference is the specification's result. -/
theorem val_eq : val_main_v16 (F := Ideal) x0 x1 x2 x3 x4 x5 x6 x7
      = Spec.result (Spec.logitsRef x0 x1 x2 x3 x4 x5 x6 x7) := by
  funext i
  obtain ⟨n, j, rfl⟩ : ∃ (n : Fin 10000) (j : Fin 7), i = ix2 n j := ⟨i 0, i 1, eq_ix2 i⟩
  exact v16_at x0 x1 x2 x3 x4 x5 x6 x7 n j

end Stages

/-- The reference's result term is the specification. -/
theorem ref_eq (m : (ℓ : Loc nD τ sig) → Buf (Elt Ideal) ℓ) (c : Dev nD) :
    Cert.ReferenceIdeal.ValueP.res_main_v16 (F := Ideal) m c
      = Spec.result (Spec.logitsRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (val_main_v16_eq m c).trans (val_eq _ _ _ _ _ _ _ _)

/-- The reference's run, with its result stated as the specification: every weakly fair execution of @main terminates
    with the result buffer holding the log-softmax of the reference's logits and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = Spec.result (Spec.logitsRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1).trans (ref_eq m c), (h c).2⟩)
    (Cert.ReferenceIdeal.ValueP.run (F := Ideal) m ρ)

end Cert.ReferenceIdeal.RefValue

end
-- ==== Proof.LibSoftmaxUnit.lean ====
/-
  Extended-real arithmetic for a row softmax that is averaged over the very axis it normalizes.

  At the exact extended reals a softmax row `e_k / Σ_j e_j` sums to one as soon as every `e_k` is a positive
  real, whatever the scores were; its mean over `n` entries is then `1/n`, a constant row; and the softmax of a
  constant row of `n` entries is `1/n` again. The lemmas below are the pieces of that argument, stated for the
  operations as they read at the exact instance: `Ideal.div`, `Ideal.exp`, `Ideal.sqrt`, `max`, finite sums with an
  initial value, and a maximum folded from `⊥`.
-/
import Idealize.ShloMosaic.PureOps.Ideal
import Idealize.ShloMosaic.PureOps.Ideal.Laws

noncomputable section

namespace Idealize.ShloMosaic.SoftmaxUnit

open Idealize.ShloMosaic

/-- `x` is a real number: neither infinity. -/
def IsReal (x : EReal) : Prop := ∃ r : ℝ, x = (r : EReal)

/-- `x` is a positive real number. -/
def IsPos (x : EReal) : Prop := ∃ r : ℝ, 0 < r ∧ x = (r : EReal)

theorem IsReal.coe (r : ℝ) : IsReal (r : EReal) := ⟨r, rfl⟩

theorem IsPos.isReal {x : EReal} (h : IsPos x) : IsReal x := by
  obtain ⟨r, -, rfl⟩ := h; exact ⟨r, rfl⟩

theorem IsReal.zero : IsReal 0 := ⟨0, by norm_cast⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type*} (s : Finset ι) (g : ι → EReal) (h : ∀ k, IsReal (g k)) : IsReal (∑ k ∈ s, g k) := by
  choose f hf using h
  exact ⟨∑ k ∈ s, f k, by rw [← coe_sum]; exact Finset.sum_congr rfl fun k _ => hf k⟩

/-- The quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem IsReal.div_pos {x y : EReal} (hx : IsReal x) (hy : IsPos y) : IsReal (Ideal.div x y) := by
  obtain ⟨a, rfl⟩ := hx; obtain ⟨b, hb, rfl⟩ := hy
  exact ⟨a / b, div_coe_coe a b hb.ne'⟩

/-- A Euclidean norm floored at a positive real: `max (√s) e` is a positive real for every real `s` — below zero the
    root is the junk `⊥` and the floor is the value. -/
theorem IsPos.max_sqrt {s e : EReal} (hs : IsReal s) (he : IsPos e) : IsPos (max (Ideal.sqrt s) e) := by
  obtain ⟨r, rfl⟩ := hs; obtain ⟨q, hq, rfl⟩ := he
  rw [Ideal.sqrt_coe]
  split_ifs with h
  · exact ⟨q, hq, max_eq_right bot_le⟩
  · exact ⟨max (Real.sqrt r) q, lt_max_of_lt_right hq, EReal.coe_strictMono.monotone.map_max.symm⟩

/-- The exponential of a real number is a positive real. -/
theorem IsPos.exp {x : EReal} (hx : IsReal x) : IsPos (Ideal.exp x) := by
  obtain ⟨r, rfl⟩ := hx; exact ⟨Real.exp r, Real.exp_pos r, Ideal.exp_coe r⟩

/-- A maximum folded from `⊥` is the supremum. -/
theorem fold_max_bot {ι : Type*} (s : Finset ι) (g : ι → EReal) : s.fold max ⊥ g = s.sup g := rfl

/-- The maximum, folded from `⊥`, of a nonempty family of reals is a real. -/
theorem IsReal.fold_max {ι : Type*} (s : Finset ι) (hs : s.Nonempty) (g : ι → EReal) (h : ∀ k, IsReal (g k)) :
    IsReal (s.fold max ⊥ g) := by
  rw [fold_max_bot]
  obtain ⟨i, -, e⟩ := Finset.exists_mem_eq_sup s hs g
  rw [e]; exact h i

/-- The maximum, folded from `⊥`, of a nonempty constant family is the constant. -/
theorem fold_max_const {ι : Type*} (s : Finset ι) (hs : s.Nonempty) (c : EReal) : s.fold max ⊥ (fun _ => c) = c := by
  rw [fold_max_bot]; exact Finset.sup_const hs c

/-- A ROW OF A SOFTMAX SUMS TO ONE: positive reals `p k`, each divided by their sum, add up to `1` (both sums taken from
    the initial value `0`, as a host reduction states them). -/
theorem sum_div_total {ι : Type*} [Fintype ι] [Nonempty ι] (p : ι → EReal) (hp : ∀ k, IsPos (p k)) :
    (0 : EReal) + ∑ k, Ideal.div (p k) ((0 : EReal) + ∑ j, p j) = 1 := by
  choose f hf0 hf using hp
  have hS : 0 < ∑ j, f j := Finset.sum_pos (fun j _ => hf0 j) Finset.univ_nonempty
  have e1 : (0 : EReal) + ∑ j, p j = ((∑ j, f j : ℝ) : EReal) := by
    rw [zero_add, ← coe_sum]; exact Finset.sum_congr rfl fun k _ => hf k
  rw [e1, zero_add]
  have e2 : ∀ k, Ideal.div (p k) ((∑ j, f j : ℝ) : EReal) = ((f k / ∑ j, f j : ℝ) : EReal) := fun k => by
    rw [hf k]; exact div_coe_coe _ _ hS.ne'
  rw [Finset.sum_congr rfl fun k _ => e2 k, coe_sum, ← Finset.sum_div, div_self hS.ne']
  norm_cast

/-- THE SOFTMAX OF A CONSTANT ROW is uniform: with every score the real `c` and the row's maximum `c` too, each entry
    `exp (c - c)` divided by the sum of the `n` of them is `1/n`. -/
theorem softmax_const (n : ℕ) (hn : 0 < n) (c : ℝ) :
    Ideal.div (Ideal.exp ((c : EReal) - (c : EReal))) ((0 : EReal) + ∑ _k : Fin n, Ideal.exp ((c : EReal) - (c : EReal)))
      = ((1 / (n : ℝ) : ℝ) : EReal) := by
  have e : Ideal.exp ((c : EReal) - (c : EReal)) = ((1 : ℝ) : EReal) := by
    rw [← EReal.coe_sub, sub_self, Ideal.exp_coe, Real.exp_zero]
  rw [e, zero_add, coe_sum, Finset.sum_const, Finset.card_univ, Fintype.card_fin, nsmul_eq_mul, mul_one]
  exact div_coe_coe 1 (n : ℝ) (by positivity)

end Idealize.ShloMosaic.SoftmaxUnit

end
-- ==== Proof.Algebra.lean ====
/-
  The kernel's arrangement of the last two layers equals the reference's, when every input entry is a real number.

  The reference forms  h2 = adj · g + b2  (with g = h1 · W2) and then projects:  h2 · W3.  The kernel projects first,
  u = g · W3, and aggregates afterwards:  adj · u + b2 · W3.  Entry by entry this is

      Σ_k a(k) · (Σ_b g(k,b) · w(b)) + Σ_b c(b) · w(b)  =  Σ_b ((Σ_k a(k) · g(k,b)) + c(b)) · w(b),

  associativity of the matrix product together with distributivity over the bias row. On the extended reals
  multiplication does not distribute over addition at the infinities, so the law is proved for entries that are
  reals: real witnesses are chosen for every entry, the coercion is pushed outside the sums and products, and the
  identity is the one over the real numbers (exchange the two finite sums, then reassociate each term). It is stated over
  arbitrary finite index types, so no sum over a literal extent is ever expanded.

  The hidden layer is the same term on both sides, and every entry of it is a real: finite sums of products of
  reals, plus a real, clamped at zero.
-/
import proofs.«145497_g38912403702117_cont_8to1_b_1654_14_alg».proof.Proof.Spec
import proofs.«145497_g38912403702117_cont_8to1_b_1654_14_alg».proof.Proof.LibSoftmaxUnit
import Mathlib.Tactic.Ring
import Mathlib.Tactic.Choose

noncomputable section

open scoped BigOperators

namespace Cert.Spec

open Idealize.ShloMosaic Idealize.ShloMosaic.ValueIdx

export Idealize.ShloMosaic.SoftmaxUnit (IsReal)

open Idealize.ShloMosaic.SoftmaxUnit (coe_sum)

/-- A real clamped at zero is a real. -/
theorem isReal_max_zero {v : EReal} (h : IsReal v) : IsReal (max v 0) := by
  obtain ⟨r, rfl⟩ := h
  exact ⟨max r 0, by rw [← EReal.coe_zero]; exact EReal.coe_strictMono.monotone.map_max.symm⟩

/-- Over the reals: aggregate the projected rows and add the projected bias = project the aggregated, biased row. -/
theorem regroup_real {K B : Type*} [Fintype K] [Fintype B] (a : K → ℝ) (g : K → B → ℝ) (c w : B → ℝ) :
    (∑ k, a k * ∑ b, g k b * w b) + ∑ b, c b * w b = ∑ b, ((∑ k, a k * g k b) + c b) * w b := by
  simp only [add_mul, Finset.sum_add_distrib, Finset.sum_mul, Finset.mul_sum]
  congr 1
  rw [Finset.sum_comm]
  exact Finset.sum_congr rfl fun b _ => Finset.sum_congr rfl fun k _ => by ring

/-- The same on the extended reals, for entries that are reals. -/
theorem regroup {K B : Type*} [Fintype K] [Fintype B] (a : K → EReal) (g : K → B → EReal) (c w : B → EReal)
    (ha : ∀ k, IsReal (a k)) (hg : ∀ k b, IsReal (g k b)) (hc : ∀ b, IsReal (c b)) (hw : ∀ b, IsReal (w b)) :
    (∑ k, a k * ∑ b, g k b * w b) + ∑ b, c b * w b = ∑ b, ((∑ k, a k * g k b) + c b) * w b := by
  choose a' ha' using ha
  choose g' hg' using hg
  choose c' hc' using hc
  choose w' hw' using hw
  obtain rfl : a = fun k => (a' k : EReal) := funext ha'
  obtain rfl : g = fun k b => (g' k b : EReal) := funext fun k => funext fun b => hg' k b
  obtain rfl : c = fun b => (c' b : EReal) := funext hc'
  obtain rfl : w = fun b => (w' b : EReal) := funext hw'
  have h := congrArg (fun r : ℝ => (r : EReal)) (regroup_real a' g' c' w')
  simp only [← coe_sum, EReal.coe_add, EReal.coe_mul] at h
  exact h

section layers

variable (x : Mat 10000 1433) (adj : Mat 10000 10000) (W1 : Mat 1433 60) (b1 : Vct 60) (W2 : Mat 60 30)

/-- Every entry of the first support is a real. -/
theorem isReal_s1 (hx : ∀ i, IsReal (x i)) (hW1 : ∀ i, IsReal (W1 i)) (n : Fin 10000) (a : Fin 60) :
    IsReal (s1 x W1 n a) :=
  Idealize.ShloMosaic.SoftmaxUnit.IsReal.sum _ _ fun f => (hx (ix2 n f)).mul (hW1 (ix2 f a))

/-- Every entry of the hidden layer is a real. -/
theorem isReal_hid (hx : ∀ i, IsReal (x i)) (hadj : ∀ i, IsReal (adj i)) (hW1 : ∀ i, IsReal (W1 i))
    (hb1 : ∀ i, IsReal (b1 i)) (n : Fin 10000) (a : Fin 60) : IsReal (hid x adj W1 b1 n a) :=
  isReal_max_zero
    ((Idealize.ShloMosaic.SoftmaxUnit.IsReal.sum _ _ fun k => (hadj (ix2 n k)).mul (isReal_s1 x W1 hx hW1 k a)).add (hb1 (ix1 a)))

/-- Every entry of the hidden layer projected by `W2` is a real. -/
theorem isReal_p2 (h : Fin 10000 → Fin 60 → EReal) (hh : ∀ n a, IsReal (h n a)) (hW2 : ∀ i, IsReal (W2 i))
    (n : Fin 10000) (b : Fin 30) : IsReal (p2 h W2 n b) :=
  Idealize.ShloMosaic.SoftmaxUnit.IsReal.sum _ _ fun a => (hh n a).mul (hW2 (ix2 a b))

end layers

/-- THE TWO ARRANGEMENTS AGREE: for a real adjacency, a real 30-wide support `g`, a real bias `b2` and real weights `W3`,
    aggregating the projected support and adding the projected bias is projecting the aggregated, biased support. -/
theorem agg7_p3_eq (adj : Mat 10000 10000) (g : Fin 10000 → Fin 30 → EReal) (b2 : Vct 30) (W3 : Mat 30 7)
    (hadj : ∀ i, IsReal (adj i)) (hg : ∀ n b, IsReal (g n b)) (hb2 : ∀ i, IsReal (b2 i)) (hW3 : ∀ i, IsReal (W3 i)) :
    agg7 adj (p3 g W3) (c23 b2 W3) = p3 (h2 adj g b2) W3 := by
  funext n j
  exact regroup (fun k => adj (ix2 n k)) g (fun b => b2 (ix1 b)) (fun b => W3 (ix2 b j))
    (fun k => hadj _) hg (fun b => hb2 _) (fun b => hW3 _)

/-- The kernel's logits are the reference's logits, for inputs whose every entry is a real. -/
theorem logits_eq (x : Mat 10000 1433) (adj : Mat 10000 10000) (W1 : Mat 1433 60) (b1 : Vct 60) (W2 : Mat 60 30)
    (b2 : Vct 30) (W3 : Mat 30 7) (b3 : Vct 7)
    (hx : ∀ i, IsReal (x i)) (hadj : ∀ i, IsReal (adj i)) (hW1 : ∀ i, IsReal (W1 i)) (hb1 : ∀ i, IsReal (b1 i))
    (hW2 : ∀ i, IsReal (W2 i)) (hb2 : ∀ i, IsReal (b2 i)) (hW3 : ∀ i, IsReal (W3 i)) (hb3 : ∀ i, IsReal (b3 i)) :
    logitsKer x adj W1 b1 W2 b2 W3 b3 = logitsRef x adj W1 b1 W2 b2 W3 b3 := by
  unfold logitsKer logitsRef uK
  rw [agg7_p3_eq adj (p2 (hid x adj W1 b1) W2) b2 W3 hadj
    (isReal_p2 W2 _ (isReal_hid x adj W1 b1 hx hadj hW1 hb1) hW2) hb2 hW3]

end Cert.Spec

end
-- ==== Proof.Finite.lean ====
/-
  From the certificate's precondition to "every entry of every argument array is a real number".

  The precondition is the conjunction, over the eight argument arrays, of "every entry `v` has `|v| < +∞`", where
  `|v|` is `max v (−v)` and `+∞` is the single-precision word whose exponent field is all ones and whose fraction is
  zero. On the extended reals `max v (−v) < ⊤` fails at both infinities (at `⊥` the negation is `⊤`), so it
  holds exactly when `v` is the coercion of a real. A conjunction of one-bit words is 1 only when each word is 1, and a
  reduction by `and` over a whole array is 1 only when every entry is 1.
-/
import proofs.«145497_g38912403702117_cont_8to1_b_1654_14_alg».proof.Defs
import proofs.«145497_g38912403702117_cont_8to1_b_1654_14_alg».proof.Proof.Gen.Pre_finite_inputs
import proofs.«145497_g38912403702117_cont_8to1_b_1654_14_alg».proof.Proof.Algebra
import Idealize.ShloMosaic.Lib.ReduceAll
import Idealize.ShloMosaic.Lib.ValueIdx

noncomputable section

namespace Cert.Spec

open Idealize.ShloMosaic Idealize.SL.Sem Idealize.ShloMosaic.ValueIdx

instance : Subsingleton Cert.Pre_finite_inputs.S_.Idx := ⟨fun a b => funext fun d => d.elim0⟩

/-- An extended real whose absolute value `max v (−v)` is below the word for `+∞` is a real. -/
theorem isReal_of_abs_lt_inf (v : EReal)
    (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  unfold Ideal.cmp at h
  induction v using EReal.rec with
  | bot => simp at h
  | coe r => exact ⟨r, rfl⟩
  | top => simp at h

/-- An array all of whose entries pass `|v| < +∞` (the reduction by `and` of the comparisons is 1) has real entries. -/
theorem isReal_of_all {s : Shape} {axes : List (Fin s.rank)} (x : FVec Ideal s .f32)
    (bc : Cert.Pre_finite_inputs.S_.BroadcastsInDim s (![] : Fin 0 → Fin s.rank))
    (init : IVec Cert.Pre_finite_inputs.S_ 1) (hr : s.ReducesTo axes Cert.Pre_finite_inputs.S_)
    (hu : 0 < Cert.Pre_finite_inputs.S_.numel) (j : Cert.Pre_finite_inputs.S_.Idx)
    (e : Host.reduce IntOp.andi
        (cmpf .olt (Host.absf x) (broadcastInDim s ![] bc (constant Cert.Pre_finite_inputs.S_ .f32 0x7F800000#32)))
        init hr hu j = 1#1)
    (i : s.Idx) : IsReal (x i) :=
  isReal_of_abs_lt_inf (x i) (Host.reduce_andi_all _ init hr hu j e i)

/-- Under the precondition every entry of each of the eight argument arrays is a real, on every device. -/
theorem real_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i)) := by
  have h0 := congrFun (h c) ValueIdx.ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ _ _ _ e0, isReal_of_all _ _ _ _ _ _ e1, isReal_of_all _ _ _ _ _ _ e2,
    isReal_of_all _ _ _ _ _ _ e3, isReal_of_all _ _ _ _ _ _ e4, isReal_of_all _ _ _ _ _ _ e5,
    isReal_of_all _ _ _ _ _ _ e6, isReal_of_all _ _ _ _ _ _ e7⟩

/-- Under the precondition the kernel's logits of the argument arrays are the reference's logits of them. -/
theorem logits_eq_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    logitsKer (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = logitsRef (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  obtain ⟨h0, h1, h2, h3, h4, h5, h6, h7⟩ := real_of_pre m h c
  exact logits_eq _ _ _ _ _ _ _ _ h0 h1 h2 h3 h4 h5 h6 h7

end Cert.Spec

end
-- ==== Proof.Claims.lean ====
/-
  The claims that rest on the two runs and on the algebra, assembled.

  Both programs are run from memories that agree on the eight arguments. The reference's run ends with its result
  buffer at the log-softmax of the reference's logits and its arguments unchanged; the kernel's run ends with its
  result buffer at the last region's output array and its arguments unchanged. Given that this output array is the
  log-softmax of the kernel's logits (the hypothesis `hres`), the two results are one function: under the
  precondition every argument entry is a real, and for real entries the kernel's logits are the reference's.
  The two frame claims are the runs with the result's conjunct dropped.
-/
import proofs.«145497_g38912403702117_cont_8to1_b_1654_14_alg».proof.Defs
import proofs.«145497_g38912403702117_cont_8to1_b_1654_14_alg».proof.Proof.Gen.Kernel
import proofs.«145497_g38912403702117_cont_8to1_b_1654_14_alg».proof.Proof.Gen.KernelIdeal
import proofs.«145497_g38912403702117_cont_8to1_b_1654_14_alg».proof.Proof.Gen.ReferenceIdeal
import proofs.«145497_g38912403702117_cont_8to1_b_1654_14_alg».proof.Proof.Gen.Pre_finite_inputs
import proofs.«145497_g38912403702117_cont_8to1_b_1654_14_alg».proof.Proof.KI.Frame
import proofs.«145497_g38912403702117_cont_8to1_b_1654_14_alg».proof.Proof.RefValue
import proofs.«145497_g38912403702117_cont_8to1_b_1654_14_alg».proof.Proof.Finite

noncomputable section

namespace Cert.Proof.Claims

open Idealize.ShloMosaic Idealize.ShloMosaic.TcCoe Idealize.SL.Sem

/-- The reference runs and leaves its arguments unchanged: its run with the result's conjunct dropped. -/
theorem frame_ri : Cert.frame_ReferenceIdeal := fun m ρ _ =>
  (θ_run Cert.ReferenceIdeal.defs _ _).mono (fun _ h c => (h c).2) (Cert.ReferenceIdeal.RefValue.run m ρ)

/-- The kernel, read at the exact instance, runs and leaves its arguments unchanged. -/
theorem frame_pi : Cert.frame_KernelIdeal := fun m ρ _ => Cert.KernelIdeal.Hand.frame (F := Ideal) m ρ

section Algebraic

open Cert.KernelIdeal Cert.KernelIdeal.Gen Cert.KernelIdeal.Hand

/-- From memories agreeing on the arguments both programs run, end with equal results, and leave the arguments
    unchanged, PROVIDED the kernel's last output array is the log-softmax of the kernel's logits. -/
theorem algebraic_of
    (hres : ∀ (m : (ℓ : Loc nD τ sig) → Buf (Elt Ideal) ℓ) (c : Dev nD),
      ((dat2 (F := Ideal) (Vr2 m) c).arrAt 5 cfg2.N : S10000x7.Idx → EReal)
        = Cert.Spec.result (Cert.Spec.logitsKer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))) :
    Cert.algebraic_KernelIdeal_ReferenceIdeal := by
  intro m ρ m' ρ' hpre hagree
  refine ⟨fun c => Cert.Spec.result (Cert.Spec.logitsKer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))), ?_, ?_⟩
  · exact (θ_run defs _ _).mono (fun _ h c => ⟨(h c).1.trans (hres m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.RefValue.run m' ρ')
    obtain ⟨a0, a1, a2, a3, a4, a5, a6, a7⟩ := hagree c
    rw [a0, a1, a2, a3, a4, a5, a6, a7]
    exact congrArg Cert.Spec.result (Cert.Spec.logits_eq_of_pre m hpre c).symm

end Algebraic

end Cert.Proof.Claims

end
-- ==== Proof.lean ====
/-
  The certificate of a three-layer graph convolution over a dense adjacency, computed by three kernel regions, against
  its plain reference, both ending in a row-wise log-softmax.

  What the kernel computes. Region 0 contracts the transposed, zero-padded `x` with the zero-padded `W1` twelve blocks of
  128 rows at a time, accumulating in a scratch array, and writes `s1 = x · W1` at the last block (the padded rows add
  `0 · 0`). Region 1 streams the adjacency 400 rows at a time: `h1 = max (adj · s1 + b1) 0`, then `u = (h1 · W2) · W3`,
  and copies the adjacency beside it. Region 2 streams that copy 1000 rows at a time twice: ten points fill a scratch
  array with `t = adj · u + b2 · W3`, ten more write the log-softmax of `adj · t + b3`.
  What the reference computes: `h2 = adj · (h1 · W2) + b2`, `h3 = adj · (h2 · W3) + b3`, and the log-softmax of `h3`.
  Why they agree: for finite inputs every intermediate entry is a real number, the matrix product is associative and
  distributes over the bias, so `t = h2 · W3` and the two logits are one matrix; the log-softmax is the same function
  of a row on both sides (shift by the row's maximum folded from `⊥`, subtract the log of the sum of exponentials).
  At the extended reals a change of float format is the identity, a product into a zero accumulator is the plain sum,
  and a sum may be regrouped freely; only the associativity and distributivity above need the inputs to be finite.

  The three frames: every execution of each program terminates without a fault and leaves the eight argument arrays
  as launched. For the kernel this is the chain of the four host stretches and the three regions, each region entered
  with every unscoped buffer at named contents and left with its output arrays at what its write-backs leave; the
  carried scratch of regions 0 and 2 is tracked point by point in the region's invariant. The word-level program has
  the same text as the idealized one (no rewrite was applied), so its frame is the same proof at the other instance,
  and the preservation claim has no conjunct.
-/
import proofs.«145497_g38912403702117_cont_8to1_b_1654_14_alg».proof.Defs
import proofs.«145497_g38912403702117_cont_8to1_b_1654_14_alg».proof.Proof.Gen.Kernel
import proofs.«145497_g38912403702117_cont_8to1_b_1654_14_alg».proof.Proof.Gen.KernelIdeal
import proofs.«145497_g38912403702117_cont_8to1_b_1654_14_alg».proof.Proof.Gen.ReferenceIdeal
import proofs.«145497_g38912403702117_cont_8to1_b_1654_14_alg».proof.Proof.Gen.Pre_finite_inputs
import proofs.«145497_g38912403702117_cont_8to1_b_1654_14_alg».proof.Proof.K.Frame
import proofs.«145497_g38912403702117_cont_8to1_b_1654_14_alg».proof.Proof.KI.Result
import proofs.«145497_g38912403702117_cont_8to1_b_1654_14_alg».proof.Proof.Claims
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_p : Cert.frame_Kernel := fun m ρ _ => Cert.Kernel.Hand.frame (F := Bits) m ρ

/-- The idealized kernel and the idealized reference end with equal results: the kernel's result array is the
    log-softmax of its logits, the reference's of its own, and for finite inputs the two logits are one matrix. -/
theorem algebraic : Cert.algebraic_KernelIdeal_ReferenceIdeal :=
  Cert.Proof.Claims.algebraic_of fun m c => Cert.KernelIdeal.Hand.result_eq m c

theorem claim : Cert.Claim :=
  ⟨Cert.Kernel.Gen.facts, Cert.KernelIdeal.Gen.facts, Cert.ReferenceIdeal.Gen.facts, Cert.Pre_finite_inputs.Gen.facts,
    frame_p, Cert.Proof.Claims.frame_pi, Cert.Proof.Claims.frame_ri, trivial, algebraic⟩

end Cert.Proof

end
